-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1000000x4 : Shape := ⟨3, ![8, 1000000, 4]⟩
abbrev S_ : Shape := ⟨0, ![]⟩

class Facts : Prop where
  bcast_S_S8x1000000x4 : S_.BroadcastsInDim S8x1000000x4 (![] : Fin 0 → Fin S8x1000000x4.rank)
  reducesTo_S8x1000000x4_S_d0_1_2 : S8x1000000x4.ReducesTo [0, 1, 2] S_
  h_S_ : 0 < S_.numel

variable [Facts]

def fn {F : FTy → Type} [FloatOps F] (main_arg0 : FVec F S8x1000000x4 .f32) : IVec S_ 1 :=
  let main_v0 : FVec F S8x1000000x4 .f32 := Host.absf main_arg0
  let main_cst : FVec F S_ .f32 := constant S_ .f32 0x7F800000#32
  let main_v1 : FVec F S8x1000000x4 .f32 := broadcastInDim S8x1000000x4 ![] bcast_S_S8x1000000x4 main_cst
  let main_v2 : IVec S8x1000000x4 1 := cmpf .olt main_v0 main_v1
  let main_c : IVec S_ 1 := constantI S_ 1 1#1
  let main_v3 : IVec S_ 1 := (fun x v => Host.reduce IntOp.andi x v reducesTo_S8x1000000x4_S_d0_1_2 h_S_) main_v2 main_c
  main_v3
-- ==== Kernel.lean ====
abbrev S8x1000000x4 : Shape := ⟨3, ![8, 1000000, 4]⟩
abbrev S8x4x1000000 : Shape := ⟨3, ![8, 4, 1000000]⟩
abbrev S3x8x1000000 : Shape := ⟨3, ![3, 8, 1000000]⟩
abbrev S8x4x3456 : Shape := ⟨3, ![8, 4, 3456]⟩
abbrev S8x4x64 : Shape := ⟨3, ![8, 4, 64]⟩
abbrev S_ : Shape := ⟨0, ![]⟩
abbrev S8x1x3456 : Shape := ⟨3, ![8, 1, 3456]⟩
abbrev S8x3456 : Shape := ⟨2, ![8, 3456]⟩
abbrev S1x8x3456 : Shape := ⟨3, ![1, 8, 3456]⟩
abbrev S8x4x1152 : Shape := ⟨3, ![8, 4, 1152]⟩
abbrev S8x1x1152 : Shape := ⟨3, ![8, 1, 1152]⟩
abbrev S8x1152 : Shape := ⟨2, ![8, 1152]⟩
abbrev S1x8x1152 : Shape := ⟨3, ![1, 8, 1152]⟩
abbrev S8x1x64 : Shape := ⟨3, ![8, 1, 64]⟩
abbrev S8x64 : Shape := ⟨2, ![8, 64]⟩
abbrev S1x8x64 : Shape := ⟨3, ![1, 8, 64]⟩
abbrev S8x1000000x3 : Shape := ⟨3, ![8, 1000000, 3]⟩

abbrev nBuf : Table → Nat
  | .hbm => 4
  | .local .scVector .vmem => 2
  | _ => 0

abbrev bufTy : (tb : Table) → Fin (nBuf tb) → BufTy
  | .hbm, ⟨0, _⟩ => ⟨S8x1000000x4, .f32⟩
  | .hbm, ⟨1, _⟩ => ⟨S8x4x1000000, .f32⟩
  | .hbm, ⟨2, _⟩ => ⟨S3x8x1000000, .f32⟩
  | .hbm, ⟨3, _⟩ => ⟨S8x1000000x3, .f32⟩
  | .local .scVector .vmem, ⟨0, _⟩ => ⟨S8x4x3456, .f32⟩
  | .local .scVector .vmem, ⟨1, _⟩ => ⟨S8x4x64, .f32⟩
  | _, _ => ⟨S8x1000000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_7 : BitVec 32 := 0#32
  let c289_i32 : BitVec 32 := 289#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c289_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_9 : BitVec 32 := 1#32
  ⟨c0_i32_7, v26, c1_i32_9⟩
def k0_off1 (i : grid0.Coords) (k0_t1 : Fin (k0_t1_loop i).trips) : Fin 3 → Nat :=
  let c0_i32_18_r0 : BitVec 32 := 0#32
  let c0_i32_19_r0 : BitVec 32 := 0#32
  let c0_i32_7 : BitVec 32 := 0#32
  let c1_i32_9 : BitVec 32 := 1#32
  let arg6 : BitVec 32 := Scf.iv c0_i32_7 c1_i32_9 k0_t1
  let c32_i32_12 : BitVec 32 := 32#32
  let v30 : BitVec 32 := Scalar.muli arg6 c32_i32_12
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi v30 v1
  let c3456_i32 : BitVec 32 := 3456#32
  let v32 : BitVec 32 := Scalar.muli v31 c3456_i32
  ![0, 0, v32.toNat]
def k0_off2 (i : grid0.Coords) (k0_t1 : Fin (k0_t1_loop i).trips) : Fin 3 → Nat :=
  let c0_i32_13 : BitVec 32 := 0#32
  let c0_i32_20_r1 : BitVec 32 := 0#32
  let c0_i32_7 : BitVec 32 := 0#32
  let c1_i32_9 : BitVec 32 := 1#32
  let arg6 : BitVec 32 := Scf.iv c0_i32_7 c1_i32_9 k0_t1
  let c32_i32_12 : BitVec 32 := 32#32
  let v30 : BitVec 32 := Scalar.muli arg6 c32_i32_12
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi v30 v1
  let c3456_i32 : BitVec 32 := 3456#32
  let v32 : BitVec 32 := Scalar.muli v31 c3456_i32
  ![0, 0, v32.toNat]
def k0_off3 (i : grid0.Coords) (k0_t1 : Fin (k0_t1_loop i).trips) : Fin 3 → Nat :=
  let c1_i32_15 : BitVec 32 := 1#32
  let c0_i32_20_r2 : BitVec 32 := 0#32
  let c0_i32_7 : BitVec 32 := 0#32
  let c1_i32_9 : BitVec 32 := 1#32
  let arg6 : BitVec 32 := Scf.iv c0_i32_7 c1_i32_9 k0_t1
  let c32_i32_12 : BitVec 32 := 32#32
  let v30 : BitVec 32 := Scalar.muli arg6 c32_i32_12
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi v30 v1
  let c3456_i32 : BitVec 32 := 3456#32
  let v32 : BitVec 32 := Scalar.muli v31 c3456_i32
  ![1, 0, v32.toNat]
def k0_off4 (i : grid0.Coords) (k0_t1 : Fin (k0_t1_loop i).trips) : Fin 3 → Nat :=
  let c2_i32_17 : BitVec 32 := 2#32
  let c0_i32_20_r3 : BitVec 32 := 0#32
  let c0_i32_7 : BitVec 32 := 0#32
  let c1_i32_9 : BitVec 32 := 1#32
  let arg6 : BitVec 32 := Scf.iv c0_i32_7 c1_i32_9 k0_t1
  let c32_i32_12 : BitVec 32 := 32#32
  let v30 : BitVec 32 := Scalar.muli arg6 c32_i32_12
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi v30 v1
  let c3456_i32 : BitVec 32 := 3456#32
  let v32 : BitVec 32 := Scalar.muli v31 c3456_i32
  ![2, 0, v32.toNat]
@[reducible] def k0_t2_loop (i : grid0.Coords) : Scf.Loop 32 :=
  let c0_i32_7 : BitVec 32 := 0#32
  let c289_i32 : BitVec 32 := 289#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c289_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let v23 : BitVec 32 := Scalar.addi c0_i32_7 v22
  let c1_i32_10 : BitVec 32 := 1#32
  ⟨v26, v23, c1_i32_10⟩
def k0_off5 (i : grid0.Coords) (k0_t2 : Fin (k0_t2_loop i).trips) : Fin 3 → Nat :=
  let c0_i32_18_r4 : BitVec 32 := 0#32
  let c0_i32_19_r4 : BitVec 32 := 0#32
  let c0_i32_7 : BitVec 32 := 0#32
  let c289_i32 : BitVec 32 := 289#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c289_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg6 : BitVec 32 := Scf.iv v26 c1_i32_10 k0_t2
  let c32_i32_12 : BitVec 32 := 32#32
  let v30 : BitVec 32 := Scalar.muli arg6 c32_i32_12
  let v31 : BitVec 32 := Scalar.addi v30 v1
  let c3456_i32 : BitVec 32 := 3456#32
  let v32 : BitVec 32 := Scalar.muli v31 c3456_i32
  ![0, 0, v32.toNat]
def k0_off6 (i : grid0.Coords) (k0_t2 : Fin (k0_t2_loop i).trips) : Fin 3 → Nat :=
  let c0_i32_13 : BitVec 32 := 0#32
  let c0_i32_20_r5 : BitVec 32 := 0#32
  let c0_i32_7 : BitVec 32 := 0#32
  let c289_i32 : BitVec 32 := 289#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c289_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg6 : BitVec 32 := Scf.iv v26 c1_i32_10 k0_t2
  let c32_i32_12 : BitVec 32 := 32#32
  let v30 : BitVec 32 := Scalar.muli arg6 c32_i32_12
  let v31 : BitVec 32 := Scalar.addi v30 v1
  let c3456_i32 : BitVec 32 := 3456#32
  let v32 : BitVec 32 := Scalar.muli v31 c3456_i32
  ![0, 0, v32.toNat]
def k0_off7 (i : grid0.Coords) (k0_t2 : Fin (k0_t2_loop i).trips) : Fin 3 → Nat :=
  let c1_i32_15 : BitVec 32 := 1#32
  let c0_i32_20_r6 : BitVec 32 := 0#32
  let c0_i32_7 : BitVec 32 := 0#32
  let c289_i32 : BitVec 32 := 289#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c289_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg6 : BitVec 32 := Scf.iv v26 c1_i32_10 k0_t2
  let c32_i32_12 : BitVec 32 := 32#32
  let v30 : BitVec 32 := Scalar.muli arg6 c32_i32_12
  let v31 : BitVec 32 := Scalar.addi v30 v1
  let c3456_i32 : BitVec 32 := 3456#32
  let v32 : BitVec 32 := Scalar.muli v31 c3456_i32
  ![1, 0, v32.toNat]
def k0_off8 (i : grid0.Coords) (k0_t2 : Fin (k0_t2_loop i).trips) : Fin 3 → Nat :=
  let c2_i32_17 : BitVec 32 := 2#32
  let c0_i32_20_r7 : BitVec 32 := 0#32
  let c0_i32_7 : BitVec 32 := 0#32
  let c289_i32 : BitVec 32 := 289#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c289_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg6 : BitVec 32 := Scf.iv v26 c1_i32_10 k0_t2
  let c32_i32_12 : BitVec 32 := 32#32
  let v30 : BitVec 32 := Scalar.muli arg6 c32_i32_12
  let v31 : BitVec 32 := Scalar.addi v30 v1
  let c3456_i32 : BitVec 32 := 3456#32
  let v32 : BitVec 32 := Scalar.muli v31 c3456_i32
  ![2, 0, v32.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S8x1000000x4_S8x4x1000000_0_2_1 : S8x1000000x4.Transposes [0, 2, 1] S8x4x1000000
  inb_S8x4x3456_S8x1x3456_0_3_0 : ∀ a, (![0, 3, 0] : Fin 3 → Nat) a + S8x1x3456.size a ≤ S8x4x3456.size a
  squeezes_S8x1x3456_S8x3456 : S8x1x3456.Squeezes S8x3456
  squeezes_S1x8x3456_S8x3456 : S1x8x3456.Squeezes S8x3456
  inb_S8x4x3456_S8x1x3456_0_1_0 : ∀ a, (![0, 1, 0] : Fin 3 → Nat) a + S8x1x3456.size a ≤ S8x4x3456.size a
  inb_S8x4x3456_S8x1x3456_0_2_0 : ∀ a, (![0, 2, 0] : Fin 3 → Nat) a + S8x1x3456.size a ≤ S8x4x3456.size a
  inb_S8x4x3456_S8x4x1152_0_0_0 : ∀ a, (![0, 0, 0] : Fin 3 → Nat) a + S8x4x1152.size a ≤ S8x4x3456.size a
  inb_S8x4x1000000_S8x4x1152_0_0_998784 : ∀ a, (![0, 0, 998784] : Fin 3 → Nat) a + S8x4x1152.size a ≤ S8x4x1000000.size a
  inb_S8x4x3456_S8x1x1152_0_3_0 : ∀ a, (![0, 3, 0] : Fin 3 → Nat) a + S8x1x1152.size a ≤ S8x4x3456.size a
  squeezes_S8x1x1152_S8x1152 : S8x1x1152.Squeezes S8x1152
  inb_S3x8x1000000_S1x8x1152_0_0_998784 : ∀ a, (![0, 0, 998784] : Fin 3 → Nat) a + S1x8x1152.size a ≤ S3x8x1000000.size a
  squeezes_S1x8x1152_S8x1152 : S1x8x1152.Squeezes S8x1152
  inb_S8x4x3456_S8x1x1152_0_1_0 : ∀ a, (![0, 1, 0] : Fin 3 → Nat) a + S8x1x1152.size a ≤ S8x4x3456.size a
  inb_S3x8x1000000_S1x8x1152_1_0_998784 : ∀ a, (![1, 0, 998784] : Fin 3 → Nat) a + S1x8x1152.size a ≤ S3x8x1000000.size a
  inb_S8x4x3456_S8x1x1152_0_2_0 : ∀ a, (![0, 2, 0] : Fin 3 → Nat) a + S8x1x1152.size a ≤ S8x4x3456.size a
  inb_S3x8x1000000_S1x8x1152_2_0_998784 : ∀ a, (![2, 0, 998784] : Fin 3 → Nat) a + S1x8x1152.size a ≤ S3x8x1000000.size a
  inb_S8x4x1000000_S8x4x64_0_0_999936 : ∀ a, (![0, 0, 999936] : Fin 3 → Nat) a + S8x4x64.size a ≤ S8x4x1000000.size a
  inb_S8x4x64_S8x1x64_0_3_0 : ∀ a, (![0, 3, 0] : Fin 3 → Nat) a + S8x1x64.size a ≤ S8x4x64.size a
  squeezes_S8x1x64_S8x64 : S8x1x64.Squeezes S8x64
  inb_S3x8x1000000_S1x8x64_0_0_999936 : ∀ a, (![0, 0, 999936] : Fin 3 → Nat) a + S1x8x64.size a ≤ S3x8x1000000.size a
  squeezes_S1x8x64_S8x64 : S1x8x64.Squeezes S8x64
  inb_S8x4x64_S8x1x64_0_1_0 : ∀ a, (![0, 1, 0] : Fin 3 → Nat) a + S8x1x64.size a ≤ S8x4x64.size a
  inb_S3x8x1000000_S1x8x64_1_0_999936 : ∀ a, (![1, 0, 999936] : Fin 3 → Nat) a + S1x8x64.size a ≤ S3x8x1000000.size a
  inb_S8x4x64_S8x1x64_0_2_0 : ∀ a, (![0, 2, 0] : Fin 3 → Nat) a + S8x1x64.size a ≤ S8x4x64.size a
  inb_S3x8x1000000_S1x8x64_2_0_999936 : ∀ a, (![2, 0, 999936] : Fin 3 → Nat) a + S1x8x64.size a ≤ S3x8x1000000.size a
  transposes_S3x8x1000000_S8x1000000x3_1_2_0 : S3x8x1000000.Transposes [1, 2, 0] S8x1000000x3
  hcc0_scoped0 : 0 + S_.numel ≤ 16
  hcc0_scoped1 : 1 + S_.numel ≤ 16
  hcc0_scoped2 : 2 + S_.numel ≤ 16
  hcc0_scoped3 : 3 + S_.numel ≤ 16
  hcc0_scoped4 : 4 + S_.numel ≤ 16
  hcc0_scoped5 : 5 + S_.numel ≤ 16
  hcc0_scoped6 : 6 + S_.numel ≤ 16
  hcc0_scoped7 : 7 + S_.numel ≤ 16
  hcc0_scoped8 : 8 + S_.numel ≤ 16
  hcc0_scoped9 : 9 + S_.numel ≤ 16
  hcc0_scoped10 : 10 + S_.numel ≤ 16
  hcc0_scoped11 : 11 + S_.numel ≤ 16
  hcc0_scoped12 : 12 + S_.numel ≤ 16
  hcc0_scoped13 : 13 + S_.numel ≤ 16
  hcc0_scoped14 : 14 + S_.numel ≤ 16
  hcc0_scoped15 : 15 + S_.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, (k0_t1_loop i).OK
  k0_off1_inb : ∀ (i : grid0.Coords) (k0_t1 : Fin (k0_t1_loop i).trips), ∀ a, (k0_off1 i k0_t1) a + S8x4x3456.size a ≤ S8x4x1000000.size a
  k0_off2_inb : ∀ (i : grid0.Coords) (k0_t1 : Fin (k0_t1_loop i).trips), ∀ a, (k0_off2 i k0_t1) a + S1x8x3456.size a ≤ S3x8x1000000.size a
  k0_off3_inb : ∀ (i : grid0.Coords) (k0_t1 : Fin (k0_t1_loop i).trips), ∀ a, (k0_off3 i k0_t1) a + S1x8x3456.size a ≤ S3x8x1000000.size a
  k0_off4_inb : ∀ (i : grid0.Coords) (k0_t1 : Fin (k0_t1_loop i).trips), ∀ a, (k0_off4 i k0_t1) a + S1x8x3456.size a ≤ S3x8x1000000.size a
  k0_t2_ok : ∀ i : grid0.Coords, (k0_t2_loop i).OK
  k0_off5_inb : ∀ (i : grid0.Coords) (k0_t2 : Fin (k0_t2_loop i).trips), ∀ a, (k0_off5 i k0_t2) a + S8x4x3456.size a ≤ S8x4x1000000.size a
  k0_off6_inb : ∀ (i : grid0.Coords) (k0_t2 : Fin (k0_t2_loop i).trips), ∀ a, (k0_off6 i k0_t2) a + S1x8x3456.size a ≤ S3x8x1000000.size a
  k0_off7_inb : ∀ (i : grid0.Coords) (k0_t2 : Fin (k0_t2_loop i).trips), ∀ a, (k0_off7 i k0_t2) a + S1x8x3456.size a ≤ S3x8x1000000.size a
  k0_off8_inb : ∀ (i : grid0.Coords) (k0_t2 : Fin (k0_t2_loop i).trips), ∀ a, (k0_off8 i k0_t2) a + S1x8x3456.size a ≤ S3x8x1000000.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12
abbrev cc0_scoped13 : DmaSems sig S_ := SemArray.consecutive 13 S_ hcc0_scoped13
abbrev cc0_scoped14 : DmaSems sig S_ := SemArray.consecutive 14 S_ hcc0_scoped14
abbrev cc0_scoped15 : DmaSems sig S_ := SemArray.consecutive 15 S_ hcc0_scoped15

class Facts : Prop extends Facts₀ where

variable [Facts]
-- ==== ReferenceIdeal.lean ====
abbrev S8x1000000x4 : Shape := ⟨3, ![8, 1000000, 4]⟩
abbrev S3 : Shape := ⟨1, ![3]⟩
abbrev S8x1000000x3 : Shape := ⟨3, ![8, 1000000, 3]⟩
abbrev S_ : Shape := ⟨0, ![]⟩
abbrev S3x1 : Shape := ⟨2, ![3, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x1000000x4, .f32⟩
  | .hbm, ⟨1, _⟩ => ⟨S3, .i32⟩
  | .hbm, ⟨2, _⟩ => ⟨S8x1000000x3, .f32⟩
  | .hbm, ⟨3, _⟩ => ⟨S_, .i32⟩
  | .hbm, ⟨4, _⟩ => ⟨S3, .i32⟩
  | .hbm, ⟨5, _⟩ => ⟨S3, .i1⟩
  | .hbm, ⟨6, _⟩ => ⟨S_, .i32⟩
  | .hbm, ⟨7, _⟩ => ⟨S3, .i32⟩
  | .hbm, ⟨8, _⟩ => ⟨S3, .i32⟩
  | .hbm, ⟨9, _⟩ => ⟨S3, .i32⟩
  | .hbm, ⟨10, _⟩ => ⟨S3x1, .i32⟩
  | .hbm, ⟨11, _⟩ => ⟨S1, .i32⟩
  | .hbm, ⟨12, _⟩ => ⟨S_, .i32⟩
  | .hbm, ⟨13, _⟩ => ⟨S3x1, .i32⟩
  | .hbm, ⟨14, _⟩ => ⟨S3x1, .i1⟩
  | .hbm, ⟨15, _⟩ => ⟨S1x1, .i32⟩
  | .hbm, ⟨16, _⟩ => ⟨S3x1, .i32⟩
  | .hbm, ⟨17, _⟩ => ⟨S3x1, .i1⟩
  | .hbm, ⟨18, _⟩ => ⟨S3x1, .i1⟩
  | .hbm, ⟨19, _⟩ => ⟨S_, .i1⟩
  | .hbm, ⟨20, _⟩ => ⟨S3, .i1⟩
  | .hbm, ⟨21, _⟩ => ⟨S8x1000000x3, .f32⟩
  | .hbm, ⟨22, _⟩ => ⟨S8x1000000x3, .i1⟩
  | .hbm, ⟨23, _⟩ => ⟨S_, .f32⟩
  | .hbm, ⟨24, _⟩ => ⟨S8x1000000x3, .f32⟩
  | .hbm, ⟨25, _⟩ => ⟨S8x1000000x3, .f32⟩
  | _, _ => ⟨S8x1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  slices_S8x1000000x4_S8x1000000x3_0_0_1 : S8x1000000x4.Slices ![0, 0, 1] S8x1000000x3
  bcast_S_S3 : S_.BroadcastsInDim S3 (![] : Fin 0 → Fin S3.rank)
  bcast_S3_S3x1_0 : S3.BroadcastsInDim S3x1 (![0] : Fin 1 → Fin S3x1.rank)
  bcast_S_S3x1 : S_.BroadcastsInDim S3x1 (![] : Fin 0 → Fin S3x1.rank)
  bcast_S1_S1x1_1 : S1.BroadcastsInDim S1x1 (![1] : Fin 1 → Fin S1x1.rank)
  bcast_S1x1_S3x1_0_1 : S1x1.BroadcastsInDim S3x1 (![0, 1] : Fin 2 → Fin S3x1.rank)
  reducesTo_S3x1_S3_d1 : S3x1.ReducesTo [1] S3
  h_S_ : 0 < S_.numel
  bcast_S3_S8x1000000x3_2 : S3.BroadcastsInDim S8x1000000x3 (![2] : Fin 1 → Fin S8x1000000x3.rank)
  bcast_S_S8x1000000x3 : S_.BroadcastsInDim S8x1000000x3 (![] : Fin 0 → Fin S8x1000000x3.rank)
  gather_S8x1000000x3_S3x1_S8x1000000x3_01_2_n_n_2_1_810000001_wf : GatherDims.WF S8x1000000x3 S3x1 S8x1000000x3 [0, 1] [2] [] [2] [] 1 ![8, 1000000, 1]

variable [Facts₀]

def gather_S8x1000000x3_S3x1_S8x1000000x3_01_2_n_n_2_1_810000001 : GatherDims S8x1000000x3 S3x1 S8x1000000x3 where
  offsetDims := [0, 1]
  collapsedSliceDims := [2]
  operandBatchingDims := []
  startIndicesBatchingDims := []
  startIndexMap := [2]
  indexVectorDim := 1
  sliceSizes := ![8, 1000000, 1]
  wf := gather_S8x1000000x3_S3x1_S8x1000000x3_01_2_n_n_2_1_810000001_wf

class Facts : Prop extends Facts₀ where

variable [Facts]
-- ==== Proof.KB.Pieces.lean ====
/-
  The output array [3, 8, 1000000] is written in pieces, each the destination of one copy: piece `(L, k, ch)` is
  channel `ch`, all 8 batches, the 3456 columns of unit `32 k + w` (`w = 2 · L 1 + L 0` the worker's number,
  `k` below the worker's trip count); worker 31 also writes, per channel, the 1152 columns from 998784 and the last
  64 columns from 999936. Each piece is named here as the memref the program slices, so that its index set is the
  set a copy's destination is held on.
-/
import proofs.«216280_g62835371540565_cont_9to1_m_1109_19_alg».proof.Defs
import Idealize.ShloMosaic.Lib.SparseCore.Launch
import proofs.«216280_g62835371540565_cont_9to1_m_1109_19_alg».proof.Proof.Gen.Kernel

noncomputable section

namespace Cert.Proof.KB

open Cert.Kernel Cert.Kernel.Gen
open Idealize.ShloMosaic

/-- The whole output array, as a vector subcore names it. -/
abbrev otM : Memref sig .scVector .hbm S3x8x1000000 .f32 := Memref.whole main_v1_scv

/-- The worker's number: subcore index twice plus core index. -/
def wid (L : grid0.Coords) : ℕ := 2 * (L 1).val + (L 0).val

/-- Piece `(L, k, 0)`: channel 0 of unit `32 k + wid L`. -/
abbrev pc2 (L : grid0.Coords) (k : Fin (k0_t1_loop L).trips) : Memref sig .scVector .hbm S8x3456 .f32 :=
  ((Memref.whole main_v1_scv : Memref sig .scVector .hbm S3x8x1000000 .f32).slice (Rect.unit (s := S3x8x1000000) (k0_off2 L k) S1x8x3456.size (k0_off2_inb L k)) (fun _ => rfl)).squeeze S8x3456 squeezes_S1x8x3456_S8x3456
/-- Piece `(L, k, 1)`. -/
abbrev pc3 (L : grid0.Coords) (k : Fin (k0_t1_loop L).trips) : Memref sig .scVector .hbm S8x3456 .f32 :=
  ((Memref.whole main_v1_scv : Memref sig .scVector .hbm S3x8x1000000 .f32).slice (Rect.unit (s := S3x8x1000000) (k0_off3 L k) S1x8x3456.size (k0_off3_inb L k)) (fun _ => rfl)).squeeze S8x3456 squeezes_S1x8x3456_S8x3456
/-- Piece `(L, k, 2)`. -/
abbrev pc4 (L : grid0.Coords) (k : Fin (k0_t1_loop L).trips) : Memref sig .scVector .hbm S8x3456 .f32 :=
  ((Memref.whole main_v1_scv : Memref sig .scVector .hbm S3x8x1000000 .f32).slice (Rect.unit (s := S3x8x1000000) (k0_off4 L k) S1x8x3456.size (k0_off4_inb L k)) (fun _ => rfl)).squeeze S8x3456 squeezes_S1x8x3456_S8x3456

/-- The first tail, columns 998784 to 999936, channel 0, 1, 2. -/
abbrev ta0 : Memref sig .scVector .hbm S8x1152 .f32 :=
  ((Memref.whole main_v1_scv : Memref sig .scVector .hbm S3x8x1000000 .f32).slice (Rect.unit (s := S3x8x1000000) ![0, 0, 998784] S1x8x1152.size inb_S3x8x1000000_S1x8x1152_0_0_998784) (fun _ => rfl)).squeeze S8x1152 squeezes_S1x8x1152_S8x1152
abbrev ta1 : Memref sig .scVector .hbm S8x1152 .f32 :=
  ((Memref.whole main_v1_scv : Memref sig .scVector .hbm S3x8x1000000 .f32).slice (Rect.unit (s := S3x8x1000000) ![1, 0, 998784] S1x8x1152.size inb_S3x8x1000000_S1x8x1152_1_0_998784) (fun _ => rfl)).squeeze S8x1152 squeezes_S1x8x1152_S8x1152
abbrev ta2 : Memref sig .scVector .hbm S8x1152 .f32 :=
  ((Memref.whole main_v1_scv : Memref sig .scVector .hbm S3x8x1000000 .f32).slice (Rect.unit (s := S3x8x1000000) ![2, 0, 998784] S1x8x1152.size inb_S3x8x1000000_S1x8x1152_2_0_998784) (fun _ => rfl)).squeeze S8x1152 squeezes_S1x8x1152_S8x1152
/-- The second tail, columns 999936 to 1000000, channel 0, 1, 2. -/
abbrev tb0 : Memref sig .scVector .hbm S8x64 .f32 :=
  ((Memref.whole main_v1_scv : Memref sig .scVector .hbm S3x8x1000000 .f32).slice (Rect.unit (s := S3x8x1000000) ![0, 0, 999936] S1x8x64.size inb_S3x8x1000000_S1x8x64_0_0_999936) (fun _ => rfl)).squeeze S8x64 squeezes_S1x8x64_S8x64
abbrev tb1 : Memref sig .scVector .hbm S8x64 .f32 :=
  ((Memref.whole main_v1_scv : Memref sig .scVector .hbm S3x8x1000000 .f32).slice (Rect.unit (s := S3x8x1000000) ![1, 0, 999936] S1x8x64.size inb_S3x8x1000000_S1x8x64_1_0_999936) (fun _ => rfl)).squeeze S8x64 squeezes_S1x8x64_S8x64
abbrev tb2 : Memref sig .scVector .hbm S8x64 .f32 :=
  ((Memref.whole main_v1_scv : Memref sig .scVector .hbm S3x8x1000000 .f32).slice (Rect.unit (s := S3x8x1000000) ![2, 0, 999936] S1x8x64.size inb_S3x8x1000000_S1x8x64_2_0_999936) (fun _ => rfl)).squeeze S8x64 squeezes_S1x8x64_S8x64

/-- The index sets, all subsets of the output array's indices. -/
abbrev Ix : Type := S3x8x1000000.Idx
def A2 (L : grid0.Coords) (k : Fin (k0_t1_loop L).trips) : Finset Ix := (pc2 L k).view.set
def A3 (L : grid0.Coords) (k : Fin (k0_t1_loop L).trips) : Finset Ix := (pc3 L k).view.set
def A4 (L : grid0.Coords) (k : Fin (k0_t1_loop L).trips) : Finset Ix := (pc4 L k).view.set
def TA0 : Finset Ix := (ta0).view.set
def TA1 : Finset Ix := (ta1).view.set
def TA2 : Finset Ix := (ta2).view.set
def TB0 : Finset Ix := (tb0).view.set
def TB1 : Finset Ix := (tb1).view.set
def TB2 : Finset Ix := (tb2).view.set

/-- What one trip writes. -/
def tripSet (L : grid0.Coords) (k : Fin (k0_t1_loop L).trips) : Finset Ix := A2 L k ∪ (A3 L k ∪ A4 L k)
/-- What worker 31 writes after its loop. -/
def tailSet : Finset Ix := TA0 ∪ (TA1 ∪ (TA2 ∪ (TB0 ∪ (TB1 ∪ TB2))))
/-- Everything worker `L` writes. -/
def tileSet (L : grid0.Coords) : Finset Ix := (Finset.univ.biUnion (tripSet L)) ∪ (if wid L = 31 then tailSet else ∅)

end Cert.Proof.KB

end
-- ==== Proof.KB.Res.lean ====
import proofs.«216280_g62835371540565_cont_9to1_m_1109_19_alg».proof.Defs
import Idealize.ShloMosaic.Lib.SparseCore.Launch
import Idealize.ShloMosaic.Lib.StableHlo.Run
import Idealize.ShloMosaic.Lib.Pipeline.Kit
import Idealize.ShloMosaic.Lib.Tactic
import proofs.«216280_g62835371540565_cont_9to1_m_1109_19_alg».proof.Proof.KB.Pieces
import proofs.«216280_g62835371540565_cont_9to1_m_1109_19_alg».proof.Proof.Gen.Kernel
import proofs.«216280_g62835371540565_cont_9to1_m_1109_19_alg».proof.Proof.Gen.Kernel.Skeleton

noncomputable section

/-
  What a worker is handed of the output array: the pieces it writes, each held on the index set of the memref
  the program slices for the copy, so that a copy's destination is a held buffer. Worker `L` is handed the three
  pieces of each of its trips and, if it is worker 31, the six tail pieces.
-/
namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (d : Dev nD) (L : grid0.Coords)

/-- The worker's thread. -/
abbrev thrV (L : grid0.Coords) : Thread nD τ := V d ((L 0).castLE hcore0) ((L 1).castLE hsub0)
/-- The transposed input and the kernel's output, as the TensorCore names them. -/
abbrev xtLoc (d : Dev nD) : Loc nD τ sig := (SparseCore.T d).loc main_v0
abbrev otLoc (d : Dev nD) : Loc nD τ sig := (SparseCore.T d).loc main_v1

/-- A worker from its core and subcore numbers. -/
def coordsV (c : Fin (grid0.bound 0)) (s : Fin (grid0.bound 1)) : grid0.Coords :=
  fun | 0 => c | 1 => s | ⟨_ + 2, h⟩ => absurd h (Nat.not_lt.2 (Nat.le_add_left _ _))

/-- The three pieces of trip `k`, at contents `f`. -/
def trip3 (k : Fin (k0_t1_loop L).trips) (f : Buf (Elt F) (otLoc d)) : sProp 𝕄 :=
  iprop(((pc2 L k).view.loc (thrV d L) ↦[(pc2 L k).view.set]{fullShare} f)
    ∗ ((pc3 L k).view.loc (thrV d L) ↦[(pc3 L k).view.set]{fullShare} f)
    ∗ ((pc4 L k).view.loc (thrV d L) ↦[(pc4 L k).view.set]{fullShare} f))

/-- The six tail pieces, at contents `f`. -/
def tail6 (f : Buf (Elt F) (otLoc d)) : sProp 𝕄 :=
  iprop(((ta0).view.loc (thrV d L) ↦[(ta0).view.set]{fullShare} f)
    ∗ ((ta1).view.loc (thrV d L) ↦[(ta1).view.set]{fullShare} f)
    ∗ ((ta2).view.loc (thrV d L) ↦[(ta2).view.set]{fullShare} f)
    ∗ ((tb0).view.loc (thrV d L) ↦[(tb0).view.set]{fullShare} f)
    ∗ ((tb1).view.loc (thrV d L) ↦[(tb1).view.set]{fullShare} f)
    ∗ ((tb2).view.loc (thrV d L) ↦[(tb2).view.set]{fullShare} f))

/-- The tail pieces, for worker 31 only. -/
def tailRes (f : Buf (Elt F) (otLoc d)) : sProp 𝕄 := if wid L = 31 then tail6 d L f else iprop(emp)

/-- Everything worker `L` holds of the output array, at contents `f`. -/
def tileOut (f : Buf (Elt F) (otLoc d)) : sProp 𝕄 :=
  iprop((bigSep Finset.univ fun k : Fin (k0_t1_loop L).trips => trip3 d L k f) ∗ tailRes d L f)

end Cert.Proof.KB

end
-- ==== Proof.KB.Body.lean ====
import proofs.«216280_g62835371540565_cont_9to1_m_1109_19_alg».proof.Defs
import Idealize.ShloMosaic.Lib.SparseCore.Launch
import Idealize.ShloMosaic.Lib.StableHlo.Run
import Idealize.ShloMosaic.Lib.Pipeline.Kit
import Idealize.ShloMosaic.Lib.Tactic
import proofs.«216280_g62835371540565_cont_9to1_m_1109_19_alg».proof.Proof.KB.Res
import proofs.«216280_g62835371540565_cont_9to1_m_1109_19_alg».proof.Proof.Gen.Kernel
import proofs.«216280_g62835371540565_cont_9to1_m_1109_19_alg».proof.Proof.Gen.Kernel.Skeleton

noncomputable section

/-
  One worker's task. The worker holds a read share of the whole transposed input, its two scratch buffers, its
  sixteen copy semaphores at zero, and every piece of the output it writes, at the contents the launch found there.
  Its loop is run by an invariant: before trip `n` the pieces of trips below `n` hold the target contents `g`
  and the others their old contents; each trip fetches its block into the scratch and copies three scratch rows out,
  every copy waited for before the next is issued, so the semaphores are back at zero after each. The loop that
  follows has no trips. Worker 31 then copies the two tails the same way.
-/
namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xtW" => (Memref.whole Cert.Kernel.main_v0_scv : Memref Cert.Kernel.sig Kind.scVector Space.hbm Cert.Kernel.S8x4x1000000 EltTy.f32)
local notation "otW" => (Memref.whole Cert.Kernel.main_v1_scv : Memref Cert.Kernel.sig Kind.scVector Space.hbm Cert.Kernel.S3x8x1000000 EltTy.f32)
local notation "s0W" => (Memref.whole Cert.Kernel.cc0_scratch0 : Memref Cert.Kernel.sig Kind.scVector Space.vmem Cert.Kernel.S8x4x3456 EltTy.f32)
local notation "s1W" => (Memref.whole Cert.Kernel.cc0_scratch1 : Memref Cert.Kernel.sig Kind.scVector Space.vmem Cert.Kernel.S8x4x64 EltTy.f32)

macro "cell_ne" : tactic => `(tactic| (intro e; have e2 := (Prod.mk.inj e).2; revert e2; decide))

variable [FloatOps F]
variable (d : Dev nD) (L : grid0.Coords)

/-- The loop's pieces: those of trips below `n` at `g`, the others at `f`. -/
def pieces (n : ℕ) (g f : Buf (Elt F) (otLoc d)) : sProp 𝕄 :=
  bigSep Finset.univ fun k : Fin (k0_t1_loop L).trips => if k.val < n then trip3 d L k g else trip3 d L k f

omit [FloatOps F] in
theorem pieces_open (k : Fin (k0_t1_loop L).trips) (g f : Buf (Elt F) (otLoc d)) :
    pieces d L k.val g f = iprop(trip3 d L k f ∗ bigSep (Finset.univ.erase k) fun k' : Fin (k0_t1_loop L).trips => if k'.val < k.val then trip3 d L k' g else trip3 d L k' f) := by
  unfold pieces
  rw [SparseCore.bigSep_erase' (Finset.mem_univ k), if_neg (Nat.lt_irrefl _)]

omit [FloatOps F] in
theorem pieces_close (k : Fin (k0_t1_loop L).trips) (g f : Buf (Elt F) (otLoc d)) :
    iprop(trip3 d L k g ∗ bigSep (Finset.univ.erase k) fun k' : Fin (k0_t1_loop L).trips => if k'.val < k.val then trip3 d L k' g else trip3 d L k' f)
      = pieces d L (k.val + 1) g f := by
  unfold pieces
  rw [SparseCore.bigSep_erase' (Finset.mem_univ k), if_pos (Nat.lt_succ_self _)]
  congr 1
  refine bigSep_congr fun k' hk' => ?_
  have hne : k'.val ≠ k.val := fun e => (Finset.mem_erase.mp hk').1 (Fin.ext e)
  by_cases h : k'.val < k.val
  · rw [if_pos h, if_pos (Nat.lt_succ_of_lt h)]
  · rw [if_neg h, if_neg (by omega)]

omit [FloatOps F] in
theorem pieces_zero (g f : Buf (Elt F) (otLoc d)) : pieces d L 0 g f = bigSep Finset.univ fun k : Fin (k0_t1_loop L).trips => trip3 d L k f := by
  unfold pieces; exact bigSep_congr fun k _ => if_neg (Nat.not_lt_zero _)
omit [FloatOps F] in
theorem pieces_all (g f : Buf (Elt F) (otLoc d)) : pieces d L (k0_t1_loop L).trips g f = bigSep Finset.univ fun k : Fin (k0_t1_loop L).trips => trip3 d L k g := by
  unfold pieces; exact bigSep_congr fun k _ => if_pos k.isLt

/-- The scratch row a trip copies out, and the block of the transposed input it fetches. -/
abbrev srowB (p : ℕ) (hp : ∀ a, (![0, p, 0] : Fin 3 → Nat) a + S8x1x3456.size a ≤ S8x4x3456.size a) : Memref sig .scVector .vmem S8x3456 .f32 :=
  ((Memref.whole cc0_scratch0 : Memref sig .scVector .vmem S8x4x3456 .f32).slice (Rect.unit (s := S8x4x3456) ![0, p, 0] S8x1x3456.size hp) (fun _ => rfl)).squeeze S8x3456 squeezes_S8x1x3456_S8x3456
abbrev xblkB (L : grid0.Coords) (k : Fin (k0_t1_loop L).trips) : Memref sig .scVector .hbm S8x4x3456 .f32 :=
  (Memref.whole main_v0_scv : Memref sig .scVector .hbm S8x4x1000000 .f32).slice (Rect.unit (s := S8x4x1000000) (k0_off1 L k) S8x4x3456.size (k0_off1_inb L k)) (fun _ => rfl)

/-- What a trip's copy chain leaves on each of its three pieces (scratch rows 3, 1, 2). -/
abbrev lnd2 (k : Fin (k0_t1_loop L).trips)
    (xt : Buf (Elt F) (xtLoc d)) (fs : Buf (Elt F) ((thrV d L).loc cc0_scratch0)) (f0 : Buf (Elt F) (otLoc d)) : Buf (Elt F) (otLoc d) :=
  (pc2 L k).view.writes (Elt F) f0 [⟨Rect.whole S8x3456, ReadAs.same.apply (View.read (Elt F) (srowB 3 inb_S8x4x3456_S8x1x3456_0_3_0).view
    (View.write (Elt F) (Memref.whole cc0_scratch0 : Memref sig .scVector .vmem S8x4x3456 .f32).view fs
      (ReadAs.same.apply (View.read (Elt F) (xblkB L k).view xt)) Finset.univ))⟩]
abbrev lnd3 (k : Fin (k0_t1_loop L).trips)
    (xt : Buf (Elt F) (xtLoc d)) (fs : Buf (Elt F) ((thrV d L).loc cc0_scratch0)) (f0 : Buf (Elt F) (otLoc d)) : Buf (Elt F) (otLoc d) :=
  (pc3 L k).view.writes (Elt F) f0 [⟨Rect.whole S8x3456, ReadAs.same.apply (View.read (Elt F) (srowB 1 inb_S8x4x3456_S8x1x3456_0_1_0).view
    (View.write (Elt F) (Memref.whole cc0_scratch0 : Memref sig .scVector .vmem S8x4x3456 .f32).view fs
      (ReadAs.same.apply (View.read (Elt F) (xblkB L k).view xt)) Finset.univ))⟩]
abbrev lnd4 (k : Fin (k0_t1_loop L).trips)
    (xt : Buf (Elt F) (xtLoc d)) (fs : Buf (Elt F) ((thrV d L).loc cc0_scratch0)) (f0 : Buf (Elt F) (otLoc d)) : Buf (Elt F) (otLoc d) :=
  (pc4 L k).view.writes (Elt F) f0 [⟨Rect.whole S8x3456, ReadAs.same.apply (View.read (Elt F) (srowB 2 inb_S8x4x3456_S8x1x3456_0_2_0).view
    (View.write (Elt F) (Memref.whole cc0_scratch0 : Memref sig .scVector .vmem S8x4x3456 .f32).view fs
      (ReadAs.same.apply (View.read (Elt F) (xblkB L k).view xt)) Finset.univ))⟩]

/-- The loop's invariant before trip `n`. -/
def inv (q : PosShare TreeShare) (O : CellTallies nD τ sig (HIx 1)) (W : Waits sig (HIx 1))
    (xt : Buf (Elt F) (xtLoc d)) (g f0 : Buf (Elt F) (otLoc d)) (n : Nat) (_ : PUnit) : sProp 𝕄 :=
  iprop(Transfers.MayWaits (thrV d L) (none : HIx 1) O
    ∗ ((xtW).view.loc (thrV d L) ↦{q} xt)
    ∗ (∃ fs, (s0W).view.loc (thrV d L) ↦{fullShare} fs)
    ∗ semVal (thrV d L, SemLoc.dma cc0_scoped0.sem) 0 ∗ semVal (thrV d L, SemLoc.dma cc0_scoped1.sem) 0 ∗ semVal (thrV d L, SemLoc.dma cc0_scoped2.sem) 0 ∗ semVal (thrV d L, SemLoc.dma cc0_scoped3.sem) 0
    ∗ pieces d L n g f0
    ∗ ∃ W', ⌜∀ p ∈ W', p ∈ W ∨ p.2 = none⌝ ∗ owes (thrV d L) O W')

/-- One trip, from the invariant at `k` to the invariant at `k + 1`. -/
theorem trip (q : PosShare TreeShare) (O : CellTallies nD τ sig (HIx 1)) (W : Waits sig (HIx 1))
    (xt : Buf (Elt F) (xtLoc d)) (g f0 : Buf (Elt F) (otLoc d))
    (hl2 : ∀ k fs, ∀ i ∈ (pc2 L k).view.set, lnd2 d L k xt fs f0 i = g i)
    (hl3 : ∀ k fs, ∀ i ∈ (pc3 L k).view.set, lnd3 d L k xt fs f0 i = g i)
    (hl4 : ∀ k fs, ∀ i ∈ (pc4 L k).view.set, lnd4 d L k xt fs f0 i = g i)
    (k : Fin (k0_t1_loop L).trips) (u : PUnit) :
    inv d L q O W xt g f0 k.val u
      ⊢ wp frame (wpE (defs₀ (F := F)) 𝒱₀ (thrV d L) none) Set.univ
          (k0_t1_body L xtW (Memref.isWhole_whole _) otW (Memref.isWhole_whole _) s0W (Memref.isWhole_whole _) s1W (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
            (Scalar.addi (Scalar.muli (BitVec.ofNat 32 (L 1).val) 2#32) (BitVec.ofNat 32 (L 0).val)) k u)
          (inv d L q O W xt g f0 (k.val + 1)) := by
  unfold k0_t1_body
  simp only [k0_part1_eq_skeleton]; unfold k0_part1_skel
  unfold inv
  rw [pieces_open, ← pieces_close]
  unfold trip3
  iintro ⟨Hmw, Hx, ⟨%fs, Hs⟩, Hs0, Hs1, Hs2, Hs3, ⟨⟨H2, H3, H4⟩, Hrest⟩, %W', %hW', HO⟩
  sl_exec (disch := first | exact View.amount_pos _ _ (show 0 < S8x4x3456.numel by decide) | exact View.amount_pos _ _ (show 0 < S8x3456.numel by decide))
  sl_step
  ihave H2' := (Entails.of_eq (pointsTo_congr (hl2 k fs))) $$ H2
  ihave H3' := (Entails.of_eq (pointsTo_congr (hl3 k fs))) $$ H3
  ihave H4' := (Entails.of_eq (pointsTo_congr (hl4 k fs))) $$ H4
  isplitl [Hmw]; · iexact Hmw
  isplitl [Hx]; · iexact Hx
  isplitl [Hs]; · iexists _; iexact Hs
  isplitl [Hs0]; · iexact Hs0
  isplitl [Hs1]; · iexact Hs1
  isplitl [Hs2]; · iexact Hs2
  isplitl [Hs3]; · iexact Hs3
  isplitl [H2' H3' H4' Hrest]
  · isplitl [H2' H3' H4']
    · isplitl [H2']; · iexact H2'
      isplitl [H3']; · iexact H3'
      iexact H4'
    · iexact Hrest
  iexists (insert (SemLoc.dma cc0_scoped3.sem, (default : HIx 1)) (insert (SemLoc.dma cc0_scoped2.sem, (default : HIx 1)) (insert (SemLoc.dma cc0_scoped1.sem, (default : HIx 1)) (insert (SemLoc.dma cc0_scoped0.sem, (default : HIx 1)) W')))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-! ## The worker's scoped storage: sixteen copy semaphores and two scratch buffers -/

omit [FloatOps F] in
theorem ownSems0_V :
    (ownSems0 (thrV d L) : sProp 𝕄)
      = iprop(semVal (thrV d L, SemLoc.dma cc0_scoped0.sem) 0
          ∗ semVal (thrV d L, SemLoc.dma cc0_scoped1.sem) 0
          ∗ semVal (thrV d L, SemLoc.dma cc0_scoped2.sem) 0
          ∗ semVal (thrV d L, SemLoc.dma cc0_scoped3.sem) 0
          ∗ semVal (thrV d L, SemLoc.dma cc0_scoped4.sem) 0
          ∗ semVal (thrV d L, SemLoc.dma cc0_scoped5.sem) 0
          ∗ semVal (thrV d L, SemLoc.dma cc0_scoped6.sem) 0
          ∗ semVal (thrV d L, SemLoc.dma cc0_scoped7.sem) 0
          ∗ semVal (thrV d L, SemLoc.dma cc0_scoped8.sem) 0
          ∗ semVal (thrV d L, SemLoc.dma cc0_scoped9.sem) 0
          ∗ semVal (thrV d L, SemLoc.dma cc0_scoped10.sem) 0
          ∗ semVal (thrV d L, SemLoc.dma cc0_scoped11.sem) 0
          ∗ semVal (thrV d L, SemLoc.dma cc0_scoped12.sem) 0
          ∗ semVal (thrV d L, SemLoc.dma cc0_scoped13.sem) 0
          ∗ semVal (thrV d L, SemLoc.dma cc0_scoped14.sem) 0
          ∗ semVal (thrV d L, SemLoc.dma cc0_scoped15.sem) 0
          ∗ bigSep (((((((((((((((((ownCells (thrV d L)).erase (thrV d L, SemLoc.dma cc0_scoped0.sem)).erase (thrV d L, SemLoc.dma cc0_scoped1.sem)).erase (thrV d L, SemLoc.dma cc0_scoped2.sem)).erase (thrV d L, SemLoc.dma cc0_scoped3.sem)).erase (thrV d L, SemLoc.dma cc0_scoped4.sem)).erase (thrV d L, SemLoc.dma cc0_scoped5.sem)).erase (thrV d L, SemLoc.dma cc0_scoped6.sem)).erase (thrV d L, SemLoc.dma cc0_scoped7.sem)).erase (thrV d L, SemLoc.dma cc0_scoped8.sem)).erase (thrV d L, SemLoc.dma cc0_scoped9.sem)).erase (thrV d L, SemLoc.dma cc0_scoped10.sem)).erase (thrV d L, SemLoc.dma cc0_scoped11.sem)).erase (thrV d L, SemLoc.dma cc0_scoped12.sem)).erase (thrV d L, SemLoc.dma cc0_scoped13.sem)).erase (thrV d L, SemLoc.dma cc0_scoped14.sem)).erase (thrV d L, SemLoc.dma cc0_scoped15.sem)) fun g => semVal g 0) := by
  unfold SparseCore.Cfg.ownSems0
  rw [SparseCore.bigSep_erase' ((mem_ownCells (thr := thrV d L) (g := (thrV d L, SemLoc.dma cc0_scoped0.sem))).mpr ⟨rfl, by show (SemLoc.dma cc0_scoped0.sem : SemLoc sig).isScoped .scVector = true; decide⟩),
    SparseCore.bigSep_erase' (Finset.mem_erase.mpr ⟨by cell_ne, (mem_ownCells (thr := thrV d L) (g := (thrV d L, SemLoc.dma cc0_scoped1.sem))).mpr ⟨rfl, by show (SemLoc.dma cc0_scoped1.sem : SemLoc sig).isScoped .scVector = true; decide⟩⟩),
    SparseCore.bigSep_erase' (Finset.mem_erase.mpr ⟨by cell_ne, Finset.mem_erase.mpr ⟨by cell_ne, (mem_ownCells (thr := thrV d L) (g := (thrV d L, SemLoc.dma cc0_scoped2.sem))).mpr ⟨rfl, by show (SemLoc.dma cc0_scoped2.sem : SemLoc sig).isScoped .scVector = true; decide⟩⟩⟩),
    SparseCore.bigSep_erase' (Finset.mem_erase.mpr ⟨by cell_ne, Finset.mem_erase.mpr ⟨by cell_ne, Finset.mem_erase.mpr ⟨by cell_ne, (mem_ownCells (thr := thrV d L) (g := (thrV d L, SemLoc.dma cc0_scoped3.sem))).mpr ⟨rfl, by show (SemLoc.dma cc0_scoped3.sem : SemLoc sig).isScoped .scVector = true; decide⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped4.sem))).mpr ⟨rfl, by show (SemLoc.dma cc0_scoped4.sem : SemLoc sig).isScoped .scVector = true; decide⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped5.sem))).mpr ⟨rfl, by show (SemLoc.dma cc0_scoped5.sem : SemLoc sig).isScoped .scVector = true; decide⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped6.sem))).mpr ⟨rfl, by show (SemLoc.dma cc0_scoped6.sem : SemLoc sig).isScoped .scVector = true; decide⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped7.sem))).mpr ⟨rfl, by show (SemLoc.dma cc0_scoped7.sem : SemLoc sig).isScoped .scVector = true; decide⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped8.sem))).mpr ⟨rfl, by show (SemLoc.dma cc0_scoped8.sem : SemLoc sig).isScoped .scVector = true; decide⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped9.sem))).mpr ⟨rfl, by show (SemLoc.dma cc0_scoped9.sem : SemLoc sig).isScoped .scVector = true; decide⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped10.sem))).mpr ⟨rfl, by show (SemLoc.dma cc0_scoped10.sem : SemLoc sig).isScoped .scVector = true; decide⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped11.sem))).mpr ⟨rfl, by show (SemLoc.dma cc0_scoped11.sem : SemLoc sig).isScoped .scVector = true; decide⟩⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped12.sem))).mpr ⟨rfl, by show (SemLoc.dma cc0_scoped12.sem : SemLoc sig).isScoped .scVector = true; decide⟩⟩⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped13.sem))).mpr ⟨rfl, by show (SemLoc.dma cc0_scoped13.sem : SemLoc sig).isScoped .scVector = true; decide⟩⟩⟩⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped14.sem))).mpr ⟨rfl, by show (SemLoc.dma cc0_scoped14.sem : SemLoc sig).isScoped .scVector = true; decide⟩⟩⟩⟩⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped15.sem))).mpr ⟨rfl, by show (SemLoc.dma cc0_scoped15.sem : SemLoc sig).isScoped .scVector = true; decide⟩⟩⟩⟩⟩⟩⟩⟩⟩⟩⟩⟩⟩⟩⟩⟩)]

omit [FloatOps F] in
theorem ownBufs_V :
    (ownBufs (thrV d L) : sProp 𝕄)
      = iprop((∃ f, (thrV d L).loc cc0_scratch0 ↦{fullShare} f) ∗ (∃ f, (thrV d L).loc cc0_scratch1 ↦{fullShare} f)
          ∗ bigSep (((ownRefs (τ := τ) (.scVector ((L 0).castLE hcore0) ((L 1).castLE hsub0))).erase ((Proc.scVector ((L 0).castLE hcore0) ((L 1).castLE hsub0)).devRef cc0_scratch0)).erase
              ((Proc.scVector ((L 0).castLE hcore0) ((L 1).castLE hsub0)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0))
    (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector ((L 0).castLE hcore0) ((L 1).castLE hsub0)) (b := (Proc.scVector ((L 0).castLE hcore0) ((L 1).castLE hsub0)).devRef cc0_scratch1) rfl⟩)]

omit [FloatOps F] in
theorem pts_s0 (f : Buf (Elt F) ((thrV d L).loc cc0_scratch0)) :
    ((s0W).view.loc (thrV d L) ↦{fullShare} f : sProp 𝕄) = (thrV d L).loc cc0_scratch0 ↦{fullShare} f := rfl
omit [FloatOps F] in
theorem pts_s1 (f : Buf (Elt F) ((thrV d L).loc cc0_scratch1)) :
    ((s1W).view.loc (thrV d L) ↦{fullShare} f : sProp 𝕄) = (thrV d L).loc cc0_scratch1 ↦{fullShare} f := rfl

/-! ## The tail's guard -/

/-- The guard of the tail, as the kernel computes it: the worker's number is 31. -/
abbrev tailCond (L : grid0.Coords) : BitVec 1 :=
  Scalar.cmpi .ne (Scalar.extui (Scalar.cmpi .eq (Scalar.addi (Scalar.muli (BitVec.ofNat 32 (L 1).val) 2#32) (BitVec.ofNat 32 (L 0).val)) 31#32)) 0#32

theorem tailCond_iff : ∀ L : grid0.Coords, tailCond L = 1#1 ↔ wid L = 31 := by unfold tailCond wid; decide +kernel

omit [FloatOps F] in
theorem tailRes_pos (h : wid L = 31) (f : Buf (Elt F) (otLoc d)) : tailRes d L f = tail6 d L f := if_pos h
omit [FloatOps F] in
theorem tailRes_neg (h : ¬ wid L = 31) (f : Buf (Elt F) (otLoc d)) : tailRes d L f = (iprop(emp) : sProp 𝕄) := if_neg h

/-! ## The tails' copy chains -/

/-- The first tail's block of the transposed input, the scratch row copied out, and what the chain leaves. -/
abbrev xblkA : Memref sig .scVector .hbm S8x4x1152 .f32 :=
  (Memref.whole main_v0_scv : Memref sig .scVector .hbm S8x4x1000000 .f32).slice (Rect.unit (s := S8x4x1000000) ![0, 0, 998784] S8x4x1152.size inb_S8x4x1000000_S8x4x1152_0_0_998784) (fun _ => rfl)
abbrev srowA (p : ℕ) (hp : ∀ a, (![0, p, 0] : Fin 3 → Nat) a + S8x1x1152.size a ≤ S8x4x3456.size a) : Memref sig .scVector .vmem S8x1152 .f32 :=
  ((Memref.whole cc0_scratch0 : Memref sig .scVector .vmem S8x4x3456 .f32).slice (Rect.unit (s := S8x4x3456) ![0, p, 0] S8x1x1152.size hp) (fun _ => rfl)).squeeze S8x1152 squeezes_S8x1x1152_S8x1152
/-- The scratch after the first tail's block has landed in its window. -/
abbrev scrA (xt : Buf (Elt F) (xtLoc d)) (fs : Buf (Elt F) ((thrV d L).loc cc0_scratch0)) : Buf (Elt F) ((thrV d L).loc cc0_scratch0) :=
  (Memref.whole cc0_scratch0 : Memref sig .scVector .vmem S8x4x3456 .f32).view.writes (Elt F) fs
    [⟨Rect.unit (s := S8x4x3456) ![0, 0, 0] S8x4x1152.size inb_S8x4x3456_S8x4x1152_0_0_0, ReadAs.same.apply (View.read (Elt F) (xblkA).view xt)⟩]
abbrev landedA0 (xt : Buf (Elt F) (xtLoc d)) (fs : Buf (Elt F) ((thrV d L).loc cc0_scratch0)) (f0 : Buf (Elt F) (otLoc d)) : Buf (Elt F) (otLoc d) :=
  (ta0).view.writes (Elt F) f0 [⟨Rect.whole S8x1152, ReadAs.same.apply (View.read (Elt F) (srowA 3 inb_S8x4x3456_S8x1x1152_0_3_0).view (scrA d L xt fs))⟩]
abbrev landedA1 (xt : Buf (Elt F) (xtLoc d)) (fs : Buf (Elt F) ((thrV d L).loc cc0_scratch0)) (f0 : Buf (Elt F) (otLoc d)) : Buf (Elt F) (otLoc d) :=
  (ta1).view.writes (Elt F) f0 [⟨Rect.whole S8x1152, ReadAs.same.apply (View.read (Elt F) (srowA 1 inb_S8x4x3456_S8x1x1152_0_1_0).view (scrA d L xt fs))⟩]
abbrev landedA2 (xt : Buf (Elt F) (xtLoc d)) (fs : Buf (Elt F) ((thrV d L).loc cc0_scratch0)) (f0 : Buf (Elt F) (otLoc d)) : Buf (Elt F) (otLoc d) :=
  (ta2).view.writes (Elt F) f0 [⟨Rect.whole S8x1152, ReadAs.same.apply (View.read (Elt F) (srowA 2 inb_S8x4x3456_S8x1x1152_0_2_0).view (scrA d L xt fs))⟩]

/-- The second tail's, through the second scratch. -/
abbrev xblkT : Memref sig .scVector .hbm S8x4x64 .f32 :=
  (Memref.whole main_v0_scv : Memref sig .scVector .hbm S8x4x1000000 .f32).slice (Rect.unit (s := S8x4x1000000) ![0, 0, 999936] S8x4x64.size inb_S8x4x1000000_S8x4x64_0_0_999936) (fun _ => rfl)
abbrev srowT (p : ℕ) (hp : ∀ a, (![0, p, 0] : Fin 3 → Nat) a + S8x1x64.size a ≤ S8x4x64.size a) : Memref sig .scVector .vmem S8x64 .f32 :=
  ((Memref.whole cc0_scratch1 : Memref sig .scVector .vmem S8x4x64 .f32).slice (Rect.unit (s := S8x4x64) ![0, p, 0] S8x1x64.size hp) (fun _ => rfl)).squeeze S8x64 squeezes_S8x1x64_S8x64
abbrev landedT0 (xt : Buf (Elt F) (xtLoc d)) (fs1 : Buf (Elt F) ((thrV d L).loc cc0_scratch1)) (f0 : Buf (Elt F) (otLoc d)) : Buf (Elt F) (otLoc d) :=
  (tb0).view.writes (Elt F) f0 [⟨Rect.whole S8x64, ReadAs.same.apply (View.read (Elt F) (srowT 3 inb_S8x4x64_S8x1x64_0_3_0).view
    (View.write (Elt F) (Memref.whole cc0_scratch1 : Memref sig .scVector .vmem S8x4x64 .f32).view fs1 (ReadAs.same.apply (View.read (Elt F) (xblkT).view xt)) Finset.univ))⟩]
abbrev landedT1 (xt : Buf (Elt F) (xtLoc d)) (fs1 : Buf (Elt F) ((thrV d L).loc cc0_scratch1)) (f0 : Buf (Elt F) (otLoc d)) : Buf (Elt F) (otLoc d) :=
  (tb1).view.writes (Elt F) f0 [⟨Rect.whole S8x64, ReadAs.same.apply (View.read (Elt F) (srowT 1 inb_S8x4x64_S8x1x64_0_1_0).view
    (View.write (Elt F) (Memref.whole cc0_scratch1 : Memref sig .scVector .vmem S8x4x64 .f32).view fs1 (ReadAs.same.apply (View.read (Elt F) (xblkT).view xt)) Finset.univ))⟩]
abbrev landedT2 (xt : Buf (Elt F) (xtLoc d)) (fs1 : Buf (Elt F) ((thrV d L).loc cc0_scratch1)) (f0 : Buf (Elt F) (otLoc d)) : Buf (Elt F) (otLoc d) :=
  (tb2).view.writes (Elt F) f0 [⟨Rect.whole S8x64, ReadAs.same.apply (View.read (Elt F) (srowT 2 inb_S8x4x64_S8x1x64_0_2_0).view
    (View.write (Elt F) (Memref.whole cc0_scratch1 : Memref sig .scVector .vmem S8x4x64 .f32).view fs1 (ReadAs.same.apply (View.read (Elt F) (xblkT).view xt)) Finset.univ))⟩]

/-! ## The task -/

/-- What the worker is handed: a share of the transposed input and its pieces of the output. -/
def goTile (q : PosShare TreeShare) (xt : Buf (Elt F) (xtLoc d)) (f : Buf (Elt F) (otLoc d)) : sProp 𝕄 :=
  iprop(((xtW).view.loc (thrV d L) ↦{q} xt) ∗ tileOut d L f)

theorem tile_body (hF : (K (F := F)).Facts) (q : PosShare TreeShare) (xt : Buf (Elt F) (xtLoc d)) (g f0 : Buf (Elt F) (otLoc d))
    (hl2 : ∀ k fs, ∀ i ∈ (pc2 L k).view.set, lnd2 d L k xt fs f0 i = g i)
    (hl3 : ∀ k fs, ∀ i ∈ (pc3 L k).view.set, lnd3 d L k xt fs f0 i = g i)
    (hl4 : ∀ k fs, ∀ i ∈ (pc4 L k).view.set, lnd4 d L k xt fs f0 i = g i)
    (ha0 : ∀ fs, ∀ i ∈ (ta0).view.set, landedA0 d L xt fs f0 i = g i)
    (ha1 : ∀ fs, ∀ i ∈ (ta1).view.set, landedA1 d L xt fs f0 i = g i)
    (ha2 : ∀ fs, ∀ i ∈ (ta2).view.set, landedA2 d L xt fs f0 i = g i)
    (hb0 : ∀ fs1, ∀ i ∈ (tb0).view.set, landedT0 d L xt fs1 f0 i = g i)
    (hb1 : ∀ fs1, ∀ i ∈ (tb1).view.set, landedT1 d L xt fs1 f0 i = g i)
    (hb2 : ∀ fs1, ∀ i ∈ (tb2).view.set, landedT2 d L xt fs1 f0 i = g i)
    (O : CellTallies nD τ sig (HIx 1)) (W : Waits sig (HIx 1)) (hO : ∀ g, O g none = 0) :
    iprop(levAts (K (F := F)).L (K (F := F)).lev ∗ emp ∗ goTile d L q xt f0
        ∗ scopedBufs (thrV d L) ∗ scopedSems0 (thrV d L) ∗ owes (thrV d L) O W)
      ⊢ wp frame (wpE (defs₀ (F := F)) 𝒱₀ (thrV d L) none) Set.univ
          (cc0__sph2vec_sc L xtW (Memref.isWhole_whole _) otW (Memref.isWhole_whole _) s0W (Memref.isWhole_whole _) s1W (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15)
          fun _ => iprop(goTile d L q xt g ∗ scopedBufs (thrV d L) ∗ scopedSems0 (thrV d L)
            ∗ ∃ W', ⌜∀ p ∈ W', p ∈ W ∨ p.2 = none⌝ ∗ owes (thrV d L) O W') := by
  simp only [cc0__sph2vec_sc_eq_skeleton]; unfold cc0__sph2vec_sc_skel
  simp only [k0_part3_eq_skeleton, k0_part4_eq_skeleton, k0_part5_eq_skeleton, k0_part6_eq_skeleton]
  unfold k0_part3_skel k0_part4_skel k0_part5_skel k0_part6_skel
  rw [(K (F := F)).scopedBufs_V hF d _ _, SparseCore.Cfg.scopedSems0_V (Val := Elt F) d _ _, ownSems0_V, ownBufs_V]
  unfold goTile tileOut
  iintro ⟨#Hlv, -, ⟨Hx, Hpieces, Htail⟩, ⟨⟨%fs, Hs⟩, ⟨%fs1, Hs1b⟩, Hbufs⟩, ⟨Hc0, Hc1, Hc2, Hc3, Hc4, Hc5, Hc6, Hc7, Hc8, Hc9, Hc10, Hc11, Hc12, Hc13, Hc14, Hc15, Hsems⟩, HO⟩
  ihave Hmw := ((K (F := F)).mayWaits_none (thr := thrV d L) hO) $$ Hlv
  ihave Hs' := (Entails.of_eq (pts_s0 (F := F) d L _).symm) $$ Hs
  ihave Hs1' := (Entails.of_eq (pts_s1 (F := F) d L _).symm) $$ Hs1b
  sl_exec
  sl_for (inv d L q O W xt g f0) $$ [Hmw Hx Hs' Hc0 Hc1 Hc2 Hc3 Hpieces HO]
  case region =>
    intro k u
    exact trip d L q O W xt g f0 hl2 hl3 hl4 k u
  · unfold inv
    rw [pieces_zero]
    isplitl [Hmw]; · iexact Hmw
    isplitl [Hx]; · iexact Hx
    isplitl [Hs']; · iexists _; iexact Hs'
    isplitl [Hc0]; · iexact Hc0
    isplitl [Hc1]; · iexact Hc1
    isplitl [Hc2]; · iexact Hc2
    isplitl [Hc3]; · iexact Hc3
    isplitl [Hpieces]; · iexact Hpieces
    iexists W; isplitr
    · ipureintro; exact fun p hp => .inl hp
    · iexact HO
  iintro %_ HI
  unfold inv
  rw [pieces_all]
  icases HI with ⟨Hmw, Hx, ⟨%fs', Hs⟩, Hc0, Hc1, Hc2, Hc3, Hpieces, %W', %hW', HO⟩
  sl_for0 (Nat.le_zero.mp (k0_t2_abs L).2.1)
  rcases Classical.em (tailCond L = 1#1) with k0_h1 | k0_h1
  · have h31 : wid L = 31 := (tailCond_iff L).mp k0_h1
    ihave Htail' := (Entails.of_eq (tailRes_pos (F := F) d L h31 f0)) $$ Htail
    unfold tail6
    icases Htail' with ⟨Ha0, Ha1, Ha2, Hb0, Hb1, Hb2⟩
    sl_exec (disch := first | exact View.amount_pos _ _ (show 0 < S8x4x1152.numel by decide) | exact View.amount_pos _ _ (show 0 < S8x1152.numel by decide) | exact View.amount_pos _ _ (show 0 < S8x4x64.numel by decide) | exact View.amount_pos _ _ (show 0 < S8x64.numel by decide))
    ihave Ha0' := (Entails.of_eq (pointsTo_congr (ha0 fs'))) $$ Ha0
    ihave Ha1' := (Entails.of_eq (pointsTo_congr (ha1 fs'))) $$ Ha1
    ihave Ha2' := (Entails.of_eq (pointsTo_congr (ha2 fs'))) $$ Ha2
    ihave Hb0' := (Entails.of_eq (pointsTo_congr (hb0 fs1))) $$ Hb0
    ihave Hb1' := (Entails.of_eq (pointsTo_congr (hb1 fs1))) $$ Hb1
    ihave Hb2' := (Entails.of_eq (pointsTo_congr (hb2 fs1))) $$ Hb2
    sl_step
    isplitl [Hx Hpieces Ha0' Ha1' Ha2' Hb0' Hb1' Hb2']
    · isplitl [Hx]; · iexact Hx
      isplitl [Hpieces]; · iexact Hpieces
      rw [tailRes_pos (F := F) d L h31 g]; unfold tail6
      isplitl [Ha0']; · iexact Ha0'
      isplitl [Ha1']; · iexact Ha1'
      isplitl [Ha2']; · iexact Ha2'
      isplitl [Hb0']; · iexact Hb0'
      isplitl [Hb1']; · iexact Hb1'
      iexact Hb2'
    isplitl [Hs Hs1' Hbufs]
    · isplitl [Hs]; · iexists _; iapply (Entails.of_eq (pts_s0 (F := F) d L _)); iexact Hs
      isplitl [Hs1']; · iexists _; iapply (Entails.of_eq (pts_s1 (F := F) d L _)); iexact Hs1'
      iexact Hbufs
    isplitl [Hc0 Hc1 Hc2 Hc3 Hc4 Hc5 Hc6 Hc7 Hc8 Hc9 Hc10 Hc11 Hc12 Hc13 Hc14 Hc15 Hsems]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hsems
    iexists (insert (SemLoc.dma cc0_scoped15.sem, (default : HIx 1)) (insert (SemLoc.dma cc0_scoped14.sem, (default : HIx 1)) (insert (SemLoc.dma cc0_scoped13.sem, (default : HIx 1)) (insert (SemLoc.dma cc0_scoped12.sem, (default : HIx 1)) (insert (SemLoc.dma cc0_scoped11.sem, (default : HIx 1)) (insert (SemLoc.dma cc0_scoped10.sem, (default : HIx 1)) (insert (SemLoc.dma cc0_scoped9.sem, (default : HIx 1)) (insert (SemLoc.dma cc0_scoped8.sem, (default : HIx 1)) (W'))))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact hW' p hp
    · iexact HO
  · have h31 : ¬ wid L = 31 := fun h => k0_h1 ((tailCond_iff L).mpr h)
    sl_exec
    sl_step
    isplitl [Hx Hpieces Htail]
    · isplitl [Hx]; · iexact Hx
      isplitl [Hpieces]; · iexact Hpieces
      rw [tailRes_neg (F := F) d L h31 g]
      iempintro
    isplitl [Hs Hs1' Hbufs]
    · isplitl [Hs]; · iexists _; iapply (Entails.of_eq (pts_s0 (F := F) d L _)); iexact Hs
      isplitl [Hs1']; · iexists _; iapply (Entails.of_eq (pts_s1 (F := F) d L _)); iexact Hs1'
      iexact Hbufs
    isplitl [Hc0 Hc1 Hc2 Hc3 Hc4 Hc5 Hc6 Hc7 Hc8 Hc9 Hc10 Hc11 Hc12 Hc13 Hc14 Hc15 Hsems]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hsems
    iexists W'; isplitr
    · ipureintro; exact hW'
    · iexact HO

end Cert.Proof.KB

end
-- ==== Proof.KB.Partition.lean ====
/-
  The pieces of the output array [3, 8, 1000000] as sets of indices: which indices each piece holds, that the pieces of
  one worker are pairwise disjoint, and that the workers' shares partition the array. Column `n` below 998784 lies in
  unit `n / 3456`, written by worker `(n / 3456) % 32` in its trip `(n / 3456) / 32`; the columns from 998784 are
  worker 31's two tails.
-/
import proofs.«216280_g62835371540565_cont_9to1_m_1109_19_alg».proof.Proof.KB.Pieces

namespace Cert.Proof.KB

open Cert.Kernel Cert.Kernel.Gen
open Idealize.ShloMosaic

/-! ## The trip count -/

/-- The trip count of worker `L`'s loop: the units `32 k + wid L` below 289 (the 32-bit computation evaluated for
    each of the 32 workers). -/
theorem trips_eq : ∀ L : grid0.Coords, (k0_t1_loop L).trips = (320 - wid L) / 32 := by
  unfold wid; decide +kernel

/-! ## The index set of each piece

A piece is a unit-stride rectangle of the whole array with its leading axis of extent one squeezed away; squeezing keeps
the set of array elements, and a rectangle of the whole array is held on the rectangle's own index set. -/

theorem A2_eq (L : grid0.Coords) (k : Fin (k0_t1_loop L).trips) :
    A2 L k = (Rect.unit (s := S3x8x1000000) (k0_off2 L k) S1x8x3456.size (k0_off2_inb L k)).set :=
  (View.set_reshape _ _).trans (View.set_slice_whole _ _)
theorem A3_eq (L : grid0.Coords) (k : Fin (k0_t1_loop L).trips) :
    A3 L k = (Rect.unit (s := S3x8x1000000) (k0_off3 L k) S1x8x3456.size (k0_off3_inb L k)).set :=
  (View.set_reshape _ _).trans (View.set_slice_whole _ _)
theorem A4_eq (L : grid0.Coords) (k : Fin (k0_t1_loop L).trips) :
    A4 L k = (Rect.unit (s := S3x8x1000000) (k0_off4 L k) S1x8x3456.size (k0_off4_inb L k)).set :=
  (View.set_reshape _ _).trans (View.set_slice_whole _ _)
theorem TA0_eq : TA0 = (Rect.unit (s := S3x8x1000000) ![0, 0, 998784] S1x8x1152.size
    inb_S3x8x1000000_S1x8x1152_0_0_998784).set :=
  (View.set_reshape _ _).trans (View.set_slice_whole _ _)
theorem TA1_eq : TA1 = (Rect.unit (s := S3x8x1000000) ![1, 0, 998784] S1x8x1152.size
    inb_S3x8x1000000_S1x8x1152_1_0_998784).set :=
  (View.set_reshape _ _).trans (View.set_slice_whole _ _)
theorem TA2_eq : TA2 = (Rect.unit (s := S3x8x1000000) ![2, 0, 998784] S1x8x1152.size
    inb_S3x8x1000000_S1x8x1152_2_0_998784).set :=
  (View.set_reshape _ _).trans (View.set_slice_whole _ _)
theorem TB0_eq : TB0 = (Rect.unit (s := S3x8x1000000) ![0, 0, 999936] S1x8x64.size
    inb_S3x8x1000000_S1x8x64_0_0_999936).set :=
  (View.set_reshape _ _).trans (View.set_slice_whole _ _)
theorem TB1_eq : TB1 = (Rect.unit (s := S3x8x1000000) ![1, 0, 999936] S1x8x64.size
    inb_S3x8x1000000_S1x8x64_1_0_999936).set :=
  (View.set_reshape _ _).trans (View.set_slice_whole _ _)
theorem TB2_eq : TB2 = (Rect.unit (s := S3x8x1000000) ![2, 0, 999936] S1x8x64.size
    inb_S3x8x1000000_S1x8x64_2_0_999936).set :=
  (View.set_reshape _ _).trans (View.set_slice_whole _ _)

/-- Membership in a unit-stride rectangle of the output array, coordinate by coordinate. -/
theorem mem_unit3 {off size : Fin 3 → Nat} {inb} {x : Ix} :
    x ∈ (Rect.unit (s := S3x8x1000000) off size inb).set ↔
      (off 0 ≤ (x 0).val ∧ (x 0).val < off 0 + size 0) ∧ (off 1 ≤ (x 1).val ∧ (x 1).val < off 1 + size 1) ∧
        (off 2 ≤ (x 2).val ∧ (x 2).val < off 2 + size 2) := by
  rw [Rect.mem_set_unit]
  exact ⟨fun h => ⟨h 0, h 1, h 2⟩, fun h a => by
    fin_cases a
    · exact h.1
    · exact h.2.1
    · exact h.2.2⟩

theorem mem_A2 (L : grid0.Coords) (k : Fin (k0_t1_loop L).trips) (x : Ix) :
    x ∈ A2 L k ↔ (x 0).val = 0 ∧ 3456 * (32 * k.val + wid L) ≤ (x 2).val ∧
      (x 2).val < 3456 * (32 * k.val + wid L) + 3456 := by
  have hx1 : (x 1).val < 8 := (x 1).isLt
  rw [A2_eq, mem_unit3, k0_off2_eq]
  unfold wid
  simp only [Matrix.cons_val_zero, Matrix.cons_val_one, Matrix.cons_val_two, Matrix.head_cons, Matrix.tail_cons,
    Shape.size]
  omega

theorem mem_A3 (L : grid0.Coords) (k : Fin (k0_t1_loop L).trips) (x : Ix) :
    x ∈ A3 L k ↔ (x 0).val = 1 ∧ 3456 * (32 * k.val + wid L) ≤ (x 2).val ∧
      (x 2).val < 3456 * (32 * k.val + wid L) + 3456 := by
  have hx1 : (x 1).val < 8 := (x 1).isLt
  rw [A3_eq, mem_unit3, k0_off3_eq]
  unfold wid
  simp only [Matrix.cons_val_zero, Matrix.cons_val_one, Matrix.cons_val_two, Matrix.head_cons, Matrix.tail_cons,
    Shape.size]
  omega

theorem mem_A4 (L : grid0.Coords) (k : Fin (k0_t1_loop L).trips) (x : Ix) :
    x ∈ A4 L k ↔ (x 0).val = 2 ∧ 3456 * (32 * k.val + wid L) ≤ (x 2).val ∧
      (x 2).val < 3456 * (32 * k.val + wid L) + 3456 := by
  have hx1 : (x 1).val < 8 := (x 1).isLt
  rw [A4_eq, mem_unit3, k0_off4_eq]
  unfold wid
  simp only [Matrix.cons_val_zero, Matrix.cons_val_one, Matrix.cons_val_two, Matrix.head_cons, Matrix.tail_cons,
    Shape.size]
  omega

theorem mem_TA0 (x : Ix) : x ∈ TA0 ↔ (x 0).val = 0 ∧ 998784 ≤ (x 2).val ∧ (x 2).val < 999936 := by
  have hx1 : (x 1).val < 8 := (x 1).isLt
  rw [TA0_eq, mem_unit3]
  simp only [Matrix.cons_val_zero, Matrix.cons_val_one, Matrix.cons_val_two, Matrix.head_cons, Matrix.tail_cons,
    Shape.size]
  omega
theorem mem_TA1 (x : Ix) : x ∈ TA1 ↔ (x 0).val = 1 ∧ 998784 ≤ (x 2).val ∧ (x 2).val < 999936 := by
  have hx1 : (x 1).val < 8 := (x 1).isLt
  rw [TA1_eq, mem_unit3]
  simp only [Matrix.cons_val_zero, Matrix.cons_val_one, Matrix.cons_val_two, Matrix.head_cons, Matrix.tail_cons,
    Shape.size]
  omega
theorem mem_TA2 (x : Ix) : x ∈ TA2 ↔ (x 0).val = 2 ∧ 998784 ≤ (x 2).val ∧ (x 2).val < 999936 := by
  have hx1 : (x 1).val < 8 := (x 1).isLt
  rw [TA2_eq, mem_unit3]
  simp only [Matrix.cons_val_zero, Matrix.cons_val_one, Matrix.cons_val_two, Matrix.head_cons, Matrix.tail_cons,
    Shape.size]
  omega

theorem mem_TB0 (x : Ix) : x ∈ TB0 ↔ (x 0).val = 0 ∧ 999936 ≤ (x 2).val := by
  have hx1 : (x 1).val < 8 := (x 1).isLt
  have hx2 : (x 2).val < 1000000 := (x 2).isLt
  rw [TB0_eq, mem_unit3]
  simp only [Matrix.cons_val_zero, Matrix.cons_val_one, Matrix.cons_val_two, Matrix.head_cons, Matrix.tail_cons,
    Shape.size]
  omega
theorem mem_TB1 (x : Ix) : x ∈ TB1 ↔ (x 0).val = 1 ∧ 999936 ≤ (x 2).val := by
  have hx1 : (x 1).val < 8 := (x 1).isLt
  have hx2 : (x 2).val < 1000000 := (x 2).isLt
  rw [TB1_eq, mem_unit3]
  simp only [Matrix.cons_val_zero, Matrix.cons_val_one, Matrix.cons_val_two, Matrix.head_cons, Matrix.tail_cons,
    Shape.size]
  omega
theorem mem_TB2 (x : Ix) : x ∈ TB2 ↔ (x 0).val = 2 ∧ 999936 ≤ (x 2).val := by
  have hx1 : (x 1).val < 8 := (x 1).isLt
  have hx2 : (x 2).val < 1000000 := (x 2).isLt
  rw [TB2_eq, mem_unit3]
  simp only [Matrix.cons_val_zero, Matrix.cons_val_one, Matrix.cons_val_two, Matrix.head_cons, Matrix.tail_cons,
    Shape.size]
  omega

/-! ## The workers' shares -/

theorem wid_lt (L : grid0.Coords) : wid L < 32 := by
  have h0 : (L 0).val < 2 := (L 0).isLt
  have h1 : (L 1).val < 16 := (L 1).isLt
  unfold wid; omega

/-- A worker's number determines the worker. -/
theorem wid_inj {L L' : grid0.Coords} (h : wid L = wid L') : L = L' := by
  have h0 : (L 0).val < 2 := (L 0).isLt
  have h0' : (L' 0).val < 2 := (L' 0).isLt
  unfold wid at h
  funext a
  fin_cases a
  · exact Fin.ext (by simp only [Fin.zero_eta]; omega)
  · exact Fin.ext (by simp only [Fin.mk_one]; omega)

/-- Every number below 32 is a worker's. -/
theorem exists_wid {w : ℕ} (hw : w < 32) : ∃ L : grid0.Coords, wid L = w := by
  refine ⟨fun a => Fin.cases ⟨w % 2, Nat.mod_lt _ (by decide)⟩
    (fun b => Fin.cases ⟨w / 2, by show w / 2 < 16; omega⟩ (fun c => c.elim0) b) a, ?_⟩
  show 2 * (w / 2) + w % 2 = w
  omega

/-- One trip writes all three channels of its unit's columns. -/
theorem mem_tripSet (L : grid0.Coords) (k : Fin (k0_t1_loop L).trips) (x : Ix) :
    x ∈ tripSet L k ↔ 3456 * (32 * k.val + wid L) ≤ (x 2).val ∧ (x 2).val < 3456 * (32 * k.val + wid L) + 3456 := by
  have hx0 : (x 0).val < 3 := (x 0).isLt
  simp only [tripSet, Finset.mem_union, mem_A2, mem_A3, mem_A4]
  omega

/-- The two tails hold every column from 998784 on. -/
theorem mem_tailSet (x : Ix) : x ∈ tailSet ↔ 998784 ≤ (x 2).val := by
  have hx0 : (x 0).val < 3 := (x 0).isLt
  simp only [tailSet, Finset.mem_union, mem_TA0, mem_TA1, mem_TA2, mem_TB0, mem_TB1, mem_TB2]
  omega

/-- The trips of worker `L` together: the columns below 998784 whose unit is `wid L` modulo 32. -/
theorem mem_trips (L : grid0.Coords) (x : Ix) :
    x ∈ Finset.univ.biUnion (tripSet L) ↔ (x 2).val < 998784 ∧ ((x 2).val / 3456) % 32 = wid L := by
  have hw := wid_lt L
  have ht := trips_eq L
  simp only [Finset.mem_biUnion, Finset.mem_univ, true_and, mem_tripSet]
  constructor
  · rintro ⟨k, h1, h2⟩
    have hk : k.val < (320 - wid L) / 32 := ht ▸ k.isLt
    omega
  · rintro ⟨h1, h2⟩
    refine ⟨⟨(x 2).val / 3456 / 32, by rw [ht]; omega⟩, ?_⟩
    show 3456 * (32 * ((x 2).val / 3456 / 32) + wid L) ≤ (x 2).val ∧
      (x 2).val < 3456 * (32 * ((x 2).val / 3456 / 32) + wid L) + 3456
    omega

theorem mem_tileSet (L : grid0.Coords) (x : Ix) :
    x ∈ tileSet L ↔ ((x 2).val < 998784 ∧ ((x 2).val / 3456) % 32 = wid L) ∨ (998784 ≤ (x 2).val ∧ wid L = 31) := by
  unfold tileSet
  rw [Finset.mem_union, mem_trips]
  by_cases h : wid L = 31
  · rw [if_pos h, mem_tailSet]; omega
  · rw [if_neg h]; simp only [Finset.notMem_empty, or_false]; omega

theorem tiles_disjoint : ∀ L ∈ (Finset.univ : Finset grid0.Coords), ∀ L' ∈ (Finset.univ : Finset grid0.Coords),
    L ≠ L' → Disjoint (tileSet L) (tileSet L') := by
  intro L _ L' _ hne
  have hw : wid L ≠ wid L' := fun h => hne (wid_inj h)
  rw [Finset.disjoint_left]
  intro x hx hx'
  rw [mem_tileSet] at hx hx'
  omega

theorem tiles_cover : (Finset.univ : Finset grid0.Coords).biUnion tileSet = Finset.univ := by
  ext x
  simp only [Finset.mem_biUnion, Finset.mem_univ, true_and, iff_true, mem_tileSet]
  by_cases h : (x 2).val < 998784
  · obtain ⟨L, hL⟩ := exists_wid (w := ((x 2).val / 3456) % 32) (Nat.mod_lt _ (by decide))
    exact ⟨L, Or.inl ⟨h, hL.symm⟩⟩
  · obtain ⟨L, hL⟩ := exists_wid (w := 31) (by decide)
    exact ⟨L, Or.inr ⟨by omega, hL⟩⟩

/-! ## The pieces of one worker are pairwise disjoint -/

theorem trips_disjoint (L : grid0.Coords) : ∀ k ∈ (Finset.univ : Finset (Fin (k0_t1_loop L).trips)),
    ∀ k' ∈ (Finset.univ : Finset (Fin (k0_t1_loop L).trips)), k ≠ k' → Disjoint (tripSet L k) (tripSet L k') := by
  intro k _ k' _ hne
  have hv : k.val ≠ k'.val := fun h => hne (Fin.ext h)
  rw [Finset.disjoint_left]
  intro x hx hx'
  rw [mem_tripSet] at hx hx'
  omega

theorem disj_A2 (L : grid0.Coords) (k : Fin (k0_t1_loop L).trips) : Disjoint (A2 L k) (A3 L k ∪ A4 L k) := by
  rw [Finset.disjoint_left]
  intro x hx hx'
  simp only [Finset.mem_union, mem_A2, mem_A3, mem_A4] at hx hx'
  omega

theorem disj_A3 (L : grid0.Coords) (k : Fin (k0_t1_loop L).trips) : Disjoint (A3 L k) (A4 L k) := by
  rw [Finset.disjoint_left]
  intro x hx hx'
  simp only [mem_A3, mem_A4] at hx hx'
  omega

theorem disj_trips_tail (L : grid0.Coords) : Disjoint (Finset.univ.biUnion (tripSet L)) tailSet := by
  rw [Finset.disjoint_left]
  intro x hx hx'
  rw [mem_trips] at hx
  rw [mem_tailSet] at hx'
  omega

theorem disj_TA0 : Disjoint TA0 (TA1 ∪ (TA2 ∪ (TB0 ∪ (TB1 ∪ TB2)))) := by
  rw [Finset.disjoint_left]
  intro x hx hx'
  simp only [Finset.mem_union, mem_TA0, mem_TA1, mem_TA2, mem_TB0, mem_TB1, mem_TB2] at hx hx'
  omega

theorem disj_TA1 : Disjoint TA1 (TA2 ∪ (TB0 ∪ (TB1 ∪ TB2))) := by
  rw [Finset.disjoint_left]
  intro x hx hx'
  simp only [Finset.mem_union, mem_TA1, mem_TA2, mem_TB0, mem_TB1, mem_TB2] at hx hx'
  omega

theorem disj_TA2 : Disjoint TA2 (TB0 ∪ (TB1 ∪ TB2)) := by
  rw [Finset.disjoint_left]
  intro x hx hx'
  simp only [Finset.mem_union, mem_TA2, mem_TB0, mem_TB1, mem_TB2] at hx hx'
  omega

theorem disj_TB0 : Disjoint TB0 (TB1 ∪ TB2) := by
  rw [Finset.disjoint_left]
  intro x hx hx'
  simp only [Finset.mem_union, mem_TB0, mem_TB1, mem_TB2] at hx hx'
  omega

theorem disj_TB1 : Disjoint TB1 TB2 := by
  rw [Finset.disjoint_left]
  intro x hx hx'
  simp only [mem_TB1, mem_TB2] at hx hx'
  omega

end Cert.Proof.KB
-- ==== Proof.KB.Split.lean ====
/-
  The whole output array, held at full share, is the same resource as the 32 workers' shares together: worker `L`'s
  share is the three pieces of each of its trips and, for worker 31, the six tail pieces. The index sets of the pieces
  partition the array's indices, and a points-to splits along a partition of its index set.
-/
import proofs.«216280_g62835371540565_cont_9to1_m_1109_19_alg».proof.Proof.KB.Res
import proofs.«216280_g62835371540565_cont_9to1_m_1109_19_alg».proof.Proof.KB.Partition

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- A points-to splits along two disjoint index sets, as an equation. -/
theorem pts_union (d : Dev nD) (f : Buf (Elt F) (otLoc d)) {I J : Finset (Idx (otLoc d))} (h : Disjoint I J) :
    (otLoc d ↦[I ∪ J]{fullShare} f : sProp 𝕄) = iprop((otLoc d ↦[I]{fullShare} f) ∗ otLoc d ↦[J]{fullShare} f) := by
  have hu : (otLoc d ↦[I ∪ J]{fullShare} f : sProp 𝕄)
      ⊣⊢ iprop((otLoc d ↦[I]{fullShare} f) ∗ otLoc d ↦[J]{fullShare} f) := pointsTo_union h
  exact equiv_iff.mp ⟨hu.1, hu.2⟩

/-- The three pieces of a trip are the points-to on what the trip writes. -/
theorem trip3_eq (d : Dev nD) (L : grid0.Coords) (k : Fin (k0_t1_loop L).trips) (f : Buf (Elt F) (otLoc d)) :
    trip3 d L k f = (otLoc d ↦[tripSet L k]{fullShare} f : sProp 𝕄) := by
  unfold tripSet
  rw [pts_union d f (disj_A2 L k), pts_union d f (disj_A3 L k)]
  rfl

/-- The six tail pieces are the points-to on what worker 31 writes after its loop. -/
theorem tail6_eq (d : Dev nD) (L : grid0.Coords) (f : Buf (Elt F) (otLoc d)) :
    tail6 d L f = (otLoc d ↦[tailSet]{fullShare} f : sProp 𝕄) := by
  unfold tailSet
  rw [pts_union d f disj_TA0, pts_union d f disj_TA1, pts_union d f disj_TA2, pts_union d f disj_TB0,
    pts_union d f disj_TB1]
  rfl

/-- A worker's share is the points-to on everything it writes. -/
theorem tileOut_eq (d : Dev nD) (L : grid0.Coords) (f : Buf (Elt F) (otLoc d)) :
    tileOut d L f = (otLoc d ↦[tileSet L]{fullShare} f : sProp 𝕄) := by
  unfold tileOut tailRes tileSet
  by_cases h : wid L = 31
  · rw [if_pos h, if_pos h, pts_union d f (disj_trips_tail L), pointsTo_biUnion _ _ (trips_disjoint L), tail6_eq]
    exact congrArg (fun P : sProp 𝕄 => iprop(P ∗ otLoc d ↦[tailSet]{fullShare} f))
      (bigSep_congr fun k _ => trip3_eq d L k f)
  · rw [if_neg h, if_neg h, Finset.union_empty, pointsTo_biUnion _ _ (trips_disjoint L)]
    exact (equiv_iff.mp sep_emp).trans (bigSep_congr fun k _ => trip3_eq d L k f)

/-- Core and subcore numbers name the workers one to one. -/
def coordsEquiv : Fin (grid0.bound 0) × Fin (grid0.bound 1) ≃ grid0.Coords where
  toFun p := coordsV p.1 p.2
  invFun L := (L 0, L 1)
  left_inv _ := rfl
  right_inv L := by
    funext a
    fin_cases a <;> rfl

/-- The whole output array is the workers' shares together, as an equation. -/
theorem split_out_eq (d : Dev nD) (f : Buf (Elt F) (otLoc d)) :
    (otLoc d ↦{fullShare} f : sProp 𝕄) = bigSep (Finset.univ : Finset (Fin (grid0.bound 0))) fun c =>
      bigSep (Finset.univ : Finset (Fin (grid0.bound 1))) fun i => tileOut d (coordsV c i) f := by
  have h1 : (otLoc d ↦{fullShare} f : sProp 𝕄) = bigSep (Finset.univ : Finset grid0.Coords) fun L =>
      otLoc d ↦[tileSet L]{fullShare} f := by
    rw [← pointsTo_biUnion Finset.univ (ℓ := otLoc d) tileSet tiles_disjoint, tiles_cover]; try rfl
  rw [h1, bigSep_univ_equiv coordsEquiv, bigSep_univ_prod]
  exact bigSep_congr fun c _ => bigSep_congr fun i _ => (tileOut_eq d (coordsV c i) f).symm

/-- The same in both directions of entailment. -/
theorem split_out (d : Dev nD) (f : Buf (Elt F) (otLoc d)) :
    (otLoc d ↦{fullShare} f : sProp 𝕄) ⊣⊢ bigSep (Finset.univ : Finset (Fin (grid0.bound 0))) fun c =>
      bigSep (Finset.univ : Finset (Fin (grid0.bound 1))) fun i => tileOut d (coordsV c i) f :=
  ⟨Entails.of_eq (split_out_eq d f), Entails.of_eq (split_out_eq d f).symm⟩

end Cert.Proof.KB

end
-- ==== Proof.KB.Cores.lean ====
/-
  The two arrays the kernel works on, shared out to the cores. The transposed input is read by every worker: its
  points-to is halved once per core, core `c` receiving the `c`-th token and the remainder staying behind. The output
  array is written in disjoint pieces: core `c` receives the shares of its 16 workers. Both steps are equations, so
  the cores' resources join back to the two whole arrays.
-/
import proofs.«216280_g62835371540565_cont_9to1_m_1109_19_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- Core `c`'s share of the input array: the `c`-th token of the full share. -/
abbrev qC (c : Fin ((K (F := F)).nCore 0)) : PosShare TreeShare := Transfers.shareTok fullShare ((K (F := F)).nCore 0) c
/-- Worker `(c, i)`'s share of the input array: the `i`-th token of its core's. -/
abbrev qT (c : Fin ((K (F := F)).nCore 0)) (i : Fin ((K (F := F)).nSub 0)) : PosShare TreeShare :=
  Transfers.shareTok (qC (F := F) c) ((K (F := F)).nSub 0) i
/-- A core of the call as a first coordinate of the grid. -/
abbrev cOf (c : Fin ((K (F := F)).nCore 0)) : Fin (grid0.bound 0) := ⟨((K (F := F)).core 0 c).val, c.isLt⟩
/-- A subcore of the call as a second coordinate of the grid. -/
abbrev iOf (i : Fin ((K (F := F)).nSub 0)) : Fin (grid0.bound 1) := ⟨((K (F := F)).sub 0 i).val, i.isLt⟩

/-! ## What is handed out can be stored -/

instance trip3_storable (d : Dev nD) (L : grid0.Coords) (k : Fin (k0_t1_loop L).trips) (f : Buf (Elt F) (otLoc d)) :
    BI.Storable (upEmb : UEmb _ 𝕄) (trip3 d L k f) := by unfold trip3; infer_instance
instance tail6_storable (d : Dev nD) (L : grid0.Coords) (f : Buf (Elt F) (otLoc d)) :
    BI.Storable (upEmb : UEmb _ 𝕄) (tail6 d L f) := by unfold tail6; infer_instance
instance tailRes_storable (d : Dev nD) (L : grid0.Coords) (f : Buf (Elt F) (otLoc d)) :
    BI.Storable (upEmb : UEmb _ 𝕄) (tailRes d L f) := by unfold tailRes; split <;> infer_instance
instance tileOut_storable (d : Dev nD) (L : grid0.Coords) (f : Buf (Elt F) (otLoc d)) :
    BI.Storable (upEmb : UEmb _ 𝕄) (tileOut d L f) := by unfold tileOut; infer_instance

/-- What core `c` is handed: its token of the input array and its workers' shares of the output array. -/
def coreRes (d : Dev nD) (c : Fin ((K (F := F)).nCore 0)) (xt : Buf (Elt F) (xtLoc d)) (f : Buf (Elt F) (otLoc d)) :
    sProp 𝕄 :=
  iprop((xtLoc d ↦{qC (F := F) c} xt) ∗ bigSep Finset.univ fun i : Fin ((K (F := F)).nSub 0) =>
    tileOut d (coordsV (cOf (F := F) c) (iOf (F := F) i)) f)

instance coreRes_storable (d : Dev nD) (c : Fin ((K (F := F)).nCore 0)) (xt : Buf (Elt F) (xtLoc d))
    (f : Buf (Elt F) (otLoc d)) : BI.Storable (upEmb : UEmb _ 𝕄) (coreRes d c xt f) := by
  unfold coreRes; infer_instance

/-! ## Sharing out and joining back -/

/-- A family over the grid's first coordinate, summed over the call's cores. -/
theorem bigSep_cOf (Φ : Fin (grid0.bound 0) → sProp 𝕄) :
    (bigSep Finset.univ fun c : Fin ((K (F := F)).nCore 0) => Φ (cOf (F := F) c)) = bigSep Finset.univ Φ :=
  bigSep_congr fun _ _ => congrArg Φ (Fin.ext rfl)

/-- A family over the grid's second coordinate, summed over the call's subcores. -/
theorem bigSep_iOf (Φ : Fin (grid0.bound 1) → sProp 𝕄) :
    (bigSep Finset.univ fun i : Fin ((K (F := F)).nSub 0) => Φ (iOf (F := F) i)) = bigSep Finset.univ Φ :=
  bigSep_congr fun _ _ => congrArg Φ (Fin.ext rfl)

/-- The input array at full share is the remainder and one token per core. -/
theorem xt_toks (d : Dev nD) (xt : Buf (Elt F) (xtLoc d)) :
    (xtLoc d ↦{fullShare} xt : sProp 𝕄) = iprop((xtLoc d ↦{Transfers.shareDrop fullShare ((K (F := F)).nCore 0)} xt) ∗
      bigSep Finset.univ fun c : Fin ((K (F := F)).nCore 0) => xtLoc d ↦{qC (F := F) c} xt) := by
  have h : (xtLoc d ↦{fullShare} xt : sProp 𝕄) ⊣⊢
      iprop((xtLoc d ↦{Transfers.shareDrop fullShare ((K (F := F)).nCore 0)} xt) ∗
        bigSep Finset.univ fun c : Fin ((K (F := F)).nCore 0) => xtLoc d ↦{qC (F := F) c} xt) :=
    Transfers.pointsTo_toks fullShare ((K (F := F)).nCore 0)
  exact equiv_iff.mp ⟨h.1, h.2⟩

/-- The output array at full share is the cores' workers' shares. -/
theorem ot_cores (d : Dev nD) (f : Buf (Elt F) (otLoc d)) :
    (otLoc d ↦{fullShare} f : sProp 𝕄) = bigSep Finset.univ fun c : Fin ((K (F := F)).nCore 0) =>
      bigSep Finset.univ fun i : Fin ((K (F := F)).nSub 0) =>
        tileOut d (coordsV (cOf (F := F) c) (iOf (F := F) i)) f := by
  rw [split_out_eq,
    ← bigSep_cOf (F := F) fun c => bigSep Finset.univ fun i : Fin (grid0.bound 1) => tileOut d (coordsV c i) f]
  exact bigSep_congr fun c _ => (bigSep_iOf (F := F) fun i => tileOut d (coordsV (cOf (F := F) c) i) f).symm

/-- The two whole arrays are the input's remainder and the cores' resources. -/
theorem cores_eq (d : Dev nD) (xt : Buf (Elt F) (xtLoc d)) (f : Buf (Elt F) (otLoc d)) :
    (iprop((xtLoc d ↦{fullShare} xt) ∗ (otLoc d ↦{fullShare} f)) : sProp 𝕄) =
      iprop((xtLoc d ↦{Transfers.shareDrop fullShare ((K (F := F)).nCore 0)} xt) ∗
        bigSep Finset.univ fun c : Fin ((K (F := F)).nCore 0) => coreRes d c xt f) := by
  unfold coreRes
  rw [bigSep_sep', ← ot_cores d f]
  conv_lhs => rw [xt_toks d xt]
  exact equiv_iff.mp ⟨sep_assoc, sep_assoc'⟩

theorem cores_split (d : Dev nD) (xt : Buf (Elt F) (xtLoc d)) (f : Buf (Elt F) (otLoc d)) :
    (iprop((xtLoc d ↦{fullShare} xt) ∗ (otLoc d ↦{fullShare} f)) : sProp 𝕄) ⊢
      iprop((xtLoc d ↦{Transfers.shareDrop fullShare ((K (F := F)).nCore 0)} xt) ∗
        bigSep Finset.univ fun c : Fin ((K (F := F)).nCore 0) => coreRes d c xt f) :=
  Entails.of_eq (cores_eq d xt f)

theorem cores_join (d : Dev nD) (xt : Buf (Elt F) (xtLoc d)) (f : Buf (Elt F) (otLoc d)) :
    (iprop((xtLoc d ↦{Transfers.shareDrop fullShare ((K (F := F)).nCore 0)} xt) ∗
        bigSep Finset.univ fun c : Fin ((K (F := F)).nCore 0) => coreRes d c xt f) : sProp 𝕄) ⊢
      iprop((xtLoc d ↦{fullShare} xt) ∗ (otLoc d ↦{fullShare} f)) :=
  Entails.of_eq (cores_eq d xt f).symm

end Cert.Proof.KB

end
-- ==== Proof.Spec.lean ====
/-
  The specification both programs meet: the result keeps, of the four components of every point of the input,
  the last three, reordered. Component `ch` of the result is component `src ch` of the input, with
  `src = (3, 1, 2)`: dropping component 0 shifts the remaining ones down by one, and the index table `(2, 0, 1)`
  applied afterwards picks shifted components `2, 0, 1`, that is original components `3, 1, 2`.
-/
import Idealize.ShloMosaic.PureOps.Ideal
import Idealize.ShloMosaic.Lib.ValueIdx

namespace Cert.Spec

open Idealize.ShloMosaic Idealize.ShloMosaic.ValueIdx

/-- The input's shape: 8 batches of 1000000 points of 4 components. -/
abbrev Sx : Shape := ⟨3, ![8, 1000000, 4]⟩
/-- The result's shape: 8 batches of 1000000 points of 3 components. -/
abbrev Sy : Shape := ⟨3, ![8, 1000000, 3]⟩

/-- The input component that result component `ch` holds. -/
def src : Fin 3 → Fin 4 := ![3, 1, 2]

/-- The result as one function of the input, index by index: point `(b, n)`, component `ch`, is the input's
    point `(b, n)`, component `src ch`. -/
def G {α : Type} (x : Sx.Idx → α) : Sy.Idx → α := fun j => x (ix3 (j 0) (j 1) (src (j 2)))

theorem G_apply {α : Type} (x : Sx.Idx → α) (b : Fin 8) (n : Fin 1000000) (ch : Fin 3) :
    G x (ix3 b n ch) = x (ix3 b n (src ch)) := rfl

end Cert.Spec
-- ==== Proof.KB.Value.lean ====
/-
  What a copy chain leaves on a piece of the output. A trip first copies the block
  `xt[0:8, 0:4, n0 : n0+3456]` of the transposed input into the scratch, then row `p` of the scratch (all 8
  batches) to channel `c` of the output at the same columns. Read at an index, the piece then holds
  `xt[b, p, n0 + j]` at `(c, b, n0 + j)`; with `p = src c` that is the target function.
-/
import proofs.«216280_g62835371540565_cont_9to1_m_1109_19_alg».proof.Proof.KB.Pieces
import proofs.«216280_g62835371540565_cont_9to1_m_1109_19_alg».proof.Proof.Spec
import Idealize.ShloMosaic.Lib.ValueLayout
import Idealize.ShloMosaic.Lib.Writes

noncomputable section

namespace Cert.Proof.KB

open Cert.Kernel Cert.Kernel.Gen
open Idealize.ShloMosaic Idealize.ShloMosaic.ValueIdx

/-- The output array as a function of the transposed input: channel `c` of point `(b, n)` is component
    `src c` of the input's point. -/
def tgt {α : Type} (xt : S8x4x1000000.Idx → α) : S3x8x1000000.Idx → α :=
  fun x => xt (ix3 (x 1) (Cert.Spec.src (x 0)) (x 2))

/-- An index `(x, y)` matched with shape `[a, 1, b]` is `(x, 0, y)`. -/
theorem reshapeEquiv_ix2_a1b {a b : ℕ} (h : (⟨2, ![a, b]⟩ : Shape).numel = (⟨3, ![a, 1, b]⟩ : Shape).numel)
    (x : Fin a) (y : Fin b) : Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

variable {F : FTy → Type}

/-- The scratch row a trip copies out: row `p`, all 8 batches, 3456 columns. -/
abbrev srow (p : ℕ) (hp : ∀ a, (![0, p, 0] : Fin 3 → Nat) a + S8x1x3456.size a ≤ S8x4x3456.size a) : Memref sig .scVector .vmem S8x3456 .f32 :=
  ((Memref.whole cc0_scratch0 : Memref sig .scVector .vmem S8x4x3456 .f32).slice (Rect.unit (s := S8x4x3456) ![0, p, 0] S8x1x3456.size hp) (fun _ => rfl)).squeeze S8x3456 squeezes_S8x1x3456_S8x3456

/-- The block of the transposed input a trip fetches. -/
abbrev xblk (L : grid0.Coords) (k : Fin (k0_t1_loop L).trips) : Memref sig .scVector .hbm S8x4x3456 .f32 :=
  (Memref.whole main_v0_scv : Memref sig .scVector .hbm S8x4x1000000 .f32).slice (Rect.unit (s := S8x4x1000000) (k0_off1 L k) S8x4x3456.size (k0_off1_inb L k)) (fun _ => rfl)

/-! ## Where the views' indices sit -/

/-- Row `p` of the scratch at `(b, j)` is the scratch's element `(b, p, j)`. -/
theorem srow_emb (p : ℕ) (hp4 : p < 4) (hp : ∀ a, (![0, p, 0] : Fin 3 → Nat) a + S8x1x3456.size a ≤ S8x4x3456.size a)
    (b : Fin 8) (j : Fin 3456) :
    (srow p hp).view.emb (ix2 b j) = (ix3 b (⟨p, hp4⟩ : Fin 4) j : S8x4x3456.Idx) := by
  have he : Shape.reshapeEquiv squeezes_S8x1x3456_S8x3456.numel_eq (ix2 b j) = ix3 b (⟨0, Nat.one_pos⟩ : Fin 1) j :=
    reshapeEquiv_ix2_a1b _ b j
  funext a; refine Fin.ext ?_
  show ((Rect.unit (s := S8x4x3456) ![0, p, 0] S8x1x3456.size hp).emb (Shape.reshapeEquiv squeezes_S8x1x3456_S8x3456.numel_eq (ix2 b j)) a : ℕ) = _
  rw [he, Rect.emb_apply]
  match a with
  | ⟨0, _⟩ => show 0 + 1 * b.val = b.val; omega
  | ⟨1, _⟩ => show p + 1 * 0 = p; omega
  | ⟨2, _⟩ => show 0 + 1 * j.val = j.val; omega

/-- A piece of the output at `(b, j)` is the output's element at the piece's offsets plus `(0, b, j)`. -/
theorem piece_emb_val (off : Fin 3 → ℕ) (h : ∀ a, off a + S1x8x3456.size a ≤ S3x8x1000000.size a) (b : Fin 8) (j : Fin 3456) (a : Fin 3) :
    ((((Memref.whole main_v1_scv : Memref sig .scVector .hbm S3x8x1000000 .f32).slice (Rect.unit (s := S3x8x1000000) off S1x8x3456.size h) (fun _ => rfl)).squeeze S8x3456 squeezes_S1x8x3456_S8x3456).view.emb (ix2 b j) a : ℕ)
      = off a + ((ix3 (⟨0, Nat.one_pos⟩ : Fin 1) b j : S1x8x3456.Idx) a : ℕ) := by
  have he : Shape.reshapeEquiv squeezes_S1x8x3456_S8x3456.numel_eq (ix2 b j) = ix3 (⟨0, Nat.one_pos⟩ : Fin 1) b j :=
    reshapeEquiv_ix2_1ab _ b j
  show ((Rect.unit (s := S3x8x1000000) off S1x8x3456.size h).emb (Shape.reshapeEquiv squeezes_S1x8x3456_S8x3456.numel_eq (ix2 b j)) a : ℕ) = _
  rw [he, Rect.emb_apply]
  show off a + 1 * _ = _
  rw [Nat.one_mul]

/-- The fetched block at `(b, p, j)` is the input's element at the block's offsets plus `(b, p, j)`. -/
theorem xblk_emb_val (L : grid0.Coords) (k : Fin (k0_t1_loop L).trips) (y : S8x4x3456.Idx) (a : Fin 3) :
    ((xblk L k).view.emb y a : ℕ) = k0_off1 L k a + (y a : ℕ) := by
  show ((Rect.unit (s := S8x4x1000000) (k0_off1 L k) S8x4x3456.size (k0_off1_inb L k)).emb y a : ℕ) = _
  rw [Rect.emb_apply]
  show _ + 1 * _ = _
  rw [Nat.one_mul]
  rfl

/-! ## The loop's pieces -/

/-- A piece of the output at offsets `off`, as the program slices it. -/
abbrev pcAt (off : Fin 3 → ℕ) (hoff : ∀ a, off a + S1x8x3456.size a ≤ S3x8x1000000.size a) : Memref sig .scVector .hbm S8x3456 .f32 :=
  ((Memref.whole main_v1_scv : Memref sig .scVector .hbm S3x8x1000000 .f32).slice (Rect.unit (s := S3x8x1000000) off S1x8x3456.size hoff) (fun _ => rfl)).squeeze S8x3456 squeezes_S1x8x3456_S8x3456

/-- What one chain of a trip leaves on its piece: the block of the input at columns `n0` on is copied into the
    scratch, then the scratch's row `p` to the piece at channel `c`, the same columns. With `p = src c` every element
    of the piece holds the target function's value. -/
theorem landed_loop (L : grid0.Coords) (k : Fin (k0_t1_loop L).trips)
    (off : Fin 3 → ℕ) (hoff : ∀ a, off a + S1x8x3456.size a ≤ S3x8x1000000.size a)
    (c : Fin 3) (p : ℕ) (hp4 : p < 4) (hp : ∀ a, (![0, p, 0] : Fin 3 → Nat) a + S8x1x3456.size a ≤ S8x4x3456.size a)
    (h0 : off 0 = c.val) (h1 : off 1 = 0) (h2 : off 2 = k0_off1 L k 2) (h01 : k0_off1 L k 0 = 0) (h11 : k0_off1 L k 1 = 0)
    (hsrc : Cert.Spec.src c = ⟨p, hp4⟩)
    (xt : S8x4x1000000.Idx → Elt F .f32) (fs : S8x4x3456.Idx → Elt F .f32) (f0 : S3x8x1000000.Idx → Elt F .f32) :
    ∀ i ∈ (pcAt off hoff).view.set,
      (pcAt off hoff).view.writes (Elt F) f0 [⟨Rect.whole S8x3456, ReadAs.same.apply (View.read (Elt F) (srow p hp).view
        (View.write (Elt F) (Memref.whole cc0_scratch0 : Memref sig .scVector .vmem S8x4x3456 .f32).view fs
          (ReadAs.same.apply (View.read (Elt F) (xblk L k).view xt)) Finset.univ))⟩] i = tgt xt i := by
  intro i hi
  obtain ⟨y, -, rfl⟩ := Finset.mem_map.mp hi
  obtain ⟨b, j, rfl⟩ : ∃ (b : Fin 8) (j : Fin 3456), y = ix2 b j := ⟨y 0, y 1, eq_ix2 y⟩
  have hw := View.read_writes_cons_emb (Val := Elt F) (pcAt off hoff).view f0 (Rect.whole S8x3456)
    (ReadAs.same.apply (View.read (Elt F) (srow p hp).view
        (View.write (Elt F) (Memref.whole cc0_scratch0 : Memref sig .scVector .vmem S8x4x3456 .f32).view fs
          (ReadAs.same.apply (View.read (Elt F) (xblk L k).view xt)) Finset.univ))) [] (ix2 b j)
  rw [Rect.emb_whole_apply] at hw
  unfold View.read at hw
  simp only [cast_eq] at hw
  refine hw.trans ?_
  show View.write (Elt F) (Memref.whole cc0_scratch0 : Memref sig .scVector .vmem S8x4x3456 .f32).view fs
      (fun x => xt ((xblk L k).view.emb x)) Finset.univ ((srow p hp).view.emb (ix2 b j)) = _
  rw [srow_emb p hp4 hp b j]
  have hs := View.write_emb_of_mem (Val := Elt F) (v := (Memref.whole cc0_scratch0 : Memref sig .scVector .vmem S8x4x3456 .f32).view) fs
    (fun x => xt ((xblk L k).view.emb x)) (M := Finset.univ) (x := (ix3 b (⟨p, hp4⟩ : Fin 4) j : S8x4x3456.Idx)) (Finset.mem_univ _)
  simp only [cast_eq] at hs
  refine Eq.trans hs ?_
  unfold tgt
  refine congrArg xt (funext fun a => Fin.ext ?_)
  rw [xblk_emb_val]
  match a with
  | ⟨0, _⟩ =>
    show k0_off1 L k 0 + b.val = ((pcAt off hoff).view.emb (ix2 b j) 1 : ℕ)
    rw [piece_emb_val, h01, h1]; rfl
  | ⟨1, _⟩ =>
    have e0 : (pcAt off hoff).view.emb (ix2 b j) 0 = c := Fin.ext (by rw [piece_emb_val, h0]; rfl)
    show k0_off1 L k 1 + p = ((Cert.Spec.src ((pcAt off hoff).view.emb (ix2 b j) 0)) : ℕ)
    rw [e0, hsrc, h11, Nat.zero_add]
  | ⟨2, _⟩ =>
    show k0_off1 L k 2 + j.val = ((pcAt off hoff).view.emb (ix2 b j) 2 : ℕ)
    rw [piece_emb_val, h2]; rfl

/-- Channel 0 holds scratch row 3, channel 1 row 1, channel 2 row 2: each the row `src` names. -/
theorem landed2 (L : grid0.Coords) (k : Fin (k0_t1_loop L).trips) (xt : S8x4x1000000.Idx → Elt F .f32) (fs : S8x4x3456.Idx → Elt F .f32)
    (f0 : S3x8x1000000.Idx → Elt F .f32) :
    ∀ i ∈ (pc2 L k).view.set,
      (pc2 L k).view.writes (Elt F) f0 [⟨Rect.whole S8x3456, ReadAs.same.apply (View.read (Elt F) (srow 3 inb_S8x4x3456_S8x1x3456_0_3_0).view
        (View.write (Elt F) (Memref.whole cc0_scratch0 : Memref sig .scVector .vmem S8x4x3456 .f32).view fs
          (ReadAs.same.apply (View.read (Elt F) (xblk L k).view xt)) Finset.univ))⟩] i = tgt xt i :=
  landed_loop L k (k0_off2 L k) (k0_off2_inb L k) 0 3 (by decide) inb_S8x4x3456_S8x1x3456_0_3_0
    (by rw [k0_off2_eq]; rfl) (by rw [k0_off2_eq]; rfl) (by rw [k0_off2_eq, k0_off1_eq] <;> rfl)
    (by rw [k0_off1_eq]; rfl) (by rw [k0_off1_eq]; rfl) rfl xt fs f0

theorem landed3 (L : grid0.Coords) (k : Fin (k0_t1_loop L).trips) (xt : S8x4x1000000.Idx → Elt F .f32) (fs : S8x4x3456.Idx → Elt F .f32)
    (f0 : S3x8x1000000.Idx → Elt F .f32) :
    ∀ i ∈ (pc3 L k).view.set,
      (pc3 L k).view.writes (Elt F) f0 [⟨Rect.whole S8x3456, ReadAs.same.apply (View.read (Elt F) (srow 1 inb_S8x4x3456_S8x1x3456_0_1_0).view
        (View.write (Elt F) (Memref.whole cc0_scratch0 : Memref sig .scVector .vmem S8x4x3456 .f32).view fs
          (ReadAs.same.apply (View.read (Elt F) (xblk L k).view xt)) Finset.univ))⟩] i = tgt xt i :=
  landed_loop L k (k0_off3 L k) (k0_off3_inb L k) 1 1 (by decide) inb_S8x4x3456_S8x1x3456_0_1_0
    (by rw [k0_off3_eq]; rfl) (by rw [k0_off3_eq]; rfl) (by rw [k0_off3_eq, k0_off1_eq] <;> rfl)
    (by rw [k0_off1_eq]; rfl) (by rw [k0_off1_eq]; rfl) rfl xt fs f0

theorem landed4 (L : grid0.Coords) (k : Fin (k0_t1_loop L).trips) (xt : S8x4x1000000.Idx → Elt F .f32) (fs : S8x4x3456.Idx → Elt F .f32)
    (f0 : S3x8x1000000.Idx → Elt F .f32) :
    ∀ i ∈ (pc4 L k).view.set,
      (pc4 L k).view.writes (Elt F) f0 [⟨Rect.whole S8x3456, ReadAs.same.apply (View.read (Elt F) (srow 2 inb_S8x4x3456_S8x1x3456_0_2_0).view
        (View.write (Elt F) (Memref.whole cc0_scratch0 : Memref sig .scVector .vmem S8x4x3456 .f32).view fs
          (ReadAs.same.apply (View.read (Elt F) (xblk L k).view xt)) Finset.univ))⟩] i = tgt xt i :=
  landed_loop L k (k0_off4 L k) (k0_off4_inb L k) 2 2 (by decide) inb_S8x4x3456_S8x1x3456_0_2_0
    (by rw [k0_off4_eq]; rfl) (by rw [k0_off4_eq]; rfl) (by rw [k0_off4_eq, k0_off1_eq] <;> rfl)
    (by rw [k0_off1_eq]; rfl) (by rw [k0_off1_eq]; rfl) rfl xt fs f0

/-! ## The same for the tails' widths -/

/-- Row `p` of the scratch, its first 1152 columns, at `(b, j)` is the scratch's element `(b, p, j)`. -/
theorem row1152_emb (p : ℕ) (hp4 : p < 4) (hp : ∀ a, (![0, p, 0] : Fin 3 → Nat) a + S8x1x1152.size a ≤ S8x4x3456.size a)
    (b : Fin 8) (j : Fin 1152) :
    (((Memref.whole cc0_scratch0 : Memref sig .scVector .vmem S8x4x3456 .f32).slice (Rect.unit (s := S8x4x3456) ![0, p, 0] S8x1x1152.size hp) (fun _ => rfl)).squeeze S8x1152 squeezes_S8x1x1152_S8x1152).view.emb (ix2 b j)
      = (ix3 b (⟨p, hp4⟩ : Fin 4) (⟨j.val, Nat.lt_of_lt_of_le j.isLt (by decide)⟩ : Fin 3456) : S8x4x3456.Idx) := by
  have he : Shape.reshapeEquiv squeezes_S8x1x1152_S8x1152.numel_eq (ix2 b j) = ix3 b (⟨0, Nat.one_pos⟩ : Fin 1) j :=
    reshapeEquiv_ix2_a1b _ b j
  funext a; refine Fin.ext ?_
  show ((Rect.unit (s := S8x4x3456) ![0, p, 0] S8x1x1152.size hp).emb (Shape.reshapeEquiv squeezes_S8x1x1152_S8x1152.numel_eq (ix2 b j)) a : ℕ) = _
  rw [he, Rect.emb_apply]
  match a with
  | ⟨0, _⟩ => show 0 + 1 * b.val = b.val; omega
  | ⟨1, _⟩ => show p + 1 * 0 = p; omega
  | ⟨2, _⟩ => show 0 + 1 * j.val = j.val; omega

/-- A 1152-column piece of the output at `(b, j)` is the output's element at the piece's offsets plus `(0, b, j)`. -/
theorem piece1152_emb_val (off : Fin 3 → ℕ) (h : ∀ a, off a + S1x8x1152.size a ≤ S3x8x1000000.size a) (b : Fin 8) (j : Fin 1152) (a : Fin 3) :
    ((((Memref.whole main_v1_scv : Memref sig .scVector .hbm S3x8x1000000 .f32).slice (Rect.unit (s := S3x8x1000000) off S1x8x1152.size h) (fun _ => rfl)).squeeze S8x1152 squeezes_S1x8x1152_S8x1152).view.emb (ix2 b j) a : ℕ)
      = off a + ((ix3 (⟨0, Nat.one_pos⟩ : Fin 1) b j : S1x8x1152.Idx) a : ℕ) := by
  have he : Shape.reshapeEquiv squeezes_S1x8x1152_S8x1152.numel_eq (ix2 b j) = ix3 (⟨0, Nat.one_pos⟩ : Fin 1) b j :=
    reshapeEquiv_ix2_1ab _ b j
  show ((Rect.unit (s := S3x8x1000000) off S1x8x1152.size h).emb (Shape.reshapeEquiv squeezes_S1x8x1152_S8x1152.numel_eq (ix2 b j)) a : ℕ) = _
  rw [he, Rect.emb_apply]
  show off a + 1 * _ = _
  rw [Nat.one_mul]

/-- A 1152-column block of the input at `y` is the input's element at the block's offsets plus `y`. -/
theorem blk1152_emb_val (off : Fin 3 → ℕ) (h : ∀ a, off a + S8x4x1152.size a ≤ S8x4x1000000.size a) (y : S8x4x1152.Idx) (a : Fin 3) :
    (((Memref.whole main_v0_scv : Memref sig .scVector .hbm S8x4x1000000 .f32).slice (Rect.unit (s := S8x4x1000000) off S8x4x1152.size h) (fun _ => rfl)).view.emb y a : ℕ)
      = off a + (y a : ℕ) := by
  show ((Rect.unit (s := S8x4x1000000) off S8x4x1152.size h).emb y a : ℕ) = _
  rw [Rect.emb_apply]
  show _ + 1 * _ = _
  rw [Nat.one_mul]
  rfl

/-- Row `p` of the scratch, its first 64 columns, at `(b, j)` is the scratch's element `(b, p, j)`. -/
theorem row64_emb (p : ℕ) (hp4 : p < 4) (hp : ∀ a, (![0, p, 0] : Fin 3 → Nat) a + S8x1x64.size a ≤ S8x4x64.size a)
    (b : Fin 8) (j : Fin 64) :
    (((Memref.whole cc0_scratch1 : Memref sig .scVector .vmem S8x4x64 .f32).slice (Rect.unit (s := S8x4x64) ![0, p, 0] S8x1x64.size hp) (fun _ => rfl)).squeeze S8x64 squeezes_S8x1x64_S8x64).view.emb (ix2 b j)
      = (ix3 b (⟨p, hp4⟩ : Fin 4) (⟨j.val, Nat.lt_of_lt_of_le j.isLt (by decide)⟩ : Fin 64) : S8x4x64.Idx) := by
  have he : Shape.reshapeEquiv squeezes_S8x1x64_S8x64.numel_eq (ix2 b j) = ix3 b (⟨0, Nat.one_pos⟩ : Fin 1) j :=
    reshapeEquiv_ix2_a1b _ b j
  funext a; refine Fin.ext ?_
  show ((Rect.unit (s := S8x4x64) ![0, p, 0] S8x1x64.size hp).emb (Shape.reshapeEquiv squeezes_S8x1x64_S8x64.numel_eq (ix2 b j)) a : ℕ) = _
  rw [he, Rect.emb_apply]
  match a with
  | ⟨0, _⟩ => show 0 + 1 * b.val = b.val; omega
  | ⟨1, _⟩ => show p + 1 * 0 = p; omega
  | ⟨2, _⟩ => show 0 + 1 * j.val = j.val; omega

/-- A 64-column piece of the output at `(b, j)` is the output's element at the piece's offsets plus `(0, b, j)`. -/
theorem piece64_emb_val (off : Fin 3 → ℕ) (h : ∀ a, off a + S1x8x64.size a ≤ S3x8x1000000.size a) (b : Fin 8) (j : Fin 64) (a : Fin 3) :
    ((((Memref.whole main_v1_scv : Memref sig .scVector .hbm S3x8x1000000 .f32).slice (Rect.unit (s := S3x8x1000000) off S1x8x64.size h) (fun _ => rfl)).squeeze S8x64 squeezes_S1x8x64_S8x64).view.emb (ix2 b j) a : ℕ)
      = off a + ((ix3 (⟨0, Nat.one_pos⟩ : Fin 1) b j : S1x8x64.Idx) a : ℕ) := by
  have he : Shape.reshapeEquiv squeezes_S1x8x64_S8x64.numel_eq (ix2 b j) = ix3 (⟨0, Nat.one_pos⟩ : Fin 1) b j :=
    reshapeEquiv_ix2_1ab _ b j
  show ((Rect.unit (s := S3x8x1000000) off S1x8x64.size h).emb (Shape.reshapeEquiv squeezes_S1x8x64_S8x64.numel_eq (ix2 b j)) a : ℕ) = _
  rw [he, Rect.emb_apply]
  show off a + 1 * _ = _
  rw [Nat.one_mul]

/-- A 64-column block of the input at `y` is the input's element at the block's offsets plus `y`. -/
theorem blk64_emb_val (off : Fin 3 → ℕ) (h : ∀ a, off a + S8x4x64.size a ≤ S8x4x1000000.size a) (y : S8x4x64.Idx) (a : Fin 3) :
    (((Memref.whole main_v0_scv : Memref sig .scVector .hbm S8x4x1000000 .f32).slice (Rect.unit (s := S8x4x1000000) off S8x4x64.size h) (fun _ => rfl)).view.emb y a : ℕ)
      = off a + (y a : ℕ) := by
  show ((Rect.unit (s := S8x4x1000000) off S8x4x64.size h).emb y a : ℕ) = _
  rw [Rect.emb_apply]
  show _ + 1 * _ = _
  rw [Nat.one_mul]
  rfl

/-! ## The first tail: 1152 columns from 998784, through a window of the first scratch -/

/-- The block of the input the first tail fetches. -/
abbrev xblk1152 : Memref sig .scVector .hbm S8x4x1152 .f32 :=
  (Memref.whole main_v0_scv : Memref sig .scVector .hbm S8x4x1000000 .f32).slice (Rect.unit (s := S8x4x1000000) ![0, 0, 998784] S8x4x1152.size inb_S8x4x1000000_S8x4x1152_0_0_998784) (fun _ => rfl)

/-- Row `p` of the first scratch, its first 1152 columns. -/
abbrev srow1152 (p : ℕ) (hp : ∀ a, (![0, p, 0] : Fin 3 → Nat) a + S8x1x1152.size a ≤ S8x4x3456.size a) : Memref sig .scVector .vmem S8x1152 .f32 :=
  ((Memref.whole cc0_scratch0 : Memref sig .scVector .vmem S8x4x3456 .f32).slice (Rect.unit (s := S8x4x3456) ![0, p, 0] S8x1x1152.size hp) (fun _ => rfl)).squeeze S8x1152 squeezes_S8x1x1152_S8x1152

/-- Channel `c` of the first tail, as the program slices it. -/
abbrev taAt (c : ℕ) (hc : ∀ a, (![c, 0, 998784] : Fin 3 → Nat) a + S1x8x1152.size a ≤ S3x8x1000000.size a) : Memref sig .scVector .hbm S8x1152 .f32 :=
  ((Memref.whole main_v1_scv : Memref sig .scVector .hbm S3x8x1000000 .f32).slice (Rect.unit (s := S3x8x1000000) ![c, 0, 998784] S1x8x1152.size hc) (fun _ => rfl)).squeeze S8x1152 squeezes_S1x8x1152_S8x1152

/-- What the first tail's chain leaves on channel `c`: the input's columns from 998784 are copied into the window
    `[0:8, 0:4, 0:1152]` of the scratch, then the scratch's row `p`, those columns, to the piece. -/
theorem landed_tailA (c : Fin 3) (p : ℕ) (hp4 : p < 4)
    (hc : ∀ a, (![c.val, 0, 998784] : Fin 3 → Nat) a + S1x8x1152.size a ≤ S3x8x1000000.size a)
    (hp : ∀ a, (![0, p, 0] : Fin 3 → Nat) a + S8x1x1152.size a ≤ S8x4x3456.size a)
    (hsrc : Cert.Spec.src c = ⟨p, hp4⟩)
    (xt : S8x4x1000000.Idx → Elt F .f32) (fs : S8x4x3456.Idx → Elt F .f32) (f0 : S3x8x1000000.Idx → Elt F .f32) :
    ∀ i ∈ (taAt c.val hc).view.set,
      (taAt c.val hc).view.writes (Elt F) f0 [⟨Rect.whole S8x1152, ReadAs.same.apply (View.read (Elt F) (srow1152 p hp).view
        ((Memref.whole cc0_scratch0 : Memref sig .scVector .vmem S8x4x3456 .f32).view.writes (Elt F) fs
          [⟨Rect.unit (s := S8x4x3456) ![0, 0, 0] S8x4x1152.size inb_S8x4x3456_S8x4x1152_0_0_0,
            ReadAs.same.apply (View.read (Elt F) xblk1152.view xt)⟩]))⟩] i = tgt xt i := by
  intro i hi
  obtain ⟨y, -, rfl⟩ := Finset.mem_map.mp hi
  obtain ⟨b, j, rfl⟩ : ∃ (b : Fin 8) (j : Fin 1152), y = ix2 b j := ⟨y 0, y 1, eq_ix2 y⟩
  have hw := View.read_writes_cons_emb (Val := Elt F) (taAt c.val hc).view f0 (Rect.whole S8x1152)
    (ReadAs.same.apply (View.read (Elt F) (srow1152 p hp).view ((Memref.whole cc0_scratch0 : Memref sig .scVector .vmem S8x4x3456 .f32).view.writes (Elt F) fs [⟨(Rect.unit (s := S8x4x3456) ![0, 0, 0] S8x4x1152.size inb_S8x4x3456_S8x4x1152_0_0_0), (ReadAs.same.apply (View.read (Elt F) xblk1152.view xt))⟩]))) [] (ix2 b j)
  rw [Rect.emb_whole_apply, View.read_apply, cast_eq] at hw
  refine hw.trans ?_
  change View.read (Elt F) (srow1152 p hp).view ((Memref.whole cc0_scratch0 : Memref sig .scVector .vmem S8x4x3456 .f32).view.writes (Elt F) fs [⟨(Rect.unit (s := S8x4x3456) ![0, 0, 0] S8x4x1152.size inb_S8x4x3456_S8x4x1152_0_0_0), (ReadAs.same.apply (View.read (Elt F) xblk1152.view xt))⟩]) (ix2 b j) = _
  rw [View.read_apply, cast_eq, row1152_emb p hp4 hp b j]
  have hx : (ix3 b (⟨p, hp4⟩ : Fin 4) (⟨j.val, Nat.lt_of_lt_of_le j.isLt (by decide)⟩ : Fin 3456) : S8x4x3456.Idx)
      = (Memref.whole cc0_scratch0 : Memref sig .scVector .vmem S8x4x3456 .f32).view.emb ((Rect.unit (s := S8x4x3456) ![0, 0, 0] S8x4x1152.size inb_S8x4x3456_S8x4x1152_0_0_0).emb (ix3 b (⟨p, hp4⟩ : Fin 4) j : S8x4x1152.Idx)) := by
    funext a; refine Fin.ext ?_
    show _ = (((Rect.unit (s := S8x4x3456) ![0, 0, 0] S8x4x1152.size inb_S8x4x3456_S8x4x1152_0_0_0).emb (ix3 b (⟨p, hp4⟩ : Fin 4) j : S8x4x1152.Idx)) a : ℕ)
    rw [Rect.emb_apply]
    match a with
    | ⟨0, _⟩ => show b.val = 0 + 1 * b.val; omega
    | ⟨1, _⟩ => show p = 0 + 1 * p; omega
    | ⟨2, _⟩ => show j.val = 0 + 1 * j.val; omega
  have hs := View.read_writes_cons_emb (Val := Elt F) (Memref.whole cc0_scratch0 : Memref sig .scVector .vmem S8x4x3456 .f32).view fs (Rect.unit (s := S8x4x3456) ![0, 0, 0] S8x4x1152.size inb_S8x4x3456_S8x4x1152_0_0_0) (ReadAs.same.apply (View.read (Elt F) xblk1152.view xt)) []
    (ix3 b (⟨p, hp4⟩ : Fin 4) j : S8x4x1152.Idx)
  rw [View.read_apply, cast_eq] at hs
  refine Eq.trans (congrArg ((Memref.whole cc0_scratch0 : Memref sig .scVector .vmem S8x4x3456 .f32).view.writes (Elt F) fs [⟨(Rect.unit (s := S8x4x3456) ![0, 0, 0] S8x4x1152.size inb_S8x4x3456_S8x4x1152_0_0_0), (ReadAs.same.apply (View.read (Elt F) xblk1152.view xt))⟩]) hx) (hs.trans ?_)
  change View.read (Elt F) xblk1152.view xt (ix3 b (⟨p, hp4⟩ : Fin 4) j : S8x4x1152.Idx) = _
  rw [View.read_apply, cast_eq]
  unfold tgt
  refine congrArg xt (funext fun a => Fin.ext ?_)
  rw [blk1152_emb_val]
  match a with
  | ⟨0, _⟩ =>
    show 0 + b.val = ((taAt c.val hc).view.emb (ix2 b j) 1 : ℕ)
    rw [piece1152_emb_val]; rfl
  | ⟨1, _⟩ =>
    have e0 : (taAt c.val hc).view.emb (ix2 b j) 0 = c := Fin.ext (by rw [piece1152_emb_val]; rfl)
    show 0 + p = ((Cert.Spec.src ((taAt c.val hc).view.emb (ix2 b j) 0)) : ℕ)
    rw [e0, hsrc, Nat.zero_add]
  | ⟨2, _⟩ =>
    show 998784 + j.val = ((taAt c.val hc).view.emb (ix2 b j) 2 : ℕ)
    rw [piece1152_emb_val]; rfl

/-! ## The second tail: the last 64 columns, through the second scratch -/

/-- The block of the input the second tail fetches. -/
abbrev xblk64 : Memref sig .scVector .hbm S8x4x64 .f32 :=
  (Memref.whole main_v0_scv : Memref sig .scVector .hbm S8x4x1000000 .f32).slice (Rect.unit (s := S8x4x1000000) ![0, 0, 999936] S8x4x64.size inb_S8x4x1000000_S8x4x64_0_0_999936) (fun _ => rfl)

/-- Row `p` of the second scratch. -/
abbrev srow64 (p : ℕ) (hp : ∀ a, (![0, p, 0] : Fin 3 → Nat) a + S8x1x64.size a ≤ S8x4x64.size a) : Memref sig .scVector .vmem S8x64 .f32 :=
  ((Memref.whole cc0_scratch1 : Memref sig .scVector .vmem S8x4x64 .f32).slice (Rect.unit (s := S8x4x64) ![0, p, 0] S8x1x64.size hp) (fun _ => rfl)).squeeze S8x64 squeezes_S8x1x64_S8x64

/-- Channel `c` of the second tail, as the program slices it. -/
abbrev tbAt (c : ℕ) (hc : ∀ a, (![c, 0, 999936] : Fin 3 → Nat) a + S1x8x64.size a ≤ S3x8x1000000.size a) : Memref sig .scVector .hbm S8x64 .f32 :=
  ((Memref.whole main_v1_scv : Memref sig .scVector .hbm S3x8x1000000 .f32).slice (Rect.unit (s := S3x8x1000000) ![c, 0, 999936] S1x8x64.size hc) (fun _ => rfl)).squeeze S8x64 squeezes_S1x8x64_S8x64

/-- What the second tail's chain leaves on channel `c`: the input's last 64 columns are copied into the second
    scratch, then the scratch's row `p` to the piece. -/
theorem landed_tailB (c : Fin 3) (p : ℕ) (hp4 : p < 4)
    (hc : ∀ a, (![c.val, 0, 999936] : Fin 3 → Nat) a + S1x8x64.size a ≤ S3x8x1000000.size a)
    (hp : ∀ a, (![0, p, 0] : Fin 3 → Nat) a + S8x1x64.size a ≤ S8x4x64.size a)
    (hsrc : Cert.Spec.src c = ⟨p, hp4⟩)
    (xt : S8x4x1000000.Idx → Elt F .f32) (fs1 : S8x4x64.Idx → Elt F .f32) (f0 : S3x8x1000000.Idx → Elt F .f32) :
    ∀ i ∈ (tbAt c.val hc).view.set,
      (tbAt c.val hc).view.writes (Elt F) f0 [⟨Rect.whole S8x64, ReadAs.same.apply (View.read (Elt F) (srow64 p hp).view
        (View.write (Elt F) (Memref.whole cc0_scratch1 : Memref sig .scVector .vmem S8x4x64 .f32).view fs1
          (ReadAs.same.apply (View.read (Elt F) xblk64.view xt)) Finset.univ))⟩] i = tgt xt i := by
  intro i hi
  obtain ⟨y, -, rfl⟩ := Finset.mem_map.mp hi
  obtain ⟨b, j, rfl⟩ : ∃ (b : Fin 8) (j : Fin 64), y = ix2 b j := ⟨y 0, y 1, eq_ix2 y⟩
  have hw := View.read_writes_cons_emb (Val := Elt F) (tbAt c.val hc).view f0 (Rect.whole S8x64)
    (ReadAs.same.apply (View.read (Elt F) (srow64 p hp).view
        (View.write (Elt F) (Memref.whole cc0_scratch1 : Memref sig .scVector .vmem S8x4x64 .f32).view fs1
          (ReadAs.same.apply (View.read (Elt F) xblk64.view xt)) Finset.univ))) [] (ix2 b j)
  rw [Rect.emb_whole_apply] at hw
  unfold View.read at hw
  simp only [cast_eq] at hw
  refine hw.trans ?_
  show View.write (Elt F) (Memref.whole cc0_scratch1 : Memref sig .scVector .vmem S8x4x64 .f32).view fs1
      (fun x => xt (xblk64.view.emb x)) Finset.univ ((srow64 p hp).view.emb (ix2 b j)) = _
  rw [row64_emb p hp4 hp b j]
  have hs := View.write_emb_of_mem (Val := Elt F) (v := (Memref.whole cc0_scratch1 : Memref sig .scVector .vmem S8x4x64 .f32).view) fs1
    (fun x => xt (xblk64.view.emb x)) (M := Finset.univ)
    (x := (ix3 b (⟨p, hp4⟩ : Fin 4) (⟨j.val, Nat.lt_of_lt_of_le j.isLt (by decide)⟩ : Fin 64) : S8x4x64.Idx)) (Finset.mem_univ _)
  simp only [cast_eq] at hs
  refine Eq.trans hs ?_
  unfold tgt
  refine congrArg xt (funext fun a => Fin.ext ?_)
  rw [blk64_emb_val]
  match a with
  | ⟨0, _⟩ =>
    show 0 + b.val = ((tbAt c.val hc).view.emb (ix2 b j) 1 : ℕ)
    rw [piece64_emb_val]; rfl
  | ⟨1, _⟩ =>
    have e0 : (tbAt c.val hc).view.emb (ix2 b j) 0 = c := Fin.ext (by rw [piece64_emb_val]; rfl)
    show 0 + p = ((Cert.Spec.src ((tbAt c.val hc).view.emb (ix2 b j) 0)) : ℕ)
    rw [e0, hsrc, Nat.zero_add]
  | ⟨2, _⟩ =>
    show 999936 + j.val = ((tbAt c.val hc).view.emb (ix2 b j) 2 : ℕ)
    rw [piece64_emb_val]; rfl

/-! ## The six tail pieces -/

theorem landedTA0 (xt : S8x4x1000000.Idx → Elt F .f32) (fs : S8x4x3456.Idx → Elt F .f32) (f0 : S3x8x1000000.Idx → Elt F .f32) :
    ∀ i ∈ (ta0).view.set,
      (ta0).view.writes (Elt F) f0 [⟨Rect.whole S8x1152, ReadAs.same.apply (View.read (Elt F) (srow1152 3 inb_S8x4x3456_S8x1x1152_0_3_0).view
        ((Memref.whole cc0_scratch0 : Memref sig .scVector .vmem S8x4x3456 .f32).view.writes (Elt F) fs
          [⟨Rect.unit (s := S8x4x3456) ![0, 0, 0] S8x4x1152.size inb_S8x4x3456_S8x4x1152_0_0_0,
            ReadAs.same.apply (View.read (Elt F) xblk1152.view xt)⟩]))⟩] i = tgt xt i :=
  landed_tailA 0 3 (by decide) inb_S3x8x1000000_S1x8x1152_0_0_998784 inb_S8x4x3456_S8x1x1152_0_3_0 rfl xt fs f0

theorem landedTA1 (xt : S8x4x1000000.Idx → Elt F .f32) (fs : S8x4x3456.Idx → Elt F .f32) (f0 : S3x8x1000000.Idx → Elt F .f32) :
    ∀ i ∈ (ta1).view.set,
      (ta1).view.writes (Elt F) f0 [⟨Rect.whole S8x1152, ReadAs.same.apply (View.read (Elt F) (srow1152 1 inb_S8x4x3456_S8x1x1152_0_1_0).view
        ((Memref.whole cc0_scratch0 : Memref sig .scVector .vmem S8x4x3456 .f32).view.writes (Elt F) fs
          [⟨Rect.unit (s := S8x4x3456) ![0, 0, 0] S8x4x1152.size inb_S8x4x3456_S8x4x1152_0_0_0,
            ReadAs.same.apply (View.read (Elt F) xblk1152.view xt)⟩]))⟩] i = tgt xt i :=
  landed_tailA 1 1 (by decide) inb_S3x8x1000000_S1x8x1152_1_0_998784 inb_S8x4x3456_S8x1x1152_0_1_0 rfl xt fs f0

theorem landedTA2 (xt : S8x4x1000000.Idx → Elt F .f32) (fs : S8x4x3456.Idx → Elt F .f32) (f0 : S3x8x1000000.Idx → Elt F .f32) :
    ∀ i ∈ (ta2).view.set,
      (ta2).view.writes (Elt F) f0 [⟨Rect.whole S8x1152, ReadAs.same.apply (View.read (Elt F) (srow1152 2 inb_S8x4x3456_S8x1x1152_0_2_0).view
        ((Memref.whole cc0_scratch0 : Memref sig .scVector .vmem S8x4x3456 .f32).view.writes (Elt F) fs
          [⟨Rect.unit (s := S8x4x3456) ![0, 0, 0] S8x4x1152.size inb_S8x4x3456_S8x4x1152_0_0_0,
            ReadAs.same.apply (View.read (Elt F) xblk1152.view xt)⟩]))⟩] i = tgt xt i :=
  landed_tailA 2 2 (by decide) inb_S3x8x1000000_S1x8x1152_2_0_998784 inb_S8x4x3456_S8x1x1152_0_2_0 rfl xt fs f0

theorem landedTB0 (xt : S8x4x1000000.Idx → Elt F .f32) (fs1 : S8x4x64.Idx → Elt F .f32) (f0 : S3x8x1000000.Idx → Elt F .f32) :
    ∀ i ∈ (tb0).view.set,
      (tb0).view.writes (Elt F) f0 [⟨Rect.whole S8x64, ReadAs.same.apply (View.read (Elt F) (srow64 3 inb_S8x4x64_S8x1x64_0_3_0).view
        (View.write (Elt F) (Memref.whole cc0_scratch1 : Memref sig .scVector .vmem S8x4x64 .f32).view fs1
          (ReadAs.same.apply (View.read (Elt F) xblk64.view xt)) Finset.univ))⟩] i = tgt xt i :=
  landed_tailB 0 3 (by decide) inb_S3x8x1000000_S1x8x64_0_0_999936 inb_S8x4x64_S8x1x64_0_3_0 rfl xt fs1 f0

theorem landedTB1 (xt : S8x4x1000000.Idx → Elt F .f32) (fs1 : S8x4x64.Idx → Elt F .f32) (f0 : S3x8x1000000.Idx → Elt F .f32) :
    ∀ i ∈ (tb1).view.set,
      (tb1).view.writes (Elt F) f0 [⟨Rect.whole S8x64, ReadAs.same.apply (View.read (Elt F) (srow64 1 inb_S8x4x64_S8x1x64_0_1_0).view
        (View.write (Elt F) (Memref.whole cc0_scratch1 : Memref sig .scVector .vmem S8x4x64 .f32).view fs1
          (ReadAs.same.apply (View.read (Elt F) xblk64.view xt)) Finset.univ))⟩] i = tgt xt i :=
  landed_tailB 1 1 (by decide) inb_S3x8x1000000_S1x8x64_1_0_999936 inb_S8x4x64_S8x1x64_0_1_0 rfl xt fs1 f0

theorem landedTB2 (xt : S8x4x1000000.Idx → Elt F .f32) (fs1 : S8x4x64.Idx → Elt F .f32) (f0 : S3x8x1000000.Idx → Elt F .f32) :
    ∀ i ∈ (tb2).view.set,
      (tb2).view.writes (Elt F) f0 [⟨Rect.whole S8x64, ReadAs.same.apply (View.read (Elt F) (srow64 2 inb_S8x4x64_S8x1x64_0_2_0).view
        (View.write (Elt F) (Memref.whole cc0_scratch1 : Memref sig .scVector .vmem S8x4x64 .f32).view fs1
          (ReadAs.same.apply (View.read (Elt F) xblk64.view xt)) Finset.univ))⟩] i = tgt xt i :=
  landed_tailB 2 2 (by decide) inb_S3x8x1000000_S1x8x64_2_0_999936 inb_S8x4x64_S8x1x64_0_2_0 rfl xt fs1 f0

end Cert.Proof.KB

end
-- ==== Proof.KB.Launch.lean ====
import proofs.«216280_g62835371540565_cont_9to1_m_1109_19_alg».proof.Defs
import Idealize.ShloMosaic.Lib.SparseCore.Launch
import Idealize.ShloMosaic.Lib.StableHlo.Run
import Idealize.ShloMosaic.Lib.Pipeline.Kit
import Idealize.ShloMosaic.Lib.Tactic
import proofs.«216280_g62835371540565_cont_9to1_m_1109_19_alg».proof.Proof.KB.Body
import proofs.«216280_g62835371540565_cont_9to1_m_1109_19_alg».proof.Proof.KB.Cores
import proofs.«216280_g62835371540565_cont_9to1_m_1109_19_alg».proof.Proof.KB.Value
import proofs.«216280_g62835371540565_cont_9to1_m_1109_19_alg».proof.Proof.Gen.Kernel
import proofs.«216280_g62835371540565_cont_9to1_m_1109_19_alg».proof.Proof.Gen.Kernel.Skeleton

noncomputable section

/-
  The launch. The TensorCore transposes the argument, hands the two SparseCores the transposed array (a read share
  each) and the output array (each worker's pieces), waits for them, and transposes what comes back. Each SparseCore
  deals its half to its sixteen workers and collects it again. After the call every piece holds the target contents,
  so the output array is the target function of the transposed argument, and the last transpose is taken of that.
-/
namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xtW" => (Memref.whole Cert.Kernel.main_v0_scv : Memref Cert.Kernel.sig Kind.scVector Space.hbm Cert.Kernel.S8x4x1000000 EltTy.f32)
local notation "otW" => (Memref.whole Cert.Kernel.main_v1_scv : Memref Cert.Kernel.sig Kind.scVector Space.hbm Cert.Kernel.S3x8x1000000 EltTy.f32)
local notation "s0W" => (Memref.whole Cert.Kernel.cc0_scratch0 : Memref Cert.Kernel.sig Kind.scVector Space.vmem Cert.Kernel.S8x4x3456 EltTy.f32)
local notation "s1W" => (Memref.whole Cert.Kernel.cc0_scratch1 : Memref Cert.Kernel.sig Kind.scVector Space.vmem Cert.Kernel.S8x4x64 EltTy.f32)

variable (m : (ℓ : Loc nD τ sig) → Buf (Elt F) ℓ) (ρ : Dev nD → PrngReg)
variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The argument and the result, as the TensorCore names them. -/
abbrev aLoc (d : Dev nD) : Loc nD τ sig := (SparseCore.T d).loc main_arg0
abbrev rLoc (d : Dev nD) : Loc nD τ sig := (SparseCore.T d).loc main_v2

/-- The transposed argument, the kernel's target output, and the result. -/
def xtv (d : Dev nD) : Buf (Elt F) (xtLoc d) := transpose S8x4x1000000 [0, 2, 1] (m (aLoc d)) transposes_S8x1000000x4_S8x4x1000000_0_2_1
def gv (d : Dev nD) : Buf (Elt F) (otLoc d) := tgt (xtv m d)
def resv (d : Dev nD) : Buf (Elt F) (rLoc d) := transpose S8x1000000x3 [1, 2, 0] (gv m d) transposes_S3x8x1000000_S8x1000000x3_1_2_0

omit [FloatOps F] in
instance goTile_storable (d : Dev nD) (L : grid0.Coords) (q) (xt : Buf (Elt F) (xtLoc d)) (f : Buf (Elt F) (otLoc d)) : BI.Storable (upEmb : UEmb _ 𝕄) (goTile d L q xt f) := by unfold goTile; infer_instance

/-- What a SparseCore is handed (at output contents `f`), and what a worker is. -/
def coreP (d : Dev nD) (c : Fin ((K (F := F)).nCore 0)) (f : Buf (Elt F) (otLoc d)) : sProp 𝕄 := coreRes d c (xtv m d) f
def tileP (d : Dev nD) (c : Fin ((K (F := F)).nCore 0)) (i : Fin ((K (F := F)).nSub 0)) (f : Buf (Elt F) (otLoc d)) : sProp 𝕄 :=
  goTile d (coordsV (cOf (F := F) c) (iOf (F := F) i)) (qT (F := F) c i) (xtv m d) f

instance coreP_storable (d c f) : BI.Storable (upEmb : UEmb _ 𝕄) (coreP (F := F) m d c f) := by unfold coreP; infer_instance
instance tileP_storable (d c i f) : BI.Storable (upEmb : UEmb _ 𝕄) (tileP (F := F) m d c i f) := by unfold tileP; infer_instance

def P : (K (F := F)).Pay (nD := nD) (Val := Elt F) (Name := ℕ) (U := UU) where
  st := fun q d c => match q with | 0 => coreP m d c (m (otLoc d))
  dn := fun q d c => match q with | 0 => coreP m d c (gv m d)
  go := fun q d c i => match q with | 0 => tileP m d c i (m (otLoc d))
  td := fun q d c i => match q with | 0 => tileP m d c i (gv m d)
  x := fun _ _ => iprop(emp)

instance P_storable : (P (F := F) m).IsStorable where
  st q d c := match q with | 0 => (inferInstance : BI.Storable (upEmb : UEmb _ 𝕄) (coreP m d c (m (otLoc d))))
  dn q d c := match q with | 0 => (inferInstance : BI.Storable (upEmb : UEmb _ 𝕄) (coreP m d c (gv m d)))
  go q d c i := match q with | 0 => (inferInstance : BI.Storable (upEmb : UEmb _ 𝕄) (tileP m d c i (m (otLoc d))))
  td q d c i := match q with | 0 => (inferInstance : BI.Storable (upEmb : UEmb _ 𝕄) (tileP m d c i (gv m d)))

/-! ## The launch theorem's obligations -/

theorem defs₀_vector (c : Fin τ.nSC) (s : Fin τ.nSub) :
    defs₀ (F := F) (.scVector c s) 0 ()
      = SparseCore.onTile hcore0 hsub0 (fun c s => cc0__sph2vec_sc (coordsV c s)
          xtW (Memref.isWhole_whole _) otW (Memref.isWhole_whole _) s0W (Memref.isWhole_whole _) s1W (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (qT (F := F) c i) (xtv m d) (gv m d) (m (otLoc d))
    (fun k fs => landed2 _ k (xtv m d) fs (m (otLoc d))) (fun k fs => landed3 _ k (xtv m d) fs (m (otLoc d))) (fun k fs => landed4 _ k (xtv m d) fs (m (otLoc d)))
    (fun fs => landedTA0 (xtv m d) fs (m (otLoc d))) (fun fs => landedTA1 (xtv m d) fs (m (otLoc d))) (fun fs => landedTA2 (xtv m d) fs (m (otLoc d)))
    (fun fs1 => landedTB0 (xtv m d) fs1 (m (otLoc d))) (fun fs1 => landedTB1 (xtv m d) fs1 (m (otLoc d))) (fun fs1 => landedTB2 (xtv m d) fs1 (m (otLoc d)))
    O W hO).trans (wp_mono frame _ _ fun _ => obl_post)

omit [FloatOps F] in
theorem vecSplit_gen (d : Dev nD) (c : Fin ((K (F := F)).nCore 0)) (xt : Buf (Elt F) (xtLoc d)) (f g : Buf (Elt F) (otLoc d)) :
    iprop((xtLoc d ↦{qC (F := F) c} xt) ∗ bigSep Finset.univ fun i : Fin ((K (F := F)).nSub 0) => tileOut d (coordsV (cOf (F := F) c) (iOf (F := F) i)) f)
      ⊢ |={Set.univ}=> iprop((bigSep Finset.univ fun i : Fin ((K (F := F)).nSub 0) => goTile d (coordsV (cOf (F := F) c) (iOf (F := F) i)) (qT (F := F) c i) xt f)
        ∗ ((bigSep Finset.univ fun i : Fin ((K (F := F)).nSub 0) => goTile d (coordsV (cOf (F := F) c) (iOf (F := F) i)) (qT (F := F) c i) xt g)
          -∗ iprop((xtLoc d ↦{qC (F := F) c} xt) ∗ bigSep Finset.univ fun i : Fin ((K (F := F)).nSub 0) => tileOut d (coordsV (cOf (F := F) c) (iOf (F := F) i)) g))) := by
  unfold goTile
  rw [bigSep_sep', bigSep_sep']
  iintro ⟨Hx, Ho⟩
  ihave Hsp := (Transfers.pointsTo_toks_split (qC (F := F) c) ((K (F := F)).nSub 0)) $$ Hx
  icases Hsp with ⟨Hrem, Htoks⟩
  imodintro
  isplitl [Htoks Ho]
  · isplitl [Htoks]; · iexact Htoks
    iexact Ho
  iintro ⟨Htoks', Ho'⟩
  isplitl [Hrem Htoks']
  · iapply (Transfers.pointsTo_toks_join (qC (F := F) c) ((K (F := F)).nSub 0))
    isplitl [Hrem]; · iexact Hrem
    iexact Htoks'
  iexact Ho'

theorem vecSplit : (K (F := F)).VecSplit' (P m) 0 := by
  intro d c
  exact vecSplit_gen (F := F) d c (xtv m d) (m (otLoc d)) (gv m d)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev S4 : Finset (DevRef τ sig) := {a', x', o', r'}
/-- The two transposes of @main. -/
abbrev op1 : HloOp τ sig (Elt F) := StableHlo.unary main_arg0 main_v0 ((transpose S8x4x1000000 [0, 2, 1] · transposes_S8x1000000x4_S8x4x1000000_0_2_1) : (⟨S8x1000000x4, .f32⟩ : BufTy).Contents (Elt F) → (⟨S8x4x1000000, .f32⟩ : BufTy).Contents (Elt F))
abbrev op2 : HloOp τ sig (Elt F) := StableHlo.unary main_v1 main_v2 ((transpose S8x1000000x3 [1, 2, 0] · transposes_S3x8x1000000_S8x1000000x3_1_2_0) : (⟨S3x8x1000000, .f32⟩ : BufTy).Contents (Elt F) → (⟨S8x1000000x3, .f32⟩ : BufTy).Contents (Elt F))

omit [FloatOps F] in
theorem held_S4 (d : Dev nD) (W : Valuation τ sig (Elt F)) :
    (held (T d) S4 W : sProp 𝕄) = iprop((aLoc d ↦{fullShare} W a') ∗ (xtLoc d ↦{fullShare} W x') ∗ (otLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xtLoc d ↦{fullShare} W main_v0) ∗ (otLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; then the one after the call: the transposed argument in place, the output at the target. -/
def V0 (d : Dev nD) : Valuation τ sig (Elt F) := fun b => m (d, b)
def V2 (d : Dev nD) : Valuation τ sig (Elt F) := Function.update (Function.update (V0 m d) x' (xtv m d)) o' (gv m d)

theorem unscoped_held (d : Dev nD) : (unscopedBufs d (fun b => m ((SparseCore.T d).loc b)) : sProp 𝕄) = held (T d) S4 (V0 m d) := by
  rw [unscopedBufs_eq, held_S4]; rfl

theorem hop1 : (op1 (F := F)).bufs ⊆ S4 := show ({a', x'} : Finset (DevRef τ sig)) ⊆ S4 by decide
theorem hop2 : (op2 (F := F)).bufs ⊆ S4 := show ({o', r'} : Finset (DevRef τ sig)) ⊆ S4 by decide

theorem held_W1 (d : Dev nD) :
    (held (T d) S4 ((op1 (F := F)).result (V0 m d)) : sProp 𝕄)
      = iprop((aLoc d ↦{fullShare} m (aLoc d)) ∗ (xtLoc d ↦{fullShare} xtv m d) ∗ (otLoc d ↦{fullShare} m (otLoc d)) ∗ rLoc d ↦{fullShare} m (rLoc d)) := by
  rw [held_S4,
    (op1 (F := F)).result_of_not_mem (V0 m d) (b := a') (show a' ∉ ({x'} : Finset (DevRef τ sig)) by decide),
    (op1 (F := F)).result_of_not_mem (V0 m d) (b := o') (show o' ∉ ({x'} : Finset (DevRef τ sig)) by decide),
    (op1 (F := F)).result_of_not_mem (V0 m d) (b := r') (show r' ∉ ({x'} : Finset (DevRef τ sig)) by decide),
    show (op1 (F := F)).result (V0 m d) x' = xtv m d from StableHlo.unary_result main_arg0 main_v0 _ _ _ (V0 m d)]
  rfl

theorem held_V2 (d : Dev nD) :
    (held (T d) S4 (V2 m d) : sProp 𝕄)
      = iprop((aLoc d ↦{fullShare} m (aLoc d)) ∗ (xtLoc d ↦{fullShare} xtv m d) ∗ (otLoc d ↦{fullShare} gv m d) ∗ rLoc d ↦{fullShare} m (rLoc d)) := by
  rw [held_S4]
  unfold V2
  rw [Function.update_of_ne (show a' ≠ o' by decide), Function.update_of_ne (show a' ≠ x' by decide),
    Function.update_of_ne (show x' ≠ o' by decide), Function.update_self, Function.update_self,
    Function.update_of_ne (show r' ≠ o' by decide), Function.update_of_ne (show r' ≠ x' by decide)]
  rfl

theorem held_W3 (d : Dev nD) :
    (held (T d) S4 ((op2 (F := F)).result (V2 m d)) : sProp 𝕄)
      = iprop((aLoc d ↦{fullShare} m (aLoc d)) ∗ (xtLoc d ↦{fullShare} xtv m d) ∗ (otLoc d ↦{fullShare} gv m d) ∗ rLoc d ↦{fullShare} resv m d) := by
  rw [held_S4,
    (op2 (F := F)).result_of_not_mem (V2 m d) (b := a') (show a' ∉ ({r'} : Finset (DevRef τ sig)) by decide),
    (op2 (F := F)).result_of_not_mem (V2 m d) (b := x') (show x' ∉ ({r'} : Finset (DevRef τ sig)) by decide),
    (op2 (F := F)).result_of_not_mem (V2 m d) (b := o') (show o' ∉ ({r'} : Finset (DevRef τ sig)) by decide),
    show (op2 (F := F)).result (V2 m d) r' = resv m d from (StableHlo.unary_result main_v1 main_v2 _ _ _ (V2 m d)).trans (by unfold V2 resv; rw [Function.update_self])]
  unfold V2
  rw [Function.update_of_ne (show a' ≠ o' by decide), Function.update_of_ne (show a' ≠ x' by decide),
    Function.update_of_ne (show x' ≠ o' by decide), Function.update_self, Function.update_self]
  rfl

/-- What @main leaves the claim: the argument unchanged, the result at the second transpose of the target. -/
abbrev FIN (d : Dev nD) : sProp 𝕄 := iprop((aLoc d ↦{fullShare} m (aLoc d)) ∗ rLoc d ↦{fullShare} resv m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose
  iapply (wp_hlo_within 𝒱 (SparseCore.T d) none Set.univ (op := op1) (S := S4) hop1 (V := V0 m d)) $$ [Hb Hheld]
  · isplitl [Hb]; · iexact Hb
    iexact Hheld
  iintro ⟨Hb, Hheld⟩
  rw [wp_ret]; imodintro
  ihave Hh := (Entails.of_eq (held_W1 (F := F) m d)) $$ Hheld
  icases Hh with ⟨Ha, Hx, Ho, Hr⟩
  -- the call: the two arrays dealt to the SparseCores and collected again
  ihave Hsp := (cores_split (F := F) d (xtv m d) (m (otLoc d))) $$ [Hx Ho]
  · isplitl [Hx]; · iexact Hx
    iexact Ho
  icases Hsp with ⟨Hrem, Hcores⟩
  iapply ((K (F := F)).wp_run (D (F := F)) 𝒱 (EH := EH) (P := P m) κ d 0) $$ [Hst Hcores Hb Ha Hr Hrem]
  isplitr; · iexact Hctx
  isplitl [Hst]; · iexact Hst
  isplitl [Hcores]; · iexact Hcores
  iintro ⟨Hst, Hdn⟩
  ihave Hj := (cores_join (F := F) d (xtv m d) (gv m d)) $$ [Hrem Hdn]
  · isplitl [Hrem]; · iexact Hrem
    iexact Hdn
  icases Hj with ⟨Hx, Ho⟩
  -- the second transpose
  iapply (wp_hlo_within 𝒱 (SparseCore.T d) none Set.univ (op := op2) (S := S4) hop2 (V := V2 m d)) $$ [Hb Ha Hx Ho Hr]
  · isplitl [Hb]; · iexact Hb
    rw [held_V2]
    isplitl [Ha]; · iexact Ha
    isplitl [Hx]; · iexact Hx
    isplitl [Ho]; · iexact Ho
    iexact Hr
  iintro ⟨Hb, Hheld⟩
  ihave Hh := (Entails.of_eq (held_W3 (F := F) m d)) $$ Hheld
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop := s'.mem.mem (rLoc d) = resv m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := resv m d)) $$ [HSI Hr]
  · isplitl [HSI] <;> iassumption
  icases H with %h2
  ipureintro; exact ⟨funext fun i => h2 i (Finset.mem_univ i), funext fun i => h1 i (Finset.mem_univ i)⟩

/-! ## The program's run -/

/-- Every weakly fair execution ends with the result array at the second transpose of the target and the argument
    unchanged. -/
def QC : PUnit × MemSt nD τ sig (Elt F) → Prop := fun r => ∀ c : Dev nD, r.2.mem (rLoc c) = resv m c ∧ r.2.mem (aLoc c) = m (aLoc c)

theorem run_main [∀ e, Nonempty (Elt F e)] : θ_run (defs (F := F)) (threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KI.Pieces.lean ====
/-
  The output array [3, 8, 1000000] is written in pieces, each the destination of one copy: piece `(L, k, ch)` is
  channel `ch`, all 8 batches, the 3456 columns of unit `32 k + w` (`w = 2 · L 1 + L 0` the worker's number,
  `k` below the worker's trip count); worker 31 also writes, per channel, the 1152 columns from 998784 and the last
  64 columns from 999936. Each piece is named here as the memref the program slices, so that its index set is the
  set a copy's destination is held on.
-/
import proofs.«216280_g62835371540565_cont_9to1_m_1109_19_alg».proof.Defs
import Idealize.ShloMosaic.Lib.SparseCore.Launch
import proofs.«216280_g62835371540565_cont_9to1_m_1109_19_alg».proof.Proof.Gen.KernelIdeal

noncomputable section

namespace Cert.Proof.KI

open Cert.KernelIdeal Cert.KernelIdeal.Gen
open Idealize.ShloMosaic

/-- The whole output array, as a vector subcore names it. -/
abbrev otM : Memref sig .scVector .hbm S3x8x1000000 .f32 := Memref.whole main_v1_scv

/-- The worker's number: subcore index twice plus core index. -/
def wid (L : grid0.Coords) : ℕ := 2 * (L 1).val + (L 0).val

/-- Piece `(L, k, 0)`: channel 0 of unit `32 k + wid L`. -/
abbrev pc2 (L : grid0.Coords) (k : Fin (k0_t1_loop L).trips) : Memref sig .scVector .hbm S8x3456 .f32 :=
  ((Memref.whole main_v1_scv : Memref sig .scVector .hbm S3x8x1000000 .f32).slice (Rect.unit (s := S3x8x1000000) (k0_off2 L k) S1x8x3456.size (k0_off2_inb L k)) (fun _ => rfl)).squeeze S8x3456 squeezes_S1x8x3456_S8x3456
/-- Piece `(L, k, 1)`. -/
abbrev pc3 (L : grid0.Coords) (k : Fin (k0_t1_loop L).trips) : Memref sig .scVector .hbm S8x3456 .f32 :=
  ((Memref.whole main_v1_scv : Memref sig .scVector .hbm S3x8x1000000 .f32).slice (Rect.unit (s := S3x8x1000000) (k0_off3 L k) S1x8x3456.size (k0_off3_inb L k)) (fun _ => rfl)).squeeze S8x3456 squeezes_S1x8x3456_S8x3456
/-- Piece `(L, k, 2)`. -/
abbrev pc4 (L : grid0.Coords) (k : Fin (k0_t1_loop L).trips) : Memref sig .scVector .hbm S8x3456 .f32 :=
  ((Memref.whole main_v1_scv : Memref sig .scVector .hbm S3x8x1000000 .f32).slice (Rect.unit (s := S3x8x1000000) (k0_off4 L k) S1x8x3456.size (k0_off4_inb L k)) (fun _ => rfl)).squeeze S8x3456 squeezes_S1x8x3456_S8x3456

/-- The first tail, columns 998784 to 999936, channel 0, 1, 2. -/
abbrev ta0 : Memref sig .scVector .hbm S8x1152 .f32 :=
  ((Memref.whole main_v1_scv : Memref sig .scVector .hbm S3x8x1000000 .f32).slice (Rect.unit (s := S3x8x1000000) ![0, 0, 998784] S1x8x1152.size inb_S3x8x1000000_S1x8x1152_0_0_998784) (fun _ => rfl)).squeeze S8x1152 squeezes_S1x8x1152_S8x1152
abbrev ta1 : Memref sig .scVector .hbm S8x1152 .f32 :=
  ((Memref.whole main_v1_scv : Memref sig .scVector .hbm S3x8x1000000 .f32).slice (Rect.unit (s := S3x8x1000000) ![1, 0, 998784] S1x8x1152.size inb_S3x8x1000000_S1x8x1152_1_0_998784) (fun _ => rfl)).squeeze S8x1152 squeezes_S1x8x1152_S8x1152
abbrev ta2 : Memref sig .scVector .hbm S8x1152 .f32 :=
  ((Memref.whole main_v1_scv : Memref sig .scVector .hbm S3x8x1000000 .f32).slice (Rect.unit (s := S3x8x1000000) ![2, 0, 998784] S1x8x1152.size inb_S3x8x1000000_S1x8x1152_2_0_998784) (fun _ => rfl)).squeeze S8x1152 squeezes_S1x8x1152_S8x1152
/-- The second tail, columns 999936 to 1000000, channel 0, 1, 2. -/
abbrev tb0 : Memref sig .scVector .hbm S8x64 .f32 :=
  ((Memref.whole main_v1_scv : Memref sig .scVector .hbm S3x8x1000000 .f32).slice (Rect.unit (s := S3x8x1000000) ![0, 0, 999936] S1x8x64.size inb_S3x8x1000000_S1x8x64_0_0_999936) (fun _ => rfl)).squeeze S8x64 squeezes_S1x8x64_S8x64
abbrev tb1 : Memref sig .scVector .hbm S8x64 .f32 :=
  ((Memref.whole main_v1_scv : Memref sig .scVector .hbm S3x8x1000000 .f32).slice (Rect.unit (s := S3x8x1000000) ![1, 0, 999936] S1x8x64.size inb_S3x8x1000000_S1x8x64_1_0_999936) (fun _ => rfl)).squeeze S8x64 squeezes_S1x8x64_S8x64
abbrev tb2 : Memref sig .scVector .hbm S8x64 .f32 :=
  ((Memref.whole main_v1_scv : Memref sig .scVector .hbm S3x8x1000000 .f32).slice (Rect.unit (s := S3x8x1000000) ![2, 0, 999936] S1x8x64.size inb_S3x8x1000000_S1x8x64_2_0_999936) (fun _ => rfl)).squeeze S8x64 squeezes_S1x8x64_S8x64

/-- The index sets, all subsets of the output array's indices. -/
abbrev Ix : Type := S3x8x1000000.Idx
def A2 (L : grid0.Coords) (k : Fin (k0_t1_loop L).trips) : Finset Ix := (pc2 L k).view.set
def A3 (L : grid0.Coords) (k : Fin (k0_t1_loop L).trips) : Finset Ix := (pc3 L k).view.set
def A4 (L : grid0.Coords) (k : Fin (k0_t1_loop L).trips) : Finset Ix := (pc4 L k).view.set
def TA0 : Finset Ix := (ta0).view.set
def TA1 : Finset Ix := (ta1).view.set
def TA2 : Finset Ix := (ta2).view.set
def TB0 : Finset Ix := (tb0).view.set
def TB1 : Finset Ix := (tb1).view.set
def TB2 : Finset Ix := (tb2).view.set

/-- What one trip writes. -/
def tripSet (L : grid0.Coords) (k : Fin (k0_t1_loop L).trips) : Finset Ix := A2 L k ∪ (A3 L k ∪ A4 L k)
/-- What worker 31 writes after its loop. -/
def tailSet : Finset Ix := TA0 ∪ (TA1 ∪ (TA2 ∪ (TB0 ∪ (TB1 ∪ TB2))))
/-- Everything worker `L` writes. -/
def tileSet (L : grid0.Coords) : Finset Ix := (Finset.univ.biUnion (tripSet L)) ∪ (if wid L = 31 then tailSet else ∅)

end Cert.Proof.KI

end
-- ==== Proof.KI.Res.lean ====
import proofs.«216280_g62835371540565_cont_9to1_m_1109_19_alg».proof.Defs
import Idealize.ShloMosaic.Lib.SparseCore.Launch
import Idealize.ShloMosaic.Lib.StableHlo.Run
import Idealize.ShloMosaic.Lib.Pipeline.Kit
import Idealize.ShloMosaic.Lib.Tactic
import proofs.«216280_g62835371540565_cont_9to1_m_1109_19_alg».proof.Proof.KI.Pieces
import proofs.«216280_g62835371540565_cont_9to1_m_1109_19_alg».proof.Proof.Gen.KernelIdeal
import proofs.«216280_g62835371540565_cont_9to1_m_1109_19_alg».proof.Proof.Gen.KernelIdeal.Skeleton

noncomputable section

/-
  What a worker is handed of the output array: the pieces it writes, each held on the index set of the memref
  the program slices for the copy, so that a copy's destination is a held buffer. Worker `L` is handed the three
  pieces of each of its trips and, if it is worker 31, the six tail pieces.
-/
namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (d : Dev nD) (L : grid0.Coords)

/-- The worker's thread. -/
abbrev thrV (L : grid0.Coords) : Thread nD τ := V d ((L 0).castLE hcore0) ((L 1).castLE hsub0)
/-- The transposed input and the kernel's output, as the TensorCore names them. -/
abbrev xtLoc (d : Dev nD) : Loc nD τ sig := (SparseCore.T d).loc main_v0
abbrev otLoc (d : Dev nD) : Loc nD τ sig := (SparseCore.T d).loc main_v1

/-- A worker from its core and subcore numbers. -/
def coordsV (c : Fin (grid0.bound 0)) (s : Fin (grid0.bound 1)) : grid0.Coords :=
  fun | 0 => c | 1 => s | ⟨_ + 2, h⟩ => absurd h (Nat.not_lt.2 (Nat.le_add_left _ _))

/-- The three pieces of trip `k`, at contents `f`. -/
def trip3 (k : Fin (k0_t1_loop L).trips) (f : Buf (Elt F) (otLoc d)) : sProp 𝕄 :=
  iprop(((pc2 L k).view.loc (thrV d L) ↦[(pc2 L k).view.set]{fullShare} f)
    ∗ ((pc3 L k).view.loc (thrV d L) ↦[(pc3 L k).view.set]{fullShare} f)
    ∗ ((pc4 L k).view.loc (thrV d L) ↦[(pc4 L k).view.set]{fullShare} f))

/-- The six tail pieces, at contents `f`. -/
def tail6 (f : Buf (Elt F) (otLoc d)) : sProp 𝕄 :=
  iprop(((ta0).view.loc (thrV d L) ↦[(ta0).view.set]{fullShare} f)
    ∗ ((ta1).view.loc (thrV d L) ↦[(ta1).view.set]{fullShare} f)
    ∗ ((ta2).view.loc (thrV d L) ↦[(ta2).view.set]{fullShare} f)
    ∗ ((tb0).view.loc (thrV d L) ↦[(tb0).view.set]{fullShare} f)
    ∗ ((tb1).view.loc (thrV d L) ↦[(tb1).view.set]{fullShare} f)
    ∗ ((tb2).view.loc (thrV d L) ↦[(tb2).view.set]{fullShare} f))

/-- The tail pieces, for worker 31 only. -/
def tailRes (f : Buf (Elt F) (otLoc d)) : sProp 𝕄 := if wid L = 31 then tail6 d L f else iprop(emp)

/-- Everything worker `L` holds of the output array, at contents `f`. -/
def tileOut (f : Buf (Elt F) (otLoc d)) : sProp 𝕄 :=
  iprop((bigSep Finset.univ fun k : Fin (k0_t1_loop L).trips => trip3 d L k f) ∗ tailRes d L f)

end Cert.Proof.KI

end
-- ==== Proof.KI.Body.lean ====
import proofs.«216280_g62835371540565_cont_9to1_m_1109_19_alg».proof.Defs
import Idealize.ShloMosaic.Lib.SparseCore.Launch
import Idealize.ShloMosaic.Lib.StableHlo.Run
import Idealize.ShloMosaic.Lib.Pipeline.Kit
import Idealize.ShloMosaic.Lib.Tactic
import proofs.«216280_g62835371540565_cont_9to1_m_1109_19_alg».proof.Proof.KI.Res
import proofs.«216280_g62835371540565_cont_9to1_m_1109_19_alg».proof.Proof.Gen.KernelIdeal
import proofs.«216280_g62835371540565_cont_9to1_m_1109_19_alg».proof.Proof.Gen.KernelIdeal.Skeleton

noncomputable section

/-
  One worker's task. The worker holds a read share of the whole transposed input, its two scratch buffers, its
  sixteen copy semaphores at zero, and every piece of the output it writes, at the contents the launch found there.
  Its loop is run by an invariant: before trip `n` the pieces of trips below `n` hold the target contents `g`
  and the others their old contents; each trip fetches its block into the scratch and copies three scratch rows out,
  every copy waited for before the next is issued, so the semaphores are back at zero after each. The loop that
  follows has no trips. Worker 31 then copies the two tails the same way.
-/
namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xtW" => (Memref.whole Cert.KernelIdeal.main_v0_scv : Memref Cert.KernelIdeal.sig Kind.scVector Space.hbm Cert.KernelIdeal.S8x4x1000000 EltTy.f32)
local notation "otW" => (Memref.whole Cert.KernelIdeal.main_v1_scv : Memref Cert.KernelIdeal.sig Kind.scVector Space.hbm Cert.KernelIdeal.S3x8x1000000 EltTy.f32)
local notation "s0W" => (Memref.whole Cert.KernelIdeal.cc0_scratch0 : Memref Cert.KernelIdeal.sig Kind.scVector Space.vmem Cert.KernelIdeal.S8x4x3456 EltTy.f32)
local notation "s1W" => (Memref.whole Cert.KernelIdeal.cc0_scratch1 : Memref Cert.KernelIdeal.sig Kind.scVector Space.vmem Cert.KernelIdeal.S8x4x64 EltTy.f32)

macro "cell_ne" : tactic => `(tactic| (intro e; have e2 := (Prod.mk.inj e).2; revert e2; decide))

variable [FloatOps F]
variable (d : Dev nD) (L : grid0.Coords)

/-- The loop's pieces: those of trips below `n` at `g`, the others at `f`. -/
def pieces (n : ℕ) (g f : Buf (Elt F) (otLoc d)) : sProp 𝕄 :=
  bigSep Finset.univ fun k : Fin (k0_t1_loop L).trips => if k.val < n then trip3 d L k g else trip3 d L k f

omit [FloatOps F] in
theorem pieces_open (k : Fin (k0_t1_loop L).trips) (g f : Buf (Elt F) (otLoc d)) :
    pieces d L k.val g f = iprop(trip3 d L k f ∗ bigSep (Finset.univ.erase k) fun k' : Fin (k0_t1_loop L).trips => if k'.val < k.val then trip3 d L k' g else trip3 d L k' f) := by
  unfold pieces
  rw [SparseCore.bigSep_erase' (Finset.mem_univ k), if_neg (Nat.lt_irrefl _)]

omit [FloatOps F] in
theorem pieces_close (k : Fin (k0_t1_loop L).trips) (g f : Buf (Elt F) (otLoc d)) :
    iprop(trip3 d L k g ∗ bigSep (Finset.univ.erase k) fun k' : Fin (k0_t1_loop L).trips => if k'.val < k.val then trip3 d L k' g else trip3 d L k' f)
      = pieces d L (k.val + 1) g f := by
  unfold pieces
  rw [SparseCore.bigSep_erase' (Finset.mem_univ k), if_pos (Nat.lt_succ_self _)]
  congr 1
  refine bigSep_congr fun k' hk' => ?_
  have hne : k'.val ≠ k.val := fun e => (Finset.mem_erase.mp hk').1 (Fin.ext e)
  by_cases h : k'.val < k.val
  · rw [if_pos h, if_pos (Nat.lt_succ_of_lt h)]
  · rw [if_neg h, if_neg (by omega)]

omit [FloatOps F] in
theorem pieces_zero (g f : Buf (Elt F) (otLoc d)) : pieces d L 0 g f = bigSep Finset.univ fun k : Fin (k0_t1_loop L).trips => trip3 d L k f := by
  unfold pieces; exact bigSep_congr fun k _ => if_neg (Nat.not_lt_zero _)
omit [FloatOps F] in
theorem pieces_all (g f : Buf (Elt F) (otLoc d)) : pieces d L (k0_t1_loop L).trips g f = bigSep Finset.univ fun k : Fin (k0_t1_loop L).trips => trip3 d L k g := by
  unfold pieces; exact bigSep_congr fun k _ => if_pos k.isLt

/-- The scratch row a trip copies out, and the block of the transposed input it fetches. -/
abbrev srowB (p : ℕ) (hp : ∀ a, (![0, p, 0] : Fin 3 → Nat) a + S8x1x3456.size a ≤ S8x4x3456.size a) : Memref sig .scVector .vmem S8x3456 .f32 :=
  ((Memref.whole cc0_scratch0 : Memref sig .scVector .vmem S8x4x3456 .f32).slice (Rect.unit (s := S8x4x3456) ![0, p, 0] S8x1x3456.size hp) (fun _ => rfl)).squeeze S8x3456 squeezes_S8x1x3456_S8x3456
abbrev xblkB (L : grid0.Coords) (k : Fin (k0_t1_loop L).trips) : Memref sig .scVector .hbm S8x4x3456 .f32 :=
  (Memref.whole main_v0_scv : Memref sig .scVector .hbm S8x4x1000000 .f32).slice (Rect.unit (s := S8x4x1000000) (k0_off1 L k) S8x4x3456.size (k0_off1_inb L k)) (fun _ => rfl)

/-- What a trip's copy chain leaves on each of its three pieces (scratch rows 3, 1, 2). -/
abbrev lnd2 (k : Fin (k0_t1_loop L).trips)
    (xt : Buf (Elt F) (xtLoc d)) (fs : Buf (Elt F) ((thrV d L).loc cc0_scratch0)) (f0 : Buf (Elt F) (otLoc d)) : Buf (Elt F) (otLoc d) :=
  (pc2 L k).view.writes (Elt F) f0 [⟨Rect.whole S8x3456, ReadAs.same.apply (View.read (Elt F) (srowB 3 inb_S8x4x3456_S8x1x3456_0_3_0).view
    (View.write (Elt F) (Memref.whole cc0_scratch0 : Memref sig .scVector .vmem S8x4x3456 .f32).view fs
      (ReadAs.same.apply (View.read (Elt F) (xblkB L k).view xt)) Finset.univ))⟩]
abbrev lnd3 (k : Fin (k0_t1_loop L).trips)
    (xt : Buf (Elt F) (xtLoc d)) (fs : Buf (Elt F) ((thrV d L).loc cc0_scratch0)) (f0 : Buf (Elt F) (otLoc d)) : Buf (Elt F) (otLoc d) :=
  (pc3 L k).view.writes (Elt F) f0 [⟨Rect.whole S8x3456, ReadAs.same.apply (View.read (Elt F) (srowB 1 inb_S8x4x3456_S8x1x3456_0_1_0).view
    (View.write (Elt F) (Memref.whole cc0_scratch0 : Memref sig .scVector .vmem S8x4x3456 .f32).view fs
      (ReadAs.same.apply (View.read (Elt F) (xblkB L k).view xt)) Finset.univ))⟩]
abbrev lnd4 (k : Fin (k0_t1_loop L).trips)
    (xt : Buf (Elt F) (xtLoc d)) (fs : Buf (Elt F) ((thrV d L).loc cc0_scratch0)) (f0 : Buf (Elt F) (otLoc d)) : Buf (Elt F) (otLoc d) :=
  (pc4 L k).view.writes (Elt F) f0 [⟨Rect.whole S8x3456, ReadAs.same.apply (View.read (Elt F) (srowB 2 inb_S8x4x3456_S8x1x3456_0_2_0).view
    (View.write (Elt F) (Memref.whole cc0_scratch0 : Memref sig .scVector .vmem S8x4x3456 .f32).view fs
      (ReadAs.same.apply (View.read (Elt F) (xblkB L k).view xt)) Finset.univ))⟩]

/-- The loop's invariant before trip `n`. -/
def inv (q : PosShare TreeShare) (O : CellTallies nD τ sig (HIx 1)) (W : Waits sig (HIx 1))
    (xt : Buf (Elt F) (xtLoc d)) (g f0 : Buf (Elt F) (otLoc d)) (n : Nat) (_ : PUnit) : sProp 𝕄 :=
  iprop(Transfers.MayWaits (thrV d L) (none : HIx 1) O
    ∗ ((xtW).view.loc (thrV d L) ↦{q} xt)
    ∗ (∃ fs, (s0W).view.loc (thrV d L) ↦{fullShare} fs)
    ∗ semVal (thrV d L, SemLoc.dma cc0_scoped0.sem) 0 ∗ semVal (thrV d L, SemLoc.dma cc0_scoped1.sem) 0 ∗ semVal (thrV d L, SemLoc.dma cc0_scoped2.sem) 0 ∗ semVal (thrV d L, SemLoc.dma cc0_scoped3.sem) 0
    ∗ pieces d L n g f0
    ∗ ∃ W', ⌜∀ p ∈ W', p ∈ W ∨ p.2 = none⌝ ∗ owes (thrV d L) O W')

/-- One trip, from the invariant at `k` to the invariant at `k + 1`. -/
theorem trip (q : PosShare TreeShare) (O : CellTallies nD τ sig (HIx 1)) (W : Waits sig (HIx 1))
    (xt : Buf (Elt F) (xtLoc d)) (g f0 : Buf (Elt F) (otLoc d))
    (hl2 : ∀ k fs, ∀ i ∈ (pc2 L k).view.set, lnd2 d L k xt fs f0 i = g i)
    (hl3 : ∀ k fs, ∀ i ∈ (pc3 L k).view.set, lnd3 d L k xt fs f0 i = g i)
    (hl4 : ∀ k fs, ∀ i ∈ (pc4 L k).view.set, lnd4 d L k xt fs f0 i = g i)
    (k : Fin (k0_t1_loop L).trips) (u : PUnit) :
    inv d L q O W xt g f0 k.val u
      ⊢ wp frame (wpE (defs₀ (F := F)) 𝒱₀ (thrV d L) none) Set.univ
          (k0_t1_body L xtW (Memref.isWhole_whole _) otW (Memref.isWhole_whole _) s0W (Memref.isWhole_whole _) s1W (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
            (Scalar.addi (Scalar.muli (BitVec.ofNat 32 (L 1).val) 2#32) (BitVec.ofNat 32 (L 0).val)) k u)
          (inv d L q O W xt g f0 (k.val + 1)) := by
  unfold k0_t1_body
  simp only [k0_part1_eq_skeleton]; unfold k0_part1_skel
  unfold inv
  rw [pieces_open, ← pieces_close]
  unfold trip3
  iintro ⟨Hmw, Hx, ⟨%fs, Hs⟩, Hs0, Hs1, Hs2, Hs3, ⟨⟨H2, H3, H4⟩, Hrest⟩, %W', %hW', HO⟩
  sl_exec (disch := first | exact View.amount_pos _ _ (show 0 < S8x4x3456.numel by decide) | exact View.amount_pos _ _ (show 0 < S8x3456.numel by decide))
  sl_step
  ihave H2' := (Entails.of_eq (pointsTo_congr (hl2 k fs))) $$ H2
  ihave H3' := (Entails.of_eq (pointsTo_congr (hl3 k fs))) $$ H3
  ihave H4' := (Entails.of_eq (pointsTo_congr (hl4 k fs))) $$ H4
  isplitl [Hmw]; · iexact Hmw
  isplitl [Hx]; · iexact Hx
  isplitl [Hs]; · iexists _; iexact Hs
  isplitl [Hs0]; · iexact Hs0
  isplitl [Hs1]; · iexact Hs1
  isplitl [Hs2]; · iexact Hs2
  isplitl [Hs3]; · iexact Hs3
  isplitl [H2' H3' H4' Hrest]
  · isplitl [H2' H3' H4']
    · isplitl [H2']; · iexact H2'
      isplitl [H3']; · iexact H3'
      iexact H4'
    · iexact Hrest
  iexists (insert (SemLoc.dma cc0_scoped3.sem, (default : HIx 1)) (insert (SemLoc.dma cc0_scoped2.sem, (default : HIx 1)) (insert (SemLoc.dma cc0_scoped1.sem, (default : HIx 1)) (insert (SemLoc.dma cc0_scoped0.sem, (default : HIx 1)) W')))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-! ## The worker's scoped storage: sixteen copy semaphores and two scratch buffers -/

omit [FloatOps F] in
theorem ownSems0_V :
    (ownSems0 (thrV d L) : sProp 𝕄)
      = iprop(semVal (thrV d L, SemLoc.dma cc0_scoped0.sem) 0
          ∗ semVal (thrV d L, SemLoc.dma cc0_scoped1.sem) 0
          ∗ semVal (thrV d L, SemLoc.dma cc0_scoped2.sem) 0
          ∗ semVal (thrV d L, SemLoc.dma cc0_scoped3.sem) 0
          ∗ semVal (thrV d L, SemLoc.dma cc0_scoped4.sem) 0
          ∗ semVal (thrV d L, SemLoc.dma cc0_scoped5.sem) 0
          ∗ semVal (thrV d L, SemLoc.dma cc0_scoped6.sem) 0
          ∗ semVal (thrV d L, SemLoc.dma cc0_scoped7.sem) 0
          ∗ semVal (thrV d L, SemLoc.dma cc0_scoped8.sem) 0
          ∗ semVal (thrV d L, SemLoc.dma cc0_scoped9.sem) 0
          ∗ semVal (thrV d L, SemLoc.dma cc0_scoped10.sem) 0
          ∗ semVal (thrV d L, SemLoc.dma cc0_scoped11.sem) 0
          ∗ semVal (thrV d L, SemLoc.dma cc0_scoped12.sem) 0
          ∗ semVal (thrV d L, SemLoc.dma cc0_scoped13.sem) 0
          ∗ semVal (thrV d L, SemLoc.dma cc0_scoped14.sem) 0
          ∗ semVal (thrV d L, SemLoc.dma cc0_scoped15.sem) 0
          ∗ bigSep (((((((((((((((((ownCells (thrV d L)).erase (thrV d L, SemLoc.dma cc0_scoped0.sem)).erase (thrV d L, SemLoc.dma cc0_scoped1.sem)).erase (thrV d L, SemLoc.dma cc0_scoped2.sem)).erase (thrV d L, SemLoc.dma cc0_scoped3.sem)).erase (thrV d L, SemLoc.dma cc0_scoped4.sem)).erase (thrV d L, SemLoc.dma cc0_scoped5.sem)).erase (thrV d L, SemLoc.dma cc0_scoped6.sem)).erase (thrV d L, SemLoc.dma cc0_scoped7.sem)).erase (thrV d L, SemLoc.dma cc0_scoped8.sem)).erase (thrV d L, SemLoc.dma cc0_scoped9.sem)).erase (thrV d L, SemLoc.dma cc0_scoped10.sem)).erase (thrV d L, SemLoc.dma cc0_scoped11.sem)).erase (thrV d L, SemLoc.dma cc0_scoped12.sem)).erase (thrV d L, SemLoc.dma cc0_scoped13.sem)).erase (thrV d L, SemLoc.dma cc0_scoped14.sem)).erase (thrV d L, SemLoc.dma cc0_scoped15.sem)) fun g => semVal g 0) := by
  unfold SparseCore.Cfg.ownSems0
  rw [SparseCore.bigSep_erase' ((mem_ownCells (thr := thrV d L) (g := (thrV d L, SemLoc.dma cc0_scoped0.sem))).mpr ⟨rfl, by show (SemLoc.dma cc0_scoped0.sem : SemLoc sig).isScoped .scVector = true; decide⟩),
    SparseCore.bigSep_erase' (Finset.mem_erase.mpr ⟨by cell_ne, (mem_ownCells (thr := thrV d L) (g := (thrV d L, SemLoc.dma cc0_scoped1.sem))).mpr ⟨rfl, by show (SemLoc.dma cc0_scoped1.sem : SemLoc sig).isScoped .scVector = true; decide⟩⟩),
    SparseCore.bigSep_erase' (Finset.mem_erase.mpr ⟨by cell_ne, Finset.mem_erase.mpr ⟨by cell_ne, (mem_ownCells (thr := thrV d L) (g := (thrV d L, SemLoc.dma cc0_scoped2.sem))).mpr ⟨rfl, by show (SemLoc.dma cc0_scoped2.sem : SemLoc sig).isScoped .scVector = true; decide⟩⟩⟩),
    SparseCore.bigSep_erase' (Finset.mem_erase.mpr ⟨by cell_ne, Finset.mem_erase.mpr ⟨by cell_ne, Finset.mem_erase.mpr ⟨by cell_ne, (mem_ownCells (thr := thrV d L) (g := (thrV d L, SemLoc.dma cc0_scoped3.sem))).mpr ⟨rfl, by show (SemLoc.dma cc0_scoped3.sem : SemLoc sig).isScoped .scVector = true; decide⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped4.sem))).mpr ⟨rfl, by show (SemLoc.dma cc0_scoped4.sem : SemLoc sig).isScoped .scVector = true; decide⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped5.sem))).mpr ⟨rfl, by show (SemLoc.dma cc0_scoped5.sem : SemLoc sig).isScoped .scVector = true; decide⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped6.sem))).mpr ⟨rfl, by show (SemLoc.dma cc0_scoped6.sem : SemLoc sig).isScoped .scVector = true; decide⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped7.sem))).mpr ⟨rfl, by show (SemLoc.dma cc0_scoped7.sem : SemLoc sig).isScoped .scVector = true; decide⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped8.sem))).mpr ⟨rfl, by show (SemLoc.dma cc0_scoped8.sem : SemLoc sig).isScoped .scVector = true; decide⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped9.sem))).mpr ⟨rfl, by show (SemLoc.dma cc0_scoped9.sem : SemLoc sig).isScoped .scVector = true; decide⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped10.sem))).mpr ⟨rfl, by show (SemLoc.dma cc0_scoped10.sem : SemLoc sig).isScoped .scVector = true; decide⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped11.sem))).mpr ⟨rfl, by show (SemLoc.dma cc0_scoped11.sem : SemLoc sig).isScoped .scVector = true; decide⟩⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped12.sem))).mpr ⟨rfl, by show (SemLoc.dma cc0_scoped12.sem : SemLoc sig).isScoped .scVector = true; decide⟩⟩⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped13.sem))).mpr ⟨rfl, by show (SemLoc.dma cc0_scoped13.sem : SemLoc sig).isScoped .scVector = true; decide⟩⟩⟩⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped14.sem))).mpr ⟨rfl, by show (SemLoc.dma cc0_scoped14.sem : SemLoc sig).isScoped .scVector = true; decide⟩⟩⟩⟩⟩⟩⟩⟩⟩⟩⟩⟩⟩⟩⟩),
    SparseCore.bigSep_erase' (Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, Finset.mem_erase.mpr ⟨by cell_ne, (mem_ownCells (thr := thrV d L) (g := (thrV d L, SemLoc.dma cc0_scoped15.sem))).mpr ⟨rfl, by show (SemLoc.dma cc0_scoped15.sem : SemLoc sig).isScoped .scVector = true; decide⟩⟩⟩⟩⟩⟩⟩⟩⟩⟩⟩⟩⟩⟩⟩⟩)]

omit [FloatOps F] in
theorem ownBufs_V :
    (ownBufs (thrV d L) : sProp 𝕄)
      = iprop((∃ f, (thrV d L).loc cc0_scratch0 ↦{fullShare} f) ∗ (∃ f, (thrV d L).loc cc0_scratch1 ↦{fullShare} f)
          ∗ bigSep (((ownRefs (τ := τ) (.scVector ((L 0).castLE hcore0) ((L 1).castLE hsub0))).erase ((Proc.scVector ((L 0).castLE hcore0) ((L 1).castLE hsub0)).devRef cc0_scratch0)).erase
              ((Proc.scVector ((L 0).castLE hcore0) ((L 1).castLE hsub0)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0))
    (b := (Proc.scVector ((L 0).castLE hcore0) ((L 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector ((L 0).castLE hcore0) ((L 1).castLE hsub0)) (b := (Proc.scVector ((L 0).castLE hcore0) ((L 1).castLE hsub0)).devRef cc0_scratch1) rfl⟩)]

omit [FloatOps F] in
theorem pts_s0 (f : Buf (Elt F) ((thrV d L).loc cc0_scratch0)) :
    ((s0W).view.loc (thrV d L) ↦{fullShare} f : sProp 𝕄) = (thrV d L).loc cc0_scratch0 ↦{fullShare} f := rfl
omit [FloatOps F] in
theorem pts_s1 (f : Buf (Elt F) ((thrV d L).loc cc0_scratch1)) :
    ((s1W).view.loc (thrV d L) ↦{fullShare} f : sProp 𝕄) = (thrV d L).loc cc0_scratch1 ↦{fullShare} f := rfl

/-! ## The tail's guard -/

/-- The guard of the tail, as the kernel computes it: the worker's number is 31. -/
abbrev tailCond (L : grid0.Coords) : BitVec 1 :=
  Scalar.cmpi .ne (Scalar.extui (Scalar.cmpi .eq (Scalar.addi (Scalar.muli (BitVec.ofNat 32 (L 1).val) 2#32) (BitVec.ofNat 32 (L 0).val)) 31#32)) 0#32

theorem tailCond_iff : ∀ L : grid0.Coords, tailCond L = 1#1 ↔ wid L = 31 := by unfold tailCond wid; decide +kernel

omit [FloatOps F] in
theorem tailRes_pos (h : wid L = 31) (f : Buf (Elt F) (otLoc d)) : tailRes d L f = tail6 d L f := if_pos h
omit [FloatOps F] in
theorem tailRes_neg (h : ¬ wid L = 31) (f : Buf (Elt F) (otLoc d)) : tailRes d L f = (iprop(emp) : sProp 𝕄) := if_neg h

/-! ## The tails' copy chains -/

/-- The first tail's block of the transposed input, the scratch row copied out, and what the chain leaves. -/
abbrev xblkA : Memref sig .scVector .hbm S8x4x1152 .f32 :=
  (Memref.whole main_v0_scv : Memref sig .scVector .hbm S8x4x1000000 .f32).slice (Rect.unit (s := S8x4x1000000) ![0, 0, 998784] S8x4x1152.size inb_S8x4x1000000_S8x4x1152_0_0_998784) (fun _ => rfl)
abbrev srowA (p : ℕ) (hp : ∀ a, (![0, p, 0] : Fin 3 → Nat) a + S8x1x1152.size a ≤ S8x4x3456.size a) : Memref sig .scVector .vmem S8x1152 .f32 :=
  ((Memref.whole cc0_scratch0 : Memref sig .scVector .vmem S8x4x3456 .f32).slice (Rect.unit (s := S8x4x3456) ![0, p, 0] S8x1x1152.size hp) (fun _ => rfl)).squeeze S8x1152 squeezes_S8x1x1152_S8x1152
/-- The scratch after the first tail's block has landed in its window. -/
abbrev scrA (xt : Buf (Elt F) (xtLoc d)) (fs : Buf (Elt F) ((thrV d L).loc cc0_scratch0)) : Buf (Elt F) ((thrV d L).loc cc0_scratch0) :=
  (Memref.whole cc0_scratch0 : Memref sig .scVector .vmem S8x4x3456 .f32).view.writes (Elt F) fs
    [⟨Rect.unit (s := S8x4x3456) ![0, 0, 0] S8x4x1152.size inb_S8x4x3456_S8x4x1152_0_0_0, ReadAs.same.apply (View.read (Elt F) (xblkA).view xt)⟩]
abbrev landedA0 (xt : Buf (Elt F) (xtLoc d)) (fs : Buf (Elt F) ((thrV d L).loc cc0_scratch0)) (f0 : Buf (Elt F) (otLoc d)) : Buf (Elt F) (otLoc d) :=
  (ta0).view.writes (Elt F) f0 [⟨Rect.whole S8x1152, ReadAs.same.apply (View.read (Elt F) (srowA 3 inb_S8x4x3456_S8x1x1152_0_3_0).view (scrA d L xt fs))⟩]
abbrev landedA1 (xt : Buf (Elt F) (xtLoc d)) (fs : Buf (Elt F) ((thrV d L).loc cc0_scratch0)) (f0 : Buf (Elt F) (otLoc d)) : Buf (Elt F) (otLoc d) :=
  (ta1).view.writes (Elt F) f0 [⟨Rect.whole S8x1152, ReadAs.same.apply (View.read (Elt F) (srowA 1 inb_S8x4x3456_S8x1x1152_0_1_0).view (scrA d L xt fs))⟩]
abbrev landedA2 (xt : Buf (Elt F) (xtLoc d)) (fs : Buf (Elt F) ((thrV d L).loc cc0_scratch0)) (f0 : Buf (Elt F) (otLoc d)) : Buf (Elt F) (otLoc d) :=
  (ta2).view.writes (Elt F) f0 [⟨Rect.whole S8x1152, ReadAs.same.apply (View.read (Elt F) (srowA 2 inb_S8x4x3456_S8x1x1152_0_2_0).view (scrA d L xt fs))⟩]

/-- The second tail's, through the second scratch. -/
abbrev xblkT : Memref sig .scVector .hbm S8x4x64 .f32 :=
  (Memref.whole main_v0_scv : Memref sig .scVector .hbm S8x4x1000000 .f32).slice (Rect.unit (s := S8x4x1000000) ![0, 0, 999936] S8x4x64.size inb_S8x4x1000000_S8x4x64_0_0_999936) (fun _ => rfl)
abbrev srowT (p : ℕ) (hp : ∀ a, (![0, p, 0] : Fin 3 → Nat) a + S8x1x64.size a ≤ S8x4x64.size a) : Memref sig .scVector .vmem S8x64 .f32 :=
  ((Memref.whole cc0_scratch1 : Memref sig .scVector .vmem S8x4x64 .f32).slice (Rect.unit (s := S8x4x64) ![0, p, 0] S8x1x64.size hp) (fun _ => rfl)).squeeze S8x64 squeezes_S8x1x64_S8x64
abbrev landedT0 (xt : Buf (Elt F) (xtLoc d)) (fs1 : Buf (Elt F) ((thrV d L).loc cc0_scratch1)) (f0 : Buf (Elt F) (otLoc d)) : Buf (Elt F) (otLoc d) :=
  (tb0).view.writes (Elt F) f0 [⟨Rect.whole S8x64, ReadAs.same.apply (View.read (Elt F) (srowT 3 inb_S8x4x64_S8x1x64_0_3_0).view
    (View.write (Elt F) (Memref.whole cc0_scratch1 : Memref sig .scVector .vmem S8x4x64 .f32).view fs1 (ReadAs.same.apply (View.read (Elt F) (xblkT).view xt)) Finset.univ))⟩]
abbrev landedT1 (xt : Buf (Elt F) (xtLoc d)) (fs1 : Buf (Elt F) ((thrV d L).loc cc0_scratch1)) (f0 : Buf (Elt F) (otLoc d)) : Buf (Elt F) (otLoc d) :=
  (tb1).view.writes (Elt F) f0 [⟨Rect.whole S8x64, ReadAs.same.apply (View.read (Elt F) (srowT 1 inb_S8x4x64_S8x1x64_0_1_0).view
    (View.write (Elt F) (Memref.whole cc0_scratch1 : Memref sig .scVector .vmem S8x4x64 .f32).view fs1 (ReadAs.same.apply (View.read (Elt F) (xblkT).view xt)) Finset.univ))⟩]
abbrev landedT2 (xt : Buf (Elt F) (xtLoc d)) (fs1 : Buf (Elt F) ((thrV d L).loc cc0_scratch1)) (f0 : Buf (Elt F) (otLoc d)) : Buf (Elt F) (otLoc d) :=
  (tb2).view.writes (Elt F) f0 [⟨Rect.whole S8x64, ReadAs.same.apply (View.read (Elt F) (srowT 2 inb_S8x4x64_S8x1x64_0_2_0).view
    (View.write (Elt F) (Memref.whole cc0_scratch1 : Memref sig .scVector .vmem S8x4x64 .f32).view fs1 (ReadAs.same.apply (View.read (Elt F) (xblkT).view xt)) Finset.univ))⟩]

/-! ## The task -/

/-- What the worker is handed: a share of the transposed input and its pieces of the output. -/
def goTile (q : PosShare TreeShare) (xt : Buf (Elt F) (xtLoc d)) (f : Buf (Elt F) (otLoc d)) : sProp 𝕄 :=
  iprop(((xtW).view.loc (thrV d L) ↦{q} xt) ∗ tileOut d L f)

theorem tile_body (hF : (K (F := F)).Facts) (q : PosShare TreeShare) (xt : Buf (Elt F) (xtLoc d)) (g f0 : Buf (Elt F) (otLoc d))
    (hl2 : ∀ k fs, ∀ i ∈ (pc2 L k).view.set, lnd2 d L k xt fs f0 i = g i)
    (hl3 : ∀ k fs, ∀ i ∈ (pc3 L k).view.set, lnd3 d L k xt fs f0 i = g i)
    (hl4 : ∀ k fs, ∀ i ∈ (pc4 L k).view.set, lnd4 d L k xt fs f0 i = g i)
    (ha0 : ∀ fs, ∀ i ∈ (ta0).view.set, landedA0 d L xt fs f0 i = g i)
    (ha1 : ∀ fs, ∀ i ∈ (ta1).view.set, landedA1 d L xt fs f0 i = g i)
    (ha2 : ∀ fs, ∀ i ∈ (ta2).view.set, landedA2 d L xt fs f0 i = g i)
    (hb0 : ∀ fs1, ∀ i ∈ (tb0).view.set, landedT0 d L xt fs1 f0 i = g i)
    (hb1 : ∀ fs1, ∀ i ∈ (tb1).view.set, landedT1 d L xt fs1 f0 i = g i)
    (hb2 : ∀ fs1, ∀ i ∈ (tb2).view.set, landedT2 d L xt fs1 f0 i = g i)
    (O : CellTallies nD τ sig (HIx 1)) (W : Waits sig (HIx 1)) (hO : ∀ g, O g none = 0) :
    iprop(levAts (K (F := F)).L (K (F := F)).lev ∗ emp ∗ goTile d L q xt f0
        ∗ scopedBufs (thrV d L) ∗ scopedSems0 (thrV d L) ∗ owes (thrV d L) O W)
      ⊢ wp frame (wpE (defs₀ (F := F)) 𝒱₀ (thrV d L) none) Set.univ
          (cc0__sph2vec_sc L xtW (Memref.isWhole_whole _) otW (Memref.isWhole_whole _) s0W (Memref.isWhole_whole _) s1W (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15)
          fun _ => iprop(goTile d L q xt g ∗ scopedBufs (thrV d L) ∗ scopedSems0 (thrV d L)
            ∗ ∃ W', ⌜∀ p ∈ W', p ∈ W ∨ p.2 = none⌝ ∗ owes (thrV d L) O W') := by
  simp only [cc0__sph2vec_sc_eq_skeleton]; unfold cc0__sph2vec_sc_skel
  simp only [k0_part3_eq_skeleton, k0_part4_eq_skeleton, k0_part5_eq_skeleton, k0_part6_eq_skeleton]
  unfold k0_part3_skel k0_part4_skel k0_part5_skel k0_part6_skel
  rw [(K (F := F)).scopedBufs_V hF d _ _, SparseCore.Cfg.scopedSems0_V (Val := Elt F) d _ _, ownSems0_V, ownBufs_V]
  unfold goTile tileOut
  iintro ⟨#Hlv, -, ⟨Hx, Hpieces, Htail⟩, ⟨⟨%fs, Hs⟩, ⟨%fs1, Hs1b⟩, Hbufs⟩, ⟨Hc0, Hc1, Hc2, Hc3, Hc4, Hc5, Hc6, Hc7, Hc8, Hc9, Hc10, Hc11, Hc12, Hc13, Hc14, Hc15, Hsems⟩, HO⟩
  ihave Hmw := ((K (F := F)).mayWaits_none (thr := thrV d L) hO) $$ Hlv
  ihave Hs' := (Entails.of_eq (pts_s0 (F := F) d L _).symm) $$ Hs
  ihave Hs1' := (Entails.of_eq (pts_s1 (F := F) d L _).symm) $$ Hs1b
  sl_exec
  sl_for (inv d L q O W xt g f0) $$ [Hmw Hx Hs' Hc0 Hc1 Hc2 Hc3 Hpieces HO]
  case region =>
    intro k u
    exact trip d L q O W xt g f0 hl2 hl3 hl4 k u
  · unfold inv
    rw [pieces_zero]
    isplitl [Hmw]; · iexact Hmw
    isplitl [Hx]; · iexact Hx
    isplitl [Hs']; · iexists _; iexact Hs'
    isplitl [Hc0]; · iexact Hc0
    isplitl [Hc1]; · iexact Hc1
    isplitl [Hc2]; · iexact Hc2
    isplitl [Hc3]; · iexact Hc3
    isplitl [Hpieces]; · iexact Hpieces
    iexists W; isplitr
    · ipureintro; exact fun p hp => .inl hp
    · iexact HO
  iintro %_ HI
  unfold inv
  rw [pieces_all]
  icases HI with ⟨Hmw, Hx, ⟨%fs', Hs⟩, Hc0, Hc1, Hc2, Hc3, Hpieces, %W', %hW', HO⟩
  sl_for0 (Nat.le_zero.mp (k0_t2_abs L).2.1)
  rcases Classical.em (tailCond L = 1#1) with k0_h1 | k0_h1
  · have h31 : wid L = 31 := (tailCond_iff L).mp k0_h1
    ihave Htail' := (Entails.of_eq (tailRes_pos (F := F) d L h31 f0)) $$ Htail
    unfold tail6
    icases Htail' with ⟨Ha0, Ha1, Ha2, Hb0, Hb1, Hb2⟩
    sl_exec (disch := first | exact View.amount_pos _ _ (show 0 < S8x4x1152.numel by decide) | exact View.amount_pos _ _ (show 0 < S8x1152.numel by decide) | exact View.amount_pos _ _ (show 0 < S8x4x64.numel by decide) | exact View.amount_pos _ _ (show 0 < S8x64.numel by decide))
    ihave Ha0' := (Entails.of_eq (pointsTo_congr (ha0 fs'))) $$ Ha0
    ihave Ha1' := (Entails.of_eq (pointsTo_congr (ha1 fs'))) $$ Ha1
    ihave Ha2' := (Entails.of_eq (pointsTo_congr (ha2 fs'))) $$ Ha2
    ihave Hb0' := (Entails.of_eq (pointsTo_congr (hb0 fs1))) $$ Hb0
    ihave Hb1' := (Entails.of_eq (pointsTo_congr (hb1 fs1))) $$ Hb1
    ihave Hb2' := (Entails.of_eq (pointsTo_congr (hb2 fs1))) $$ Hb2
    sl_step
    isplitl [Hx Hpieces Ha0' Ha1' Ha2' Hb0' Hb1' Hb2']
    · isplitl [Hx]; · iexact Hx
      isplitl [Hpieces]; · iexact Hpieces
      rw [tailRes_pos (F := F) d L h31 g]; unfold tail6
      isplitl [Ha0']; · iexact Ha0'
      isplitl [Ha1']; · iexact Ha1'
      isplitl [Ha2']; · iexact Ha2'
      isplitl [Hb0']; · iexact Hb0'
      isplitl [Hb1']; · iexact Hb1'
      iexact Hb2'
    isplitl [Hs Hs1' Hbufs]
    · isplitl [Hs]; · iexists _; iapply (Entails.of_eq (pts_s0 (F := F) d L _)); iexact Hs
      isplitl [Hs1']; · iexists _; iapply (Entails.of_eq (pts_s1 (F := F) d L _)); iexact Hs1'
      iexact Hbufs
    isplitl [Hc0 Hc1 Hc2 Hc3 Hc4 Hc5 Hc6 Hc7 Hc8 Hc9 Hc10 Hc11 Hc12 Hc13 Hc14 Hc15 Hsems]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hsems
    iexists (insert (SemLoc.dma cc0_scoped15.sem, (default : HIx 1)) (insert (SemLoc.dma cc0_scoped14.sem, (default : HIx 1)) (insert (SemLoc.dma cc0_scoped13.sem, (default : HIx 1)) (insert (SemLoc.dma cc0_scoped12.sem, (default : HIx 1)) (insert (SemLoc.dma cc0_scoped11.sem, (default : HIx 1)) (insert (SemLoc.dma cc0_scoped10.sem, (default : HIx 1)) (insert (SemLoc.dma cc0_scoped9.sem, (default : HIx 1)) (insert (SemLoc.dma cc0_scoped8.sem, (default : HIx 1)) (W'))))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact hW' p hp
    · iexact HO
  · have h31 : ¬ wid L = 31 := fun h => k0_h1 ((tailCond_iff L).mpr h)
    sl_exec
    sl_step
    isplitl [Hx Hpieces Htail]
    · isplitl [Hx]; · iexact Hx
      isplitl [Hpieces]; · iexact Hpieces
      rw [tailRes_neg (F := F) d L h31 g]
      iempintro
    isplitl [Hs Hs1' Hbufs]
    · isplitl [Hs]; · iexists _; iapply (Entails.of_eq (pts_s0 (F := F) d L _)); iexact Hs
      isplitl [Hs1']; · iexists _; iapply (Entails.of_eq (pts_s1 (F := F) d L _)); iexact Hs1'
      iexact Hbufs
    isplitl [Hc0 Hc1 Hc2 Hc3 Hc4 Hc5 Hc6 Hc7 Hc8 Hc9 Hc10 Hc11 Hc12 Hc13 Hc14 Hc15 Hsems]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hsems
    iexists W'; isplitr
    · ipureintro; exact hW'
    · iexact HO

end Cert.Proof.KI

end
-- ==== Proof.KI.Partition.lean ====
/-
  The pieces of the output array [3, 8, 1000000] as sets of indices: which indices each piece holds, that the pieces of
  one worker are pairwise disjoint, and that the workers' shares partition the array. Column `n` below 998784 lies in
  unit `n / 3456`, written by worker `(n / 3456) % 32` in its trip `(n / 3456) / 32`; the columns from 998784 are
  worker 31's two tails.
-/
import proofs.«216280_g62835371540565_cont_9to1_m_1109_19_alg».proof.Proof.KI.Pieces

namespace Cert.Proof.KI

open Cert.KernelIdeal Cert.KernelIdeal.Gen
open Idealize.ShloMosaic

/-! ## The trip count -/

/-- The trip count of worker `L`'s loop: the units `32 k + wid L` below 289 (the 32-bit computation evaluated for
    each of the 32 workers). -/
theorem trips_eq : ∀ L : grid0.Coords, (k0_t1_loop L).trips = (320 - wid L) / 32 := by
  unfold wid; decide +kernel

/-! ## The index set of each piece

A piece is a unit-stride rectangle of the whole array with its leading axis of extent one squeezed away; squeezing keeps
the set of array elements, and a rectangle of the whole array is held on the rectangle's own index set. -/

theorem A2_eq (L : grid0.Coords) (k : Fin (k0_t1_loop L).trips) :
    A2 L k = (Rect.unit (s := S3x8x1000000) (k0_off2 L k) S1x8x3456.size (k0_off2_inb L k)).set :=
  (View.set_reshape _ _).trans (View.set_slice_whole _ _)
theorem A3_eq (L : grid0.Coords) (k : Fin (k0_t1_loop L).trips) :
    A3 L k = (Rect.unit (s := S3x8x1000000) (k0_off3 L k) S1x8x3456.size (k0_off3_inb L k)).set :=
  (View.set_reshape _ _).trans (View.set_slice_whole _ _)
theorem A4_eq (L : grid0.Coords) (k : Fin (k0_t1_loop L).trips) :
    A4 L k = (Rect.unit (s := S3x8x1000000) (k0_off4 L k) S1x8x3456.size (k0_off4_inb L k)).set :=
  (View.set_reshape _ _).trans (View.set_slice_whole _ _)
theorem TA0_eq : TA0 = (Rect.unit (s := S3x8x1000000) ![0, 0, 998784] S1x8x1152.size
    inb_S3x8x1000000_S1x8x1152_0_0_998784).set :=
  (View.set_reshape _ _).trans (View.set_slice_whole _ _)
theorem TA1_eq : TA1 = (Rect.unit (s := S3x8x1000000) ![1, 0, 998784] S1x8x1152.size
    inb_S3x8x1000000_S1x8x1152_1_0_998784).set :=
  (View.set_reshape _ _).trans (View.set_slice_whole _ _)
theorem TA2_eq : TA2 = (Rect.unit (s := S3x8x1000000) ![2, 0, 998784] S1x8x1152.size
    inb_S3x8x1000000_S1x8x1152_2_0_998784).set :=
  (View.set_reshape _ _).trans (View.set_slice_whole _ _)
theorem TB0_eq : TB0 = (Rect.unit (s := S3x8x1000000) ![0, 0, 999936] S1x8x64.size
    inb_S3x8x1000000_S1x8x64_0_0_999936).set :=
  (View.set_reshape _ _).trans (View.set_slice_whole _ _)
theorem TB1_eq : TB1 = (Rect.unit (s := S3x8x1000000) ![1, 0, 999936] S1x8x64.size
    inb_S3x8x1000000_S1x8x64_1_0_999936).set :=
  (View.set_reshape _ _).trans (View.set_slice_whole _ _)
theorem TB2_eq : TB2 = (Rect.unit (s := S3x8x1000000) ![2, 0, 999936] S1x8x64.size
    inb_S3x8x1000000_S1x8x64_2_0_999936).set :=
  (View.set_reshape _ _).trans (View.set_slice_whole _ _)

/-- Membership in a unit-stride rectangle of the output array, coordinate by coordinate. -/
theorem mem_unit3 {off size : Fin 3 → Nat} {inb} {x : Ix} :
    x ∈ (Rect.unit (s := S3x8x1000000) off size inb).set ↔
      (off 0 ≤ (x 0).val ∧ (x 0).val < off 0 + size 0) ∧ (off 1 ≤ (x 1).val ∧ (x 1).val < off 1 + size 1) ∧
        (off 2 ≤ (x 2).val ∧ (x 2).val < off 2 + size 2) := by
  rw [Rect.mem_set_unit]
  exact ⟨fun h => ⟨h 0, h 1, h 2⟩, fun h a => by
    fin_cases a
    · exact h.1
    · exact h.2.1
    · exact h.2.2⟩

theorem mem_A2 (L : grid0.Coords) (k : Fin (k0_t1_loop L).trips) (x : Ix) :
    x ∈ A2 L k ↔ (x 0).val = 0 ∧ 3456 * (32 * k.val + wid L) ≤ (x 2).val ∧
      (x 2).val < 3456 * (32 * k.val + wid L) + 3456 := by
  have hx1 : (x 1).val < 8 := (x 1).isLt
  rw [A2_eq, mem_unit3, k0_off2_eq]
  unfold wid
  simp only [Matrix.cons_val_zero, Matrix.cons_val_one, Matrix.cons_val_two, Matrix.head_cons, Matrix.tail_cons,
    Shape.size]
  omega

theorem mem_A3 (L : grid0.Coords) (k : Fin (k0_t1_loop L).trips) (x : Ix) :
    x ∈ A3 L k ↔ (x 0).val = 1 ∧ 3456 * (32 * k.val + wid L) ≤ (x 2).val ∧
      (x 2).val < 3456 * (32 * k.val + wid L) + 3456 := by
  have hx1 : (x 1).val < 8 := (x 1).isLt
  rw [A3_eq, mem_unit3, k0_off3_eq]
  unfold wid
  simp only [Matrix.cons_val_zero, Matrix.cons_val_one, Matrix.cons_val_two, Matrix.head_cons, Matrix.tail_cons,
    Shape.size]
  omega

theorem mem_A4 (L : grid0.Coords) (k : Fin (k0_t1_loop L).trips) (x : Ix) :
    x ∈ A4 L k ↔ (x 0).val = 2 ∧ 3456 * (32 * k.val + wid L) ≤ (x 2).val ∧
      (x 2).val < 3456 * (32 * k.val + wid L) + 3456 := by
  have hx1 : (x 1).val < 8 := (x 1).isLt
  rw [A4_eq, mem_unit3, k0_off4_eq]
  unfold wid
  simp only [Matrix.cons_val_zero, Matrix.cons_val_one, Matrix.cons_val_two, Matrix.head_cons, Matrix.tail_cons,
    Shape.size]
  omega

theorem mem_TA0 (x : Ix) : x ∈ TA0 ↔ (x 0).val = 0 ∧ 998784 ≤ (x 2).val ∧ (x 2).val < 999936 := by
  have hx1 : (x 1).val < 8 := (x 1).isLt
  rw [TA0_eq, mem_unit3]
  simp only [Matrix.cons_val_zero, Matrix.cons_val_one, Matrix.cons_val_two, Matrix.head_cons, Matrix.tail_cons,
    Shape.size]
  omega
theorem mem_TA1 (x : Ix) : x ∈ TA1 ↔ (x 0).val = 1 ∧ 998784 ≤ (x 2).val ∧ (x 2).val < 999936 := by
  have hx1 : (x 1).val < 8 := (x 1).isLt
  rw [TA1_eq, mem_unit3]
  simp only [Matrix.cons_val_zero, Matrix.cons_val_one, Matrix.cons_val_two, Matrix.head_cons, Matrix.tail_cons,
    Shape.size]
  omega
theorem mem_TA2 (x : Ix) : x ∈ TA2 ↔ (x 0).val = 2 ∧ 998784 ≤ (x 2).val ∧ (x 2).val < 999936 := by
  have hx1 : (x 1).val < 8 := (x 1).isLt
  rw [TA2_eq, mem_unit3]
  simp only [Matrix.cons_val_zero, Matrix.cons_val_one, Matrix.cons_val_two, Matrix.head_cons, Matrix.tail_cons,
    Shape.size]
  omega

theorem mem_TB0 (x : Ix) : x ∈ TB0 ↔ (x 0).val = 0 ∧ 999936 ≤ (x 2).val := by
  have hx1 : (x 1).val < 8 := (x 1).isLt
  have hx2 : (x 2).val < 1000000 := (x 2).isLt
  rw [TB0_eq, mem_unit3]
  simp only [Matrix.cons_val_zero, Matrix.cons_val_one, Matrix.cons_val_two, Matrix.head_cons, Matrix.tail_cons,
    Shape.size]
  omega
theorem mem_TB1 (x : Ix) : x ∈ TB1 ↔ (x 0).val = 1 ∧ 999936 ≤ (x 2).val := by
  have hx1 : (x 1).val < 8 := (x 1).isLt
  have hx2 : (x 2).val < 1000000 := (x 2).isLt
  rw [TB1_eq, mem_unit3]
  simp only [Matrix.cons_val_zero, Matrix.cons_val_one, Matrix.cons_val_two, Matrix.head_cons, Matrix.tail_cons,
    Shape.size]
  omega
theorem mem_TB2 (x : Ix) : x ∈ TB2 ↔ (x 0).val = 2 ∧ 999936 ≤ (x 2).val := by
  have hx1 : (x 1).val < 8 := (x 1).isLt
  have hx2 : (x 2).val < 1000000 := (x 2).isLt
  rw [TB2_eq, mem_unit3]
  simp only [Matrix.cons_val_zero, Matrix.cons_val_one, Matrix.cons_val_two, Matrix.head_cons, Matrix.tail_cons,
    Shape.size]
  omega

/-! ## The workers' shares -/

theorem wid_lt (L : grid0.Coords) : wid L < 32 := by
  have h0 : (L 0).val < 2 := (L 0).isLt
  have h1 : (L 1).val < 16 := (L 1).isLt
  unfold wid; omega

/-- A worker's number determines the worker. -/
theorem wid_inj {L L' : grid0.Coords} (h : wid L = wid L') : L = L' := by
  have h0 : (L 0).val < 2 := (L 0).isLt
  have h0' : (L' 0).val < 2 := (L' 0).isLt
  unfold wid at h
  funext a
  fin_cases a
  · exact Fin.ext (by simp only [Fin.zero_eta]; omega)
  · exact Fin.ext (by simp only [Fin.mk_one]; omega)

/-- Every number below 32 is a worker's. -/
theorem exists_wid {w : ℕ} (hw : w < 32) : ∃ L : grid0.Coords, wid L = w := by
  refine ⟨fun a => Fin.cases ⟨w % 2, Nat.mod_lt _ (by decide)⟩
    (fun b => Fin.cases ⟨w / 2, by show w / 2 < 16; omega⟩ (fun c => c.elim0) b) a, ?_⟩
  show 2 * (w / 2) + w % 2 = w
  omega

/-- One trip writes all three channels of its unit's columns. -/
theorem mem_tripSet (L : grid0.Coords) (k : Fin (k0_t1_loop L).trips) (x : Ix) :
    x ∈ tripSet L k ↔ 3456 * (32 * k.val + wid L) ≤ (x 2).val ∧ (x 2).val < 3456 * (32 * k.val + wid L) + 3456 := by
  have hx0 : (x 0).val < 3 := (x 0).isLt
  simp only [tripSet, Finset.mem_union, mem_A2, mem_A3, mem_A4]
  omega

/-- The two tails hold every column from 998784 on. -/
theorem mem_tailSet (x : Ix) : x ∈ tailSet ↔ 998784 ≤ (x 2).val := by
  have hx0 : (x 0).val < 3 := (x 0).isLt
  simp only [tailSet, Finset.mem_union, mem_TA0, mem_TA1, mem_TA2, mem_TB0, mem_TB1, mem_TB2]
  omega

/-- The trips of worker `L` together: the columns below 998784 whose unit is `wid L` modulo 32. -/
theorem mem_trips (L : grid0.Coords) (x : Ix) :
    x ∈ Finset.univ.biUnion (tripSet L) ↔ (x 2).val < 998784 ∧ ((x 2).val / 3456) % 32 = wid L := by
  have hw := wid_lt L
  have ht := trips_eq L
  simp only [Finset.mem_biUnion, Finset.mem_univ, true_and, mem_tripSet]
  constructor
  · rintro ⟨k, h1, h2⟩
    have hk : k.val < (320 - wid L) / 32 := ht ▸ k.isLt
    omega
  · rintro ⟨h1, h2⟩
    refine ⟨⟨(x 2).val / 3456 / 32, by rw [ht]; omega⟩, ?_⟩
    show 3456 * (32 * ((x 2).val / 3456 / 32) + wid L) ≤ (x 2).val ∧
      (x 2).val < 3456 * (32 * ((x 2).val / 3456 / 32) + wid L) + 3456
    omega

theorem mem_tileSet (L : grid0.Coords) (x : Ix) :
    x ∈ tileSet L ↔ ((x 2).val < 998784 ∧ ((x 2).val / 3456) % 32 = wid L) ∨ (998784 ≤ (x 2).val ∧ wid L = 31) := by
  unfold tileSet
  rw [Finset.mem_union, mem_trips]
  by_cases h : wid L = 31
  · rw [if_pos h, mem_tailSet]; omega
  · rw [if_neg h]; simp only [Finset.notMem_empty, or_false]; omega

theorem tiles_disjoint : ∀ L ∈ (Finset.univ : Finset grid0.Coords), ∀ L' ∈ (Finset.univ : Finset grid0.Coords),
    L ≠ L' → Disjoint (tileSet L) (tileSet L') := by
  intro L _ L' _ hne
  have hw : wid L ≠ wid L' := fun h => hne (wid_inj h)
  rw [Finset.disjoint_left]
  intro x hx hx'
  rw [mem_tileSet] at hx hx'
  omega

theorem tiles_cover : (Finset.univ : Finset grid0.Coords).biUnion tileSet = Finset.univ := by
  ext x
  simp only [Finset.mem_biUnion, Finset.mem_univ, true_and, iff_true, mem_tileSet]
  by_cases h : (x 2).val < 998784
  · obtain ⟨L, hL⟩ := exists_wid (w := ((x 2).val / 3456) % 32) (Nat.mod_lt _ (by decide))
    exact ⟨L, Or.inl ⟨h, hL.symm⟩⟩
  · obtain ⟨L, hL⟩ := exists_wid (w := 31) (by decide)
    exact ⟨L, Or.inr ⟨by omega, hL⟩⟩

/-! ## The pieces of one worker are pairwise disjoint -/

theorem trips_disjoint (L : grid0.Coords) : ∀ k ∈ (Finset.univ : Finset (Fin (k0_t1_loop L).trips)),
    ∀ k' ∈ (Finset.univ : Finset (Fin (k0_t1_loop L).trips)), k ≠ k' → Disjoint (tripSet L k) (tripSet L k') := by
  intro k _ k' _ hne
  have hv : k.val ≠ k'.val := fun h => hne (Fin.ext h)
  rw [Finset.disjoint_left]
  intro x hx hx'
  rw [mem_tripSet] at hx hx'
  omega

theorem disj_A2 (L : grid0.Coords) (k : Fin (k0_t1_loop L).trips) : Disjoint (A2 L k) (A3 L k ∪ A4 L k) := by
  rw [Finset.disjoint_left]
  intro x hx hx'
  simp only [Finset.mem_union, mem_A2, mem_A3, mem_A4] at hx hx'
  omega

theorem disj_A3 (L : grid0.Coords) (k : Fin (k0_t1_loop L).trips) : Disjoint (A3 L k) (A4 L k) := by
  rw [Finset.disjoint_left]
  intro x hx hx'
  simp only [mem_A3, mem_A4] at hx hx'
  omega

theorem disj_trips_tail (L : grid0.Coords) : Disjoint (Finset.univ.biUnion (tripSet L)) tailSet := by
  rw [Finset.disjoint_left]
  intro x hx hx'
  rw [mem_trips] at hx
  rw [mem_tailSet] at hx'
  omega

theorem disj_TA0 : Disjoint TA0 (TA1 ∪ (TA2 ∪ (TB0 ∪ (TB1 ∪ TB2)))) := by
  rw [Finset.disjoint_left]
  intro x hx hx'
  simp only [Finset.mem_union, mem_TA0, mem_TA1, mem_TA2, mem_TB0, mem_TB1, mem_TB2] at hx hx'
  omega

theorem disj_TA1 : Disjoint TA1 (TA2 ∪ (TB0 ∪ (TB1 ∪ TB2))) := by
  rw [Finset.disjoint_left]
  intro x hx hx'
  simp only [Finset.mem_union, mem_TA1, mem_TA2, mem_TB0, mem_TB1, mem_TB2] at hx hx'
  omega

theorem disj_TA2 : Disjoint TA2 (TB0 ∪ (TB1 ∪ TB2)) := by
  rw [Finset.disjoint_left]
  intro x hx hx'
  simp only [Finset.mem_union, mem_TA2, mem_TB0, mem_TB1, mem_TB2] at hx hx'
  omega

theorem disj_TB0 : Disjoint TB0 (TB1 ∪ TB2) := by
  rw [Finset.disjoint_left]
  intro x hx hx'
  simp only [Finset.mem_union, mem_TB0, mem_TB1, mem_TB2] at hx hx'
  omega

theorem disj_TB1 : Disjoint TB1 TB2 := by
  rw [Finset.disjoint_left]
  intro x hx hx'
  simp only [mem_TB1, mem_TB2] at hx hx'
  omega

end Cert.Proof.KI
-- ==== Proof.KI.Split.lean ====
/-
  The whole output array, held at full share, is the same resource as the 32 workers' shares together: worker `L`'s
  share is the three pieces of each of its trips and, for worker 31, the six tail pieces. The index sets of the pieces
  partition the array's indices, and a points-to splits along a partition of its index set.
-/
import proofs.«216280_g62835371540565_cont_9to1_m_1109_19_alg».proof.Proof.KI.Res
import proofs.«216280_g62835371540565_cont_9to1_m_1109_19_alg».proof.Proof.KI.Partition

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- A points-to splits along two disjoint index sets, as an equation. -/
theorem pts_union (d : Dev nD) (f : Buf (Elt F) (otLoc d)) {I J : Finset (Idx (otLoc d))} (h : Disjoint I J) :
    (otLoc d ↦[I ∪ J]{fullShare} f : sProp 𝕄) = iprop((otLoc d ↦[I]{fullShare} f) ∗ otLoc d ↦[J]{fullShare} f) := by
  have hu : (otLoc d ↦[I ∪ J]{fullShare} f : sProp 𝕄)
      ⊣⊢ iprop((otLoc d ↦[I]{fullShare} f) ∗ otLoc d ↦[J]{fullShare} f) := pointsTo_union h
  exact equiv_iff.mp ⟨hu.1, hu.2⟩

/-- The three pieces of a trip are the points-to on what the trip writes. -/
theorem trip3_eq (d : Dev nD) (L : grid0.Coords) (k : Fin (k0_t1_loop L).trips) (f : Buf (Elt F) (otLoc d)) :
    trip3 d L k f = (otLoc d ↦[tripSet L k]{fullShare} f : sProp 𝕄) := by
  unfold tripSet
  rw [pts_union d f (disj_A2 L k), pts_union d f (disj_A3 L k)]
  rfl

/-- The six tail pieces are the points-to on what worker 31 writes after its loop. -/
theorem tail6_eq (d : Dev nD) (L : grid0.Coords) (f : Buf (Elt F) (otLoc d)) :
    tail6 d L f = (otLoc d ↦[tailSet]{fullShare} f : sProp 𝕄) := by
  unfold tailSet
  rw [pts_union d f disj_TA0, pts_union d f disj_TA1, pts_union d f disj_TA2, pts_union d f disj_TB0,
    pts_union d f disj_TB1]
  rfl

/-- A worker's share is the points-to on everything it writes. -/
theorem tileOut_eq (d : Dev nD) (L : grid0.Coords) (f : Buf (Elt F) (otLoc d)) :
    tileOut d L f = (otLoc d ↦[tileSet L]{fullShare} f : sProp 𝕄) := by
  unfold tileOut tailRes tileSet
  by_cases h : wid L = 31
  · rw [if_pos h, if_pos h, pts_union d f (disj_trips_tail L), pointsTo_biUnion _ _ (trips_disjoint L), tail6_eq]
    exact congrArg (fun P : sProp 𝕄 => iprop(P ∗ otLoc d ↦[tailSet]{fullShare} f))
      (bigSep_congr fun k _ => trip3_eq d L k f)
  · rw [if_neg h, if_neg h, Finset.union_empty, pointsTo_biUnion _ _ (trips_disjoint L)]
    exact (equiv_iff.mp sep_emp).trans (bigSep_congr fun k _ => trip3_eq d L k f)

/-- Core and subcore numbers name the workers one to one. -/
def coordsEquiv : Fin (grid0.bound 0) × Fin (grid0.bound 1) ≃ grid0.Coords where
  toFun p := coordsV p.1 p.2
  invFun L := (L 0, L 1)
  left_inv _ := rfl
  right_inv L := by
    funext a
    fin_cases a <;> rfl

/-- The whole output array is the workers' shares together, as an equation. -/
theorem split_out_eq (d : Dev nD) (f : Buf (Elt F) (otLoc d)) :
    (otLoc d ↦{fullShare} f : sProp 𝕄) = bigSep (Finset.univ : Finset (Fin (grid0.bound 0))) fun c =>
      bigSep (Finset.univ : Finset (Fin (grid0.bound 1))) fun i => tileOut d (coordsV c i) f := by
  have h1 : (otLoc d ↦{fullShare} f : sProp 𝕄) = bigSep (Finset.univ : Finset grid0.Coords) fun L =>
      otLoc d ↦[tileSet L]{fullShare} f := by
    rw [← pointsTo_biUnion Finset.univ (ℓ := otLoc d) tileSet tiles_disjoint, tiles_cover]; try rfl
  rw [h1, bigSep_univ_equiv coordsEquiv, bigSep_univ_prod]
  exact bigSep_congr fun c _ => bigSep_congr fun i _ => (tileOut_eq d (coordsV c i) f).symm

/-- The same in both directions of entailment. -/
theorem split_out (d : Dev nD) (f : Buf (Elt F) (otLoc d)) :
    (otLoc d ↦{fullShare} f : sProp 𝕄) ⊣⊢ bigSep (Finset.univ : Finset (Fin (grid0.bound 0))) fun c =>
      bigSep (Finset.univ : Finset (Fin (grid0.bound 1))) fun i => tileOut d (coordsV c i) f :=
  ⟨Entails.of_eq (split_out_eq d f), Entails.of_eq (split_out_eq d f).symm⟩

end Cert.Proof.KI

end
-- ==== Proof.KI.Cores.lean ====
/-
  The two arrays the kernel works on, shared out to the cores. The transposed input is read by every worker: its
  points-to is halved once per core, core `c` receiving the `c`-th token and the remainder staying behind. The output
  array is written in disjoint pieces: core `c` receives the shares of its 16 workers. Both steps are equations, so
  the cores' resources join back to the two whole arrays.
-/
import proofs.«216280_g62835371540565_cont_9to1_m_1109_19_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- Core `c`'s share of the input array: the `c`-th token of the full share. -/
abbrev qC (c : Fin ((K (F := F)).nCore 0)) : PosShare TreeShare := Transfers.shareTok fullShare ((K (F := F)).nCore 0) c
/-- Worker `(c, i)`'s share of the input array: the `i`-th token of its core's. -/
abbrev qT (c : Fin ((K (F := F)).nCore 0)) (i : Fin ((K (F := F)).nSub 0)) : PosShare TreeShare :=
  Transfers.shareTok (qC (F := F) c) ((K (F := F)).nSub 0) i
/-- A core of the call as a first coordinate of the grid. -/
abbrev cOf (c : Fin ((K (F := F)).nCore 0)) : Fin (grid0.bound 0) := ⟨((K (F := F)).core 0 c).val, c.isLt⟩
/-- A subcore of the call as a second coordinate of the grid. -/
abbrev iOf (i : Fin ((K (F := F)).nSub 0)) : Fin (grid0.bound 1) := ⟨((K (F := F)).sub 0 i).val, i.isLt⟩

/-! ## What is handed out can be stored -/

instance trip3_storable (d : Dev nD) (L : grid0.Coords) (k : Fin (k0_t1_loop L).trips) (f : Buf (Elt F) (otLoc d)) :
    BI.Storable (upEmb : UEmb _ 𝕄) (trip3 d L k f) := by unfold trip3; infer_instance
instance tail6_storable (d : Dev nD) (L : grid0.Coords) (f : Buf (Elt F) (otLoc d)) :
    BI.Storable (upEmb : UEmb _ 𝕄) (tail6 d L f) := by unfold tail6; infer_instance
instance tailRes_storable (d : Dev nD) (L : grid0.Coords) (f : Buf (Elt F) (otLoc d)) :
    BI.Storable (upEmb : UEmb _ 𝕄) (tailRes d L f) := by unfold tailRes; split <;> infer_instance
instance tileOut_storable (d : Dev nD) (L : grid0.Coords) (f : Buf (Elt F) (otLoc d)) :
    BI.Storable (upEmb : UEmb _ 𝕄) (tileOut d L f) := by unfold tileOut; infer_instance

/-- What core `c` is handed: its token of the input array and its workers' shares of the output array. -/
def coreRes (d : Dev nD) (c : Fin ((K (F := F)).nCore 0)) (xt : Buf (Elt F) (xtLoc d)) (f : Buf (Elt F) (otLoc d)) :
    sProp 𝕄 :=
  iprop((xtLoc d ↦{qC (F := F) c} xt) ∗ bigSep Finset.univ fun i : Fin ((K (F := F)).nSub 0) =>
    tileOut d (coordsV (cOf (F := F) c) (iOf (F := F) i)) f)

instance coreRes_storable (d : Dev nD) (c : Fin ((K (F := F)).nCore 0)) (xt : Buf (Elt F) (xtLoc d))
    (f : Buf (Elt F) (otLoc d)) : BI.Storable (upEmb : UEmb _ 𝕄) (coreRes d c xt f) := by
  unfold coreRes; infer_instance

/-! ## Sharing out and joining back -/

/-- A family over the grid's first coordinate, summed over the call's cores. -/
theorem bigSep_cOf (Φ : Fin (grid0.bound 0) → sProp 𝕄) :
    (bigSep Finset.univ fun c : Fin ((K (F := F)).nCore 0) => Φ (cOf (F := F) c)) = bigSep Finset.univ Φ :=
  bigSep_congr fun _ _ => congrArg Φ (Fin.ext rfl)

/-- A family over the grid's second coordinate, summed over the call's subcores. -/
theorem bigSep_iOf (Φ : Fin (grid0.bound 1) → sProp 𝕄) :
    (bigSep Finset.univ fun i : Fin ((K (F := F)).nSub 0) => Φ (iOf (F := F) i)) = bigSep Finset.univ Φ :=
  bigSep_congr fun _ _ => congrArg Φ (Fin.ext rfl)

/-- The input array at full share is the remainder and one token per core. -/
theorem xt_toks (d : Dev nD) (xt : Buf (Elt F) (xtLoc d)) :
    (xtLoc d ↦{fullShare} xt : sProp 𝕄) = iprop((xtLoc d ↦{Transfers.shareDrop fullShare ((K (F := F)).nCore 0)} xt) ∗
      bigSep Finset.univ fun c : Fin ((K (F := F)).nCore 0) => xtLoc d ↦{qC (F := F) c} xt) := by
  have h : (xtLoc d ↦{fullShare} xt : sProp 𝕄) ⊣⊢
      iprop((xtLoc d ↦{Transfers.shareDrop fullShare ((K (F := F)).nCore 0)} xt) ∗
        bigSep Finset.univ fun c : Fin ((K (F := F)).nCore 0) => xtLoc d ↦{qC (F := F) c} xt) :=
    Transfers.pointsTo_toks fullShare ((K (F := F)).nCore 0)
  exact equiv_iff.mp ⟨h.1, h.2⟩

/-- The output array at full share is the cores' workers' shares. -/
theorem ot_cores (d : Dev nD) (f : Buf (Elt F) (otLoc d)) :
    (otLoc d ↦{fullShare} f : sProp 𝕄) = bigSep Finset.univ fun c : Fin ((K (F := F)).nCore 0) =>
      bigSep Finset.univ fun i : Fin ((K (F := F)).nSub 0) =>
        tileOut d (coordsV (cOf (F := F) c) (iOf (F := F) i)) f := by
  rw [split_out_eq,
    ← bigSep_cOf (F := F) fun c => bigSep Finset.univ fun i : Fin (grid0.bound 1) => tileOut d (coordsV c i) f]
  exact bigSep_congr fun c _ => (bigSep_iOf (F := F) fun i => tileOut d (coordsV (cOf (F := F) c) i) f).symm

/-- The two whole arrays are the input's remainder and the cores' resources. -/
theorem cores_eq (d : Dev nD) (xt : Buf (Elt F) (xtLoc d)) (f : Buf (Elt F) (otLoc d)) :
    (iprop((xtLoc d ↦{fullShare} xt) ∗ (otLoc d ↦{fullShare} f)) : sProp 𝕄) =
      iprop((xtLoc d ↦{Transfers.shareDrop fullShare ((K (F := F)).nCore 0)} xt) ∗
        bigSep Finset.univ fun c : Fin ((K (F := F)).nCore 0) => coreRes d c xt f) := by
  unfold coreRes
  rw [bigSep_sep', ← ot_cores d f]
  conv_lhs => rw [xt_toks d xt]
  exact equiv_iff.mp ⟨sep_assoc, sep_assoc'⟩

theorem cores_split (d : Dev nD) (xt : Buf (Elt F) (xtLoc d)) (f : Buf (Elt F) (otLoc d)) :
    (iprop((xtLoc d ↦{fullShare} xt) ∗ (otLoc d ↦{fullShare} f)) : sProp 𝕄) ⊢
      iprop((xtLoc d ↦{Transfers.shareDrop fullShare ((K (F := F)).nCore 0)} xt) ∗
        bigSep Finset.univ fun c : Fin ((K (F := F)).nCore 0) => coreRes d c xt f) :=
  Entails.of_eq (cores_eq d xt f)

theorem cores_join (d : Dev nD) (xt : Buf (Elt F) (xtLoc d)) (f : Buf (Elt F) (otLoc d)) :
    (iprop((xtLoc d ↦{Transfers.shareDrop fullShare ((K (F := F)).nCore 0)} xt) ∗
        bigSep Finset.univ fun c : Fin ((K (F := F)).nCore 0) => coreRes d c xt f) : sProp 𝕄) ⊢
      iprop((xtLoc d ↦{fullShare} xt) ∗ (otLoc d ↦{fullShare} f)) :=
  Entails.of_eq (cores_eq d xt f).symm

end Cert.Proof.KI

end
-- ==== Proof.KI.Value.lean ====
/-
  What a copy chain leaves on a piece of the output. A trip first copies the block
  `xt[0:8, 0:4, n0 : n0+3456]` of the transposed input into the scratch, then row `p` of the scratch (all 8
  batches) to channel `c` of the output at the same columns. Read at an index, the piece then holds
  `xt[b, p, n0 + j]` at `(c, b, n0 + j)`; with `p = src c` that is the target function.
-/
import proofs.«216280_g62835371540565_cont_9to1_m_1109_19_alg».proof.Proof.KI.Pieces
import proofs.«216280_g62835371540565_cont_9to1_m_1109_19_alg».proof.Proof.Spec
import Idealize.ShloMosaic.Lib.ValueLayout
import Idealize.ShloMosaic.Lib.Writes

noncomputable section

namespace Cert.Proof.KI

open Cert.KernelIdeal Cert.KernelIdeal.Gen
open Idealize.ShloMosaic Idealize.ShloMosaic.ValueIdx

/-- The output array as a function of the transposed input: channel `c` of point `(b, n)` is component
    `src c` of the input's point. -/
def tgt {α : Type} (xt : S8x4x1000000.Idx → α) : S3x8x1000000.Idx → α :=
  fun x => xt (ix3 (x 1) (Cert.Spec.src (x 0)) (x 2))

/-- An index `(x, y)` matched with shape `[a, 1, b]` is `(x, 0, y)`. -/
theorem reshapeEquiv_ix2_a1b {a b : ℕ} (h : (⟨2, ![a, b]⟩ : Shape).numel = (⟨3, ![a, 1, b]⟩ : Shape).numel)
    (x : Fin a) (y : Fin b) : Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

variable {F : FTy → Type}

/-- The scratch row a trip copies out: row `p`, all 8 batches, 3456 columns. -/
abbrev srow (p : ℕ) (hp : ∀ a, (![0, p, 0] : Fin 3 → Nat) a + S8x1x3456.size a ≤ S8x4x3456.size a) : Memref sig .scVector .vmem S8x3456 .f32 :=
  ((Memref.whole cc0_scratch0 : Memref sig .scVector .vmem S8x4x3456 .f32).slice (Rect.unit (s := S8x4x3456) ![0, p, 0] S8x1x3456.size hp) (fun _ => rfl)).squeeze S8x3456 squeezes_S8x1x3456_S8x3456

/-- The block of the transposed input a trip fetches. -/
abbrev xblk (L : grid0.Coords) (k : Fin (k0_t1_loop L).trips) : Memref sig .scVector .hbm S8x4x3456 .f32 :=
  (Memref.whole main_v0_scv : Memref sig .scVector .hbm S8x4x1000000 .f32).slice (Rect.unit (s := S8x4x1000000) (k0_off1 L k) S8x4x3456.size (k0_off1_inb L k)) (fun _ => rfl)

/-! ## Where the views' indices sit -/

/-- Row `p` of the scratch at `(b, j)` is the scratch's element `(b, p, j)`. -/
theorem srow_emb (p : ℕ) (hp4 : p < 4) (hp : ∀ a, (![0, p, 0] : Fin 3 → Nat) a + S8x1x3456.size a ≤ S8x4x3456.size a)
    (b : Fin 8) (j : Fin 3456) :
    (srow p hp).view.emb (ix2 b j) = (ix3 b (⟨p, hp4⟩ : Fin 4) j : S8x4x3456.Idx) := by
  have he : Shape.reshapeEquiv squeezes_S8x1x3456_S8x3456.numel_eq (ix2 b j) = ix3 b (⟨0, Nat.one_pos⟩ : Fin 1) j :=
    reshapeEquiv_ix2_a1b _ b j
  funext a; refine Fin.ext ?_
  show ((Rect.unit (s := S8x4x3456) ![0, p, 0] S8x1x3456.size hp).emb (Shape.reshapeEquiv squeezes_S8x1x3456_S8x3456.numel_eq (ix2 b j)) a : ℕ) = _
  rw [he, Rect.emb_apply]
  match a with
  | ⟨0, _⟩ => show 0 + 1 * b.val = b.val; omega
  | ⟨1, _⟩ => show p + 1 * 0 = p; omega
  | ⟨2, _⟩ => show 0 + 1 * j.val = j.val; omega

/-- A piece of the output at `(b, j)` is the output's element at the piece's offsets plus `(0, b, j)`. -/
theorem piece_emb_val (off : Fin 3 → ℕ) (h : ∀ a, off a + S1x8x3456.size a ≤ S3x8x1000000.size a) (b : Fin 8) (j : Fin 3456) (a : Fin 3) :
    ((((Memref.whole main_v1_scv : Memref sig .scVector .hbm S3x8x1000000 .f32).slice (Rect.unit (s := S3x8x1000000) off S1x8x3456.size h) (fun _ => rfl)).squeeze S8x3456 squeezes_S1x8x3456_S8x3456).view.emb (ix2 b j) a : ℕ)
      = off a + ((ix3 (⟨0, Nat.one_pos⟩ : Fin 1) b j : S1x8x3456.Idx) a : ℕ) := by
  have he : Shape.reshapeEquiv squeezes_S1x8x3456_S8x3456.numel_eq (ix2 b j) = ix3 (⟨0, Nat.one_pos⟩ : Fin 1) b j :=
    reshapeEquiv_ix2_1ab _ b j
  show ((Rect.unit (s := S3x8x1000000) off S1x8x3456.size h).emb (Shape.reshapeEquiv squeezes_S1x8x3456_S8x3456.numel_eq (ix2 b j)) a : ℕ) = _
  rw [he, Rect.emb_apply]
  show off a + 1 * _ = _
  rw [Nat.one_mul]

/-- The fetched block at `(b, p, j)` is the input's element at the block's offsets plus `(b, p, j)`. -/
theorem xblk_emb_val (L : grid0.Coords) (k : Fin (k0_t1_loop L).trips) (y : S8x4x3456.Idx) (a : Fin 3) :
    ((xblk L k).view.emb y a : ℕ) = k0_off1 L k a + (y a : ℕ) := by
  show ((Rect.unit (s := S8x4x1000000) (k0_off1 L k) S8x4x3456.size (k0_off1_inb L k)).emb y a : ℕ) = _
  rw [Rect.emb_apply]
  show _ + 1 * _ = _
  rw [Nat.one_mul]
  rfl

/-! ## The loop's pieces -/

/-- A piece of the output at offsets `off`, as the program slices it. -/
abbrev pcAt (off : Fin 3 → ℕ) (hoff : ∀ a, off a + S1x8x3456.size a ≤ S3x8x1000000.size a) : Memref sig .scVector .hbm S8x3456 .f32 :=
  ((Memref.whole main_v1_scv : Memref sig .scVector .hbm S3x8x1000000 .f32).slice (Rect.unit (s := S3x8x1000000) off S1x8x3456.size hoff) (fun _ => rfl)).squeeze S8x3456 squeezes_S1x8x3456_S8x3456

/-- What one chain of a trip leaves on its piece: the block of the input at columns `n0` on is copied into the
    scratch, then the scratch's row `p` to the piece at channel `c`, the same columns. With `p = src c` every element
    of the piece holds the target function's value. -/
theorem landed_loop (L : grid0.Coords) (k : Fin (k0_t1_loop L).trips)
    (off : Fin 3 → ℕ) (hoff : ∀ a, off a + S1x8x3456.size a ≤ S3x8x1000000.size a)
    (c : Fin 3) (p : ℕ) (hp4 : p < 4) (hp : ∀ a, (![0, p, 0] : Fin 3 → Nat) a + S8x1x3456.size a ≤ S8x4x3456.size a)
    (h0 : off 0 = c.val) (h1 : off 1 = 0) (h2 : off 2 = k0_off1 L k 2) (h01 : k0_off1 L k 0 = 0) (h11 : k0_off1 L k 1 = 0)
    (hsrc : Cert.Spec.src c = ⟨p, hp4⟩)
    (xt : S8x4x1000000.Idx → Elt F .f32) (fs : S8x4x3456.Idx → Elt F .f32) (f0 : S3x8x1000000.Idx → Elt F .f32) :
    ∀ i ∈ (pcAt off hoff).view.set,
      (pcAt off hoff).view.writes (Elt F) f0 [⟨Rect.whole S8x3456, ReadAs.same.apply (View.read (Elt F) (srow p hp).view
        (View.write (Elt F) (Memref.whole cc0_scratch0 : Memref sig .scVector .vmem S8x4x3456 .f32).view fs
          (ReadAs.same.apply (View.read (Elt F) (xblk L k).view xt)) Finset.univ))⟩] i = tgt xt i := by
  intro i hi
  obtain ⟨y, -, rfl⟩ := Finset.mem_map.mp hi
  obtain ⟨b, j, rfl⟩ : ∃ (b : Fin 8) (j : Fin 3456), y = ix2 b j := ⟨y 0, y 1, eq_ix2 y⟩
  have hw := View.read_writes_cons_emb (Val := Elt F) (pcAt off hoff).view f0 (Rect.whole S8x3456)
    (ReadAs.same.apply (View.read (Elt F) (srow p hp).view
        (View.write (Elt F) (Memref.whole cc0_scratch0 : Memref sig .scVector .vmem S8x4x3456 .f32).view fs
          (ReadAs.same.apply (View.read (Elt F) (xblk L k).view xt)) Finset.univ))) [] (ix2 b j)
  rw [Rect.emb_whole_apply] at hw
  unfold View.read at hw
  simp only [cast_eq] at hw
  refine hw.trans ?_
  show View.write (Elt F) (Memref.whole cc0_scratch0 : Memref sig .scVector .vmem S8x4x3456 .f32).view fs
      (fun x => xt ((xblk L k).view.emb x)) Finset.univ ((srow p hp).view.emb (ix2 b j)) = _
  rw [srow_emb p hp4 hp b j]
  have hs := View.write_emb_of_mem (Val := Elt F) (v := (Memref.whole cc0_scratch0 : Memref sig .scVector .vmem S8x4x3456 .f32).view) fs
    (fun x => xt ((xblk L k).view.emb x)) (M := Finset.univ) (x := (ix3 b (⟨p, hp4⟩ : Fin 4) j : S8x4x3456.Idx)) (Finset.mem_univ _)
  simp only [cast_eq] at hs
  refine Eq.trans hs ?_
  unfold tgt
  refine congrArg xt (funext fun a => Fin.ext ?_)
  rw [xblk_emb_val]
  match a with
  | ⟨0, _⟩ =>
    show k0_off1 L k 0 + b.val = ((pcAt off hoff).view.emb (ix2 b j) 1 : ℕ)
    rw [piece_emb_val, h01, h1]; rfl
  | ⟨1, _⟩ =>
    have e0 : (pcAt off hoff).view.emb (ix2 b j) 0 = c := Fin.ext (by rw [piece_emb_val, h0]; rfl)
    show k0_off1 L k 1 + p = ((Cert.Spec.src ((pcAt off hoff).view.emb (ix2 b j) 0)) : ℕ)
    rw [e0, hsrc, h11, Nat.zero_add]
  | ⟨2, _⟩ =>
    show k0_off1 L k 2 + j.val = ((pcAt off hoff).view.emb (ix2 b j) 2 : ℕ)
    rw [piece_emb_val, h2]; rfl

/-- Channel 0 holds scratch row 3, channel 1 row 1, channel 2 row 2: each the row `src` names. -/
theorem landed2 (L : grid0.Coords) (k : Fin (k0_t1_loop L).trips) (xt : S8x4x1000000.Idx → Elt F .f32) (fs : S8x4x3456.Idx → Elt F .f32)
    (f0 : S3x8x1000000.Idx → Elt F .f32) :
    ∀ i ∈ (pc2 L k).view.set,
      (pc2 L k).view.writes (Elt F) f0 [⟨Rect.whole S8x3456, ReadAs.same.apply (View.read (Elt F) (srow 3 inb_S8x4x3456_S8x1x3456_0_3_0).view
        (View.write (Elt F) (Memref.whole cc0_scratch0 : Memref sig .scVector .vmem S8x4x3456 .f32).view fs
          (ReadAs.same.apply (View.read (Elt F) (xblk L k).view xt)) Finset.univ))⟩] i = tgt xt i :=
  landed_loop L k (k0_off2 L k) (k0_off2_inb L k) 0 3 (by decide) inb_S8x4x3456_S8x1x3456_0_3_0
    (by rw [k0_off2_eq]; rfl) (by rw [k0_off2_eq]; rfl) (by rw [k0_off2_eq, k0_off1_eq] <;> rfl)
    (by rw [k0_off1_eq]; rfl) (by rw [k0_off1_eq]; rfl) rfl xt fs f0

theorem landed3 (L : grid0.Coords) (k : Fin (k0_t1_loop L).trips) (xt : S8x4x1000000.Idx → Elt F .f32) (fs : S8x4x3456.Idx → Elt F .f32)
    (f0 : S3x8x1000000.Idx → Elt F .f32) :
    ∀ i ∈ (pc3 L k).view.set,
      (pc3 L k).view.writes (Elt F) f0 [⟨Rect.whole S8x3456, ReadAs.same.apply (View.read (Elt F) (srow 1 inb_S8x4x3456_S8x1x3456_0_1_0).view
        (View.write (Elt F) (Memref.whole cc0_scratch0 : Memref sig .scVector .vmem S8x4x3456 .f32).view fs
          (ReadAs.same.apply (View.read (Elt F) (xblk L k).view xt)) Finset.univ))⟩] i = tgt xt i :=
  landed_loop L k (k0_off3 L k) (k0_off3_inb L k) 1 1 (by decide) inb_S8x4x3456_S8x1x3456_0_1_0
    (by rw [k0_off3_eq]; rfl) (by rw [k0_off3_eq]; rfl) (by rw [k0_off3_eq, k0_off1_eq] <;> rfl)
    (by rw [k0_off1_eq]; rfl) (by rw [k0_off1_eq]; rfl) rfl xt fs f0

theorem landed4 (L : grid0.Coords) (k : Fin (k0_t1_loop L).trips) (xt : S8x4x1000000.Idx → Elt F .f32) (fs : S8x4x3456.Idx → Elt F .f32)
    (f0 : S3x8x1000000.Idx → Elt F .f32) :
    ∀ i ∈ (pc4 L k).view.set,
      (pc4 L k).view.writes (Elt F) f0 [⟨Rect.whole S8x3456, ReadAs.same.apply (View.read (Elt F) (srow 2 inb_S8x4x3456_S8x1x3456_0_2_0).view
        (View.write (Elt F) (Memref.whole cc0_scratch0 : Memref sig .scVector .vmem S8x4x3456 .f32).view fs
          (ReadAs.same.apply (View.read (Elt F) (xblk L k).view xt)) Finset.univ))⟩] i = tgt xt i :=
  landed_loop L k (k0_off4 L k) (k0_off4_inb L k) 2 2 (by decide) inb_S8x4x3456_S8x1x3456_0_2_0
    (by rw [k0_off4_eq]; rfl) (by rw [k0_off4_eq]; rfl) (by rw [k0_off4_eq, k0_off1_eq] <;> rfl)
    (by rw [k0_off1_eq]; rfl) (by rw [k0_off1_eq]; rfl) rfl xt fs f0

/-! ## The same for the tails' widths -/

/-- Row `p` of the scratch, its first 1152 columns, at `(b, j)` is the scratch's element `(b, p, j)`. -/
theorem row1152_emb (p : ℕ) (hp4 : p < 4) (hp : ∀ a, (![0, p, 0] : Fin 3 → Nat) a + S8x1x1152.size a ≤ S8x4x3456.size a)
    (b : Fin 8) (j : Fin 1152) :
    (((Memref.whole cc0_scratch0 : Memref sig .scVector .vmem S8x4x3456 .f32).slice (Rect.unit (s := S8x4x3456) ![0, p, 0] S8x1x1152.size hp) (fun _ => rfl)).squeeze S8x1152 squeezes_S8x1x1152_S8x1152).view.emb (ix2 b j)
      = (ix3 b (⟨p, hp4⟩ : Fin 4) (⟨j.val, Nat.lt_of_lt_of_le j.isLt (by decide)⟩ : Fin 3456) : S8x4x3456.Idx) := by
  have he : Shape.reshapeEquiv squeezes_S8x1x1152_S8x1152.numel_eq (ix2 b j) = ix3 b (⟨0, Nat.one_pos⟩ : Fin 1) j :=
    reshapeEquiv_ix2_a1b _ b j
  funext a; refine Fin.ext ?_
  show ((Rect.unit (s := S8x4x3456) ![0, p, 0] S8x1x1152.size hp).emb (Shape.reshapeEquiv squeezes_S8x1x1152_S8x1152.numel_eq (ix2 b j)) a : ℕ) = _
  rw [he, Rect.emb_apply]
  match a with
  | ⟨0, _⟩ => show 0 + 1 * b.val = b.val; omega
  | ⟨1, _⟩ => show p + 1 * 0 = p; omega
  | ⟨2, _⟩ => show 0 + 1 * j.val = j.val; omega

/-- A 1152-column piece of the output at `(b, j)` is the output's element at the piece's offsets plus `(0, b, j)`. -/
theorem piece1152_emb_val (off : Fin 3 → ℕ) (h : ∀ a, off a + S1x8x1152.size a ≤ S3x8x1000000.size a) (b : Fin 8) (j : Fin 1152) (a : Fin 3) :
    ((((Memref.whole main_v1_scv : Memref sig .scVector .hbm S3x8x1000000 .f32).slice (Rect.unit (s := S3x8x1000000) off S1x8x1152.size h) (fun _ => rfl)).squeeze S8x1152 squeezes_S1x8x1152_S8x1152).view.emb (ix2 b j) a : ℕ)
      = off a + ((ix3 (⟨0, Nat.one_pos⟩ : Fin 1) b j : S1x8x1152.Idx) a : ℕ) := by
  have he : Shape.reshapeEquiv squeezes_S1x8x1152_S8x1152.numel_eq (ix2 b j) = ix3 (⟨0, Nat.one_pos⟩ : Fin 1) b j :=
    reshapeEquiv_ix2_1ab _ b j
  show ((Rect.unit (s := S3x8x1000000) off S1x8x1152.size h).emb (Shape.reshapeEquiv squeezes_S1x8x1152_S8x1152.numel_eq (ix2 b j)) a : ℕ) = _
  rw [he, Rect.emb_apply]
  show off a + 1 * _ = _
  rw [Nat.one_mul]

/-- A 1152-column block of the input at `y` is the input's element at the block's offsets plus `y`. -/
theorem blk1152_emb_val (off : Fin 3 → ℕ) (h : ∀ a, off a + S8x4x1152.size a ≤ S8x4x1000000.size a) (y : S8x4x1152.Idx) (a : Fin 3) :
    (((Memref.whole main_v0_scv : Memref sig .scVector .hbm S8x4x1000000 .f32).slice (Rect.unit (s := S8x4x1000000) off S8x4x1152.size h) (fun _ => rfl)).view.emb y a : ℕ)
      = off a + (y a : ℕ) := by
  show ((Rect.unit (s := S8x4x1000000) off S8x4x1152.size h).emb y a : ℕ) = _
  rw [Rect.emb_apply]
  show _ + 1 * _ = _
  rw [Nat.one_mul]
  rfl

/-- Row `p` of the scratch, its first 64 columns, at `(b, j)` is the scratch's element `(b, p, j)`. -/
theorem row64_emb (p : ℕ) (hp4 : p < 4) (hp : ∀ a, (![0, p, 0] : Fin 3 → Nat) a + S8x1x64.size a ≤ S8x4x64.size a)
    (b : Fin 8) (j : Fin 64) :
    (((Memref.whole cc0_scratch1 : Memref sig .scVector .vmem S8x4x64 .f32).slice (Rect.unit (s := S8x4x64) ![0, p, 0] S8x1x64.size hp) (fun _ => rfl)).squeeze S8x64 squeezes_S8x1x64_S8x64).view.emb (ix2 b j)
      = (ix3 b (⟨p, hp4⟩ : Fin 4) (⟨j.val, Nat.lt_of_lt_of_le j.isLt (by decide)⟩ : Fin 64) : S8x4x64.Idx) := by
  have he : Shape.reshapeEquiv squeezes_S8x1x64_S8x64.numel_eq (ix2 b j) = ix3 b (⟨0, Nat.one_pos⟩ : Fin 1) j :=
    reshapeEquiv_ix2_a1b _ b j
  funext a; refine Fin.ext ?_
  show ((Rect.unit (s := S8x4x64) ![0, p, 0] S8x1x64.size hp).emb (Shape.reshapeEquiv squeezes_S8x1x64_S8x64.numel_eq (ix2 b j)) a : ℕ) = _
  rw [he, Rect.emb_apply]
  match a with
  | ⟨0, _⟩ => show 0 + 1 * b.val = b.val; omega
  | ⟨1, _⟩ => show p + 1 * 0 = p; omega
  | ⟨2, _⟩ => show 0 + 1 * j.val = j.val; omega

/-- A 64-column piece of the output at `(b, j)` is the output's element at the piece's offsets plus `(0, b, j)`. -/
theorem piece64_emb_val (off : Fin 3 → ℕ) (h : ∀ a, off a + S1x8x64.size a ≤ S3x8x1000000.size a) (b : Fin 8) (j : Fin 64) (a : Fin 3) :
    ((((Memref.whole main_v1_scv : Memref sig .scVector .hbm S3x8x1000000 .f32).slice (Rect.unit (s := S3x8x1000000) off S1x8x64.size h) (fun _ => rfl)).squeeze S8x64 squeezes_S1x8x64_S8x64).view.emb (ix2 b j) a : ℕ)
      = off a + ((ix3 (⟨0, Nat.one_pos⟩ : Fin 1) b j : S1x8x64.Idx) a : ℕ) := by
  have he : Shape.reshapeEquiv squeezes_S1x8x64_S8x64.numel_eq (ix2 b j) = ix3 (⟨0, Nat.one_pos⟩ : Fin 1) b j :=
    reshapeEquiv_ix2_1ab _ b j
  show ((Rect.unit (s := S3x8x1000000) off S1x8x64.size h).emb (Shape.reshapeEquiv squeezes_S1x8x64_S8x64.numel_eq (ix2 b j)) a : ℕ) = _
  rw [he, Rect.emb_apply]
  show off a + 1 * _ = _
  rw [Nat.one_mul]

/-- A 64-column block of the input at `y` is the input's element at the block's offsets plus `y`. -/
theorem blk64_emb_val (off : Fin 3 → ℕ) (h : ∀ a, off a + S8x4x64.size a ≤ S8x4x1000000.size a) (y : S8x4x64.Idx) (a : Fin 3) :
    (((Memref.whole main_v0_scv : Memref sig .scVector .hbm S8x4x1000000 .f32).slice (Rect.unit (s := S8x4x1000000) off S8x4x64.size h) (fun _ => rfl)).view.emb y a : ℕ)
      = off a + (y a : ℕ) := by
  show ((Rect.unit (s := S8x4x1000000) off S8x4x64.size h).emb y a : ℕ) = _
  rw [Rect.emb_apply]
  show _ + 1 * _ = _
  rw [Nat.one_mul]
  rfl

/-! ## The first tail: 1152 columns from 998784, through a window of the first scratch -/

/-- The block of the input the first tail fetches. -/
abbrev xblk1152 : Memref sig .scVector .hbm S8x4x1152 .f32 :=
  (Memref.whole main_v0_scv : Memref sig .scVector .hbm S8x4x1000000 .f32).slice (Rect.unit (s := S8x4x1000000) ![0, 0, 998784] S8x4x1152.size inb_S8x4x1000000_S8x4x1152_0_0_998784) (fun _ => rfl)

/-- Row `p` of the first scratch, its first 1152 columns. -/
abbrev srow1152 (p : ℕ) (hp : ∀ a, (![0, p, 0] : Fin 3 → Nat) a + S8x1x1152.size a ≤ S8x4x3456.size a) : Memref sig .scVector .vmem S8x1152 .f32 :=
  ((Memref.whole cc0_scratch0 : Memref sig .scVector .vmem S8x4x3456 .f32).slice (Rect.unit (s := S8x4x3456) ![0, p, 0] S8x1x1152.size hp) (fun _ => rfl)).squeeze S8x1152 squeezes_S8x1x1152_S8x1152

/-- Channel `c` of the first tail, as the program slices it. -/
abbrev taAt (c : ℕ) (hc : ∀ a, (![c, 0, 998784] : Fin 3 → Nat) a + S1x8x1152.size a ≤ S3x8x1000000.size a) : Memref sig .scVector .hbm S8x1152 .f32 :=
  ((Memref.whole main_v1_scv : Memref sig .scVector .hbm S3x8x1000000 .f32).slice (Rect.unit (s := S3x8x1000000) ![c, 0, 998784] S1x8x1152.size hc) (fun _ => rfl)).squeeze S8x1152 squeezes_S1x8x1152_S8x1152

/-- What the first tail's chain leaves on channel `c`: the input's columns from 998784 are copied into the window
    `[0:8, 0:4, 0:1152]` of the scratch, then the scratch's row `p`, those columns, to the piece. -/
theorem landed_tailA (c : Fin 3) (p : ℕ) (hp4 : p < 4)
    (hc : ∀ a, (![c.val, 0, 998784] : Fin 3 → Nat) a + S1x8x1152.size a ≤ S3x8x1000000.size a)
    (hp : ∀ a, (![0, p, 0] : Fin 3 → Nat) a + S8x1x1152.size a ≤ S8x4x3456.size a)
    (hsrc : Cert.Spec.src c = ⟨p, hp4⟩)
    (xt : S8x4x1000000.Idx → Elt F .f32) (fs : S8x4x3456.Idx → Elt F .f32) (f0 : S3x8x1000000.Idx → Elt F .f32) :
    ∀ i ∈ (taAt c.val hc).view.set,
      (taAt c.val hc).view.writes (Elt F) f0 [⟨Rect.whole S8x1152, ReadAs.same.apply (View.read (Elt F) (srow1152 p hp).view
        ((Memref.whole cc0_scratch0 : Memref sig .scVector .vmem S8x4x3456 .f32).view.writes (Elt F) fs
          [⟨Rect.unit (s := S8x4x3456) ![0, 0, 0] S8x4x1152.size inb_S8x4x3456_S8x4x1152_0_0_0,
            ReadAs.same.apply (View.read (Elt F) xblk1152.view xt)⟩]))⟩] i = tgt xt i := by
  intro i hi
  obtain ⟨y, -, rfl⟩ := Finset.mem_map.mp hi
  obtain ⟨b, j, rfl⟩ : ∃ (b : Fin 8) (j : Fin 1152), y = ix2 b j := ⟨y 0, y 1, eq_ix2 y⟩
  have hw := View.read_writes_cons_emb (Val := Elt F) (taAt c.val hc).view f0 (Rect.whole S8x1152)
    (ReadAs.same.apply (View.read (Elt F) (srow1152 p hp).view ((Memref.whole cc0_scratch0 : Memref sig .scVector .vmem S8x4x3456 .f32).view.writes (Elt F) fs [⟨(Rect.unit (s := S8x4x3456) ![0, 0, 0] S8x4x1152.size inb_S8x4x3456_S8x4x1152_0_0_0), (ReadAs.same.apply (View.read (Elt F) xblk1152.view xt))⟩]))) [] (ix2 b j)
  rw [Rect.emb_whole_apply, View.read_apply, cast_eq] at hw
  refine hw.trans ?_
  change View.read (Elt F) (srow1152 p hp).view ((Memref.whole cc0_scratch0 : Memref sig .scVector .vmem S8x4x3456 .f32).view.writes (Elt F) fs [⟨(Rect.unit (s := S8x4x3456) ![0, 0, 0] S8x4x1152.size inb_S8x4x3456_S8x4x1152_0_0_0), (ReadAs.same.apply (View.read (Elt F) xblk1152.view xt))⟩]) (ix2 b j) = _
  rw [View.read_apply, cast_eq, row1152_emb p hp4 hp b j]
  have hx : (ix3 b (⟨p, hp4⟩ : Fin 4) (⟨j.val, Nat.lt_of_lt_of_le j.isLt (by decide)⟩ : Fin 3456) : S8x4x3456.Idx)
      = (Memref.whole cc0_scratch0 : Memref sig .scVector .vmem S8x4x3456 .f32).view.emb ((Rect.unit (s := S8x4x3456) ![0, 0, 0] S8x4x1152.size inb_S8x4x3456_S8x4x1152_0_0_0).emb (ix3 b (⟨p, hp4⟩ : Fin 4) j : S8x4x1152.Idx)) := by
    funext a; refine Fin.ext ?_
    show _ = (((Rect.unit (s := S8x4x3456) ![0, 0, 0] S8x4x1152.size inb_S8x4x3456_S8x4x1152_0_0_0).emb (ix3 b (⟨p, hp4⟩ : Fin 4) j : S8x4x1152.Idx)) a : ℕ)
    rw [Rect.emb_apply]
    match a with
    | ⟨0, _⟩ => show b.val = 0 + 1 * b.val; omega
    | ⟨1, _⟩ => show p = 0 + 1 * p; omega
    | ⟨2, _⟩ => show j.val = 0 + 1 * j.val; omega
  have hs := View.read_writes_cons_emb (Val := Elt F) (Memref.whole cc0_scratch0 : Memref sig .scVector .vmem S8x4x3456 .f32).view fs (Rect.unit (s := S8x4x3456) ![0, 0, 0] S8x4x1152.size inb_S8x4x3456_S8x4x1152_0_0_0) (ReadAs.same.apply (View.read (Elt F) xblk1152.view xt)) []
    (ix3 b (⟨p, hp4⟩ : Fin 4) j : S8x4x1152.Idx)
  rw [View.read_apply, cast_eq] at hs
  refine Eq.trans (congrArg ((Memref.whole cc0_scratch0 : Memref sig .scVector .vmem S8x4x3456 .f32).view.writes (Elt F) fs [⟨(Rect.unit (s := S8x4x3456) ![0, 0, 0] S8x4x1152.size inb_S8x4x3456_S8x4x1152_0_0_0), (ReadAs.same.apply (View.read (Elt F) xblk1152.view xt))⟩]) hx) (hs.trans ?_)
  change View.read (Elt F) xblk1152.view xt (ix3 b (⟨p, hp4⟩ : Fin 4) j : S8x4x1152.Idx) = _
  rw [View.read_apply, cast_eq]
  unfold tgt
  refine congrArg xt (funext fun a => Fin.ext ?_)
  rw [blk1152_emb_val]
  match a with
  | ⟨0, _⟩ =>
    show 0 + b.val = ((taAt c.val hc).view.emb (ix2 b j) 1 : ℕ)
    rw [piece1152_emb_val]; rfl
  | ⟨1, _⟩ =>
    have e0 : (taAt c.val hc).view.emb (ix2 b j) 0 = c := Fin.ext (by rw [piece1152_emb_val]; rfl)
    show 0 + p = ((Cert.Spec.src ((taAt c.val hc).view.emb (ix2 b j) 0)) : ℕ)
    rw [e0, hsrc, Nat.zero_add]
  | ⟨2, _⟩ =>
    show 998784 + j.val = ((taAt c.val hc).view.emb (ix2 b j) 2 : ℕ)
    rw [piece1152_emb_val]; rfl

/-! ## The second tail: the last 64 columns, through the second scratch -/

/-- The block of the input the second tail fetches. -/
abbrev xblk64 : Memref sig .scVector .hbm S8x4x64 .f32 :=
  (Memref.whole main_v0_scv : Memref sig .scVector .hbm S8x4x1000000 .f32).slice (Rect.unit (s := S8x4x1000000) ![0, 0, 999936] S8x4x64.size inb_S8x4x1000000_S8x4x64_0_0_999936) (fun _ => rfl)

/-- Row `p` of the second scratch. -/
abbrev srow64 (p : ℕ) (hp : ∀ a, (![0, p, 0] : Fin 3 → Nat) a + S8x1x64.size a ≤ S8x4x64.size a) : Memref sig .scVector .vmem S8x64 .f32 :=
  ((Memref.whole cc0_scratch1 : Memref sig .scVector .vmem S8x4x64 .f32).slice (Rect.unit (s := S8x4x64) ![0, p, 0] S8x1x64.size hp) (fun _ => rfl)).squeeze S8x64 squeezes_S8x1x64_S8x64

/-- Channel `c` of the second tail, as the program slices it. -/
abbrev tbAt (c : ℕ) (hc : ∀ a, (![c, 0, 999936] : Fin 3 → Nat) a + S1x8x64.size a ≤ S3x8x1000000.size a) : Memref sig .scVector .hbm S8x64 .f32 :=
  ((Memref.whole main_v1_scv : Memref sig .scVector .hbm S3x8x1000000 .f32).slice (Rect.unit (s := S3x8x1000000) ![c, 0, 999936] S1x8x64.size hc) (fun _ => rfl)).squeeze S8x64 squeezes_S1x8x64_S8x64

/-- What the second tail's chain leaves on channel `c`: the input's last 64 columns are copied into the second
    scratch, then the scratch's row `p` to the piece. -/
theorem landed_tailB (c : Fin 3) (p : ℕ) (hp4 : p < 4)
    (hc : ∀ a, (![c.val, 0, 999936] : Fin 3 → Nat) a + S1x8x64.size a ≤ S3x8x1000000.size a)
    (hp : ∀ a, (![0, p, 0] : Fin 3 → Nat) a + S8x1x64.size a ≤ S8x4x64.size a)
    (hsrc : Cert.Spec.src c = ⟨p, hp4⟩)
    (xt : S8x4x1000000.Idx → Elt F .f32) (fs1 : S8x4x64.Idx → Elt F .f32) (f0 : S3x8x1000000.Idx → Elt F .f32) :
    ∀ i ∈ (tbAt c.val hc).view.set,
      (tbAt c.val hc).view.writes (Elt F) f0 [⟨Rect.whole S8x64, ReadAs.same.apply (View.read (Elt F) (srow64 p hp).view
        (View.write (Elt F) (Memref.whole cc0_scratch1 : Memref sig .scVector .vmem S8x4x64 .f32).view fs1
          (ReadAs.same.apply (View.read (Elt F) xblk64.view xt)) Finset.univ))⟩] i = tgt xt i := by
  intro i hi
  obtain ⟨y, -, rfl⟩ := Finset.mem_map.mp hi
  obtain ⟨b, j, rfl⟩ : ∃ (b : Fin 8) (j : Fin 64), y = ix2 b j := ⟨y 0, y 1, eq_ix2 y⟩
  have hw := View.read_writes_cons_emb (Val := Elt F) (tbAt c.val hc).view f0 (Rect.whole S8x64)
    (ReadAs.same.apply (View.read (Elt F) (srow64 p hp).view
        (View.write (Elt F) (Memref.whole cc0_scratch1 : Memref sig .scVector .vmem S8x4x64 .f32).view fs1
          (ReadAs.same.apply (View.read (Elt F) xblk64.view xt)) Finset.univ))) [] (ix2 b j)
  rw [Rect.emb_whole_apply] at hw
  unfold View.read at hw
  simp only [cast_eq] at hw
  refine hw.trans ?_
  show View.write (Elt F) (Memref.whole cc0_scratch1 : Memref sig .scVector .vmem S8x4x64 .f32).view fs1
      (fun x => xt (xblk64.view.emb x)) Finset.univ ((srow64 p hp).view.emb (ix2 b j)) = _
  rw [row64_emb p hp4 hp b j]
  have hs := View.write_emb_of_mem (Val := Elt F) (v := (Memref.whole cc0_scratch1 : Memref sig .scVector .vmem S8x4x64 .f32).view) fs1
    (fun x => xt (xblk64.view.emb x)) (M := Finset.univ)
    (x := (ix3 b (⟨p, hp4⟩ : Fin 4) (⟨j.val, Nat.lt_of_lt_of_le j.isLt (by decide)⟩ : Fin 64) : S8x4x64.Idx)) (Finset.mem_univ _)
  simp only [cast_eq] at hs
  refine Eq.trans hs ?_
  unfold tgt
  refine congrArg xt (funext fun a => Fin.ext ?_)
  rw [blk64_emb_val]
  match a with
  | ⟨0, _⟩ =>
    show 0 + b.val = ((tbAt c.val hc).view.emb (ix2 b j) 1 : ℕ)
    rw [piece64_emb_val]; rfl
  | ⟨1, _⟩ =>
    have e0 : (tbAt c.val hc).view.emb (ix2 b j) 0 = c := Fin.ext (by rw [piece64_emb_val]; rfl)
    show 0 + p = ((Cert.Spec.src ((tbAt c.val hc).view.emb (ix2 b j) 0)) : ℕ)
    rw [e0, hsrc, Nat.zero_add]
  | ⟨2, _⟩ =>
    show 999936 + j.val = ((tbAt c.val hc).view.emb (ix2 b j) 2 : ℕ)
    rw [piece64_emb_val]; rfl

/-! ## The six tail pieces -/

theorem landedTA0 (xt : S8x4x1000000.Idx → Elt F .f32) (fs : S8x4x3456.Idx → Elt F .f32) (f0 : S3x8x1000000.Idx → Elt F .f32) :
    ∀ i ∈ (ta0).view.set,
      (ta0).view.writes (Elt F) f0 [⟨Rect.whole S8x1152, ReadAs.same.apply (View.read (Elt F) (srow1152 3 inb_S8x4x3456_S8x1x1152_0_3_0).view
        ((Memref.whole cc0_scratch0 : Memref sig .scVector .vmem S8x4x3456 .f32).view.writes (Elt F) fs
          [⟨Rect.unit (s := S8x4x3456) ![0, 0, 0] S8x4x1152.size inb_S8x4x3456_S8x4x1152_0_0_0,
            ReadAs.same.apply (View.read (Elt F) xblk1152.view xt)⟩]))⟩] i = tgt xt i :=
  landed_tailA 0 3 (by decide) inb_S3x8x1000000_S1x8x1152_0_0_998784 inb_S8x4x3456_S8x1x1152_0_3_0 rfl xt fs f0

theorem landedTA1 (xt : S8x4x1000000.Idx → Elt F .f32) (fs : S8x4x3456.Idx → Elt F .f32) (f0 : S3x8x1000000.Idx → Elt F .f32) :
    ∀ i ∈ (ta1).view.set,
      (ta1).view.writes (Elt F) f0 [⟨Rect.whole S8x1152, ReadAs.same.apply (View.read (Elt F) (srow1152 1 inb_S8x4x3456_S8x1x1152_0_1_0).view
        ((Memref.whole cc0_scratch0 : Memref sig .scVector .vmem S8x4x3456 .f32).view.writes (Elt F) fs
          [⟨Rect.unit (s := S8x4x3456) ![0, 0, 0] S8x4x1152.size inb_S8x4x3456_S8x4x1152_0_0_0,
            ReadAs.same.apply (View.read (Elt F) xblk1152.view xt)⟩]))⟩] i = tgt xt i :=
  landed_tailA 1 1 (by decide) inb_S3x8x1000000_S1x8x1152_1_0_998784 inb_S8x4x3456_S8x1x1152_0_1_0 rfl xt fs f0

theorem landedTA2 (xt : S8x4x1000000.Idx → Elt F .f32) (fs : S8x4x3456.Idx → Elt F .f32) (f0 : S3x8x1000000.Idx → Elt F .f32) :
    ∀ i ∈ (ta2).view.set,
      (ta2).view.writes (Elt F) f0 [⟨Rect.whole S8x1152, ReadAs.same.apply (View.read (Elt F) (srow1152 2 inb_S8x4x3456_S8x1x1152_0_2_0).view
        ((Memref.whole cc0_scratch0 : Memref sig .scVector .vmem S8x4x3456 .f32).view.writes (Elt F) fs
          [⟨Rect.unit (s := S8x4x3456) ![0, 0, 0] S8x4x1152.size inb_S8x4x3456_S8x4x1152_0_0_0,
            ReadAs.same.apply (View.read (Elt F) xblk1152.view xt)⟩]))⟩] i = tgt xt i :=
  landed_tailA 2 2 (by decide) inb_S3x8x1000000_S1x8x1152_2_0_998784 inb_S8x4x3456_S8x1x1152_0_2_0 rfl xt fs f0

theorem landedTB0 (xt : S8x4x1000000.Idx → Elt F .f32) (fs1 : S8x4x64.Idx → Elt F .f32) (f0 : S3x8x1000000.Idx → Elt F .f32) :
    ∀ i ∈ (tb0).view.set,
      (tb0).view.writes (Elt F) f0 [⟨Rect.whole S8x64, ReadAs.same.apply (View.read (Elt F) (srow64 3 inb_S8x4x64_S8x1x64_0_3_0).view
        (View.write (Elt F) (Memref.whole cc0_scratch1 : Memref sig .scVector .vmem S8x4x64 .f32).view fs1
          (ReadAs.same.apply (View.read (Elt F) xblk64.view xt)) Finset.univ))⟩] i = tgt xt i :=
  landed_tailB 0 3 (by decide) inb_S3x8x1000000_S1x8x64_0_0_999936 inb_S8x4x64_S8x1x64_0_3_0 rfl xt fs1 f0

theorem landedTB1 (xt : S8x4x1000000.Idx → Elt F .f32) (fs1 : S8x4x64.Idx → Elt F .f32) (f0 : S3x8x1000000.Idx → Elt F .f32) :
    ∀ i ∈ (tb1).view.set,
      (tb1).view.writes (Elt F) f0 [⟨Rect.whole S8x64, ReadAs.same.apply (View.read (Elt F) (srow64 1 inb_S8x4x64_S8x1x64_0_1_0).view
        (View.write (Elt F) (Memref.whole cc0_scratch1 : Memref sig .scVector .vmem S8x4x64 .f32).view fs1
          (ReadAs.same.apply (View.read (Elt F) xblk64.view xt)) Finset.univ))⟩] i = tgt xt i :=
  landed_tailB 1 1 (by decide) inb_S3x8x1000000_S1x8x64_1_0_999936 inb_S8x4x64_S8x1x64_0_1_0 rfl xt fs1 f0

theorem landedTB2 (xt : S8x4x1000000.Idx → Elt F .f32) (fs1 : S8x4x64.Idx → Elt F .f32) (f0 : S3x8x1000000.Idx → Elt F .f32) :
    ∀ i ∈ (tb2).view.set,
      (tb2).view.writes (Elt F) f0 [⟨Rect.whole S8x64, ReadAs.same.apply (View.read (Elt F) (srow64 2 inb_S8x4x64_S8x1x64_0_2_0).view
        (View.write (Elt F) (Memref.whole cc0_scratch1 : Memref sig .scVector .vmem S8x4x64 .f32).view fs1
          (ReadAs.same.apply (View.read (Elt F) xblk64.view xt)) Finset.univ))⟩] i = tgt xt i :=
  landed_tailB 2 2 (by decide) inb_S3x8x1000000_S1x8x64_2_0_999936 inb_S8x4x64_S8x1x64_0_2_0 rfl xt fs1 f0

end Cert.Proof.KI

end
-- ==== Proof.KI.Launch.lean ====
import proofs.«216280_g62835371540565_cont_9to1_m_1109_19_alg».proof.Defs
import Idealize.ShloMosaic.Lib.SparseCore.Launch
import Idealize.ShloMosaic.Lib.StableHlo.Run
import Idealize.ShloMosaic.Lib.Pipeline.Kit
import Idealize.ShloMosaic.Lib.Tactic
import proofs.«216280_g62835371540565_cont_9to1_m_1109_19_alg».proof.Proof.KI.Body
import proofs.«216280_g62835371540565_cont_9to1_m_1109_19_alg».proof.Proof.KI.Cores
import proofs.«216280_g62835371540565_cont_9to1_m_1109_19_alg».proof.Proof.KI.Value
import proofs.«216280_g62835371540565_cont_9to1_m_1109_19_alg».proof.Proof.Gen.KernelIdeal
import proofs.«216280_g62835371540565_cont_9to1_m_1109_19_alg».proof.Proof.Gen.KernelIdeal.Skeleton

noncomputable section

/-
  The launch. The TensorCore transposes the argument, hands the two SparseCores the transposed array (a read share
  each) and the output array (each worker's pieces), waits for them, and transposes what comes back. Each SparseCore
  deals its half to its sixteen workers and collects it again. After the call every piece holds the target contents,
  so the output array is the target function of the transposed argument, and the last transpose is taken of that.
-/
namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xtW" => (Memref.whole Cert.KernelIdeal.main_v0_scv : Memref Cert.KernelIdeal.sig Kind.scVector Space.hbm Cert.KernelIdeal.S8x4x1000000 EltTy.f32)
local notation "otW" => (Memref.whole Cert.KernelIdeal.main_v1_scv : Memref Cert.KernelIdeal.sig Kind.scVector Space.hbm Cert.KernelIdeal.S3x8x1000000 EltTy.f32)
local notation "s0W" => (Memref.whole Cert.KernelIdeal.cc0_scratch0 : Memref Cert.KernelIdeal.sig Kind.scVector Space.vmem Cert.KernelIdeal.S8x4x3456 EltTy.f32)
local notation "s1W" => (Memref.whole Cert.KernelIdeal.cc0_scratch1 : Memref Cert.KernelIdeal.sig Kind.scVector Space.vmem Cert.KernelIdeal.S8x4x64 EltTy.f32)

variable (m : (ℓ : Loc nD τ sig) → Buf (Elt F) ℓ) (ρ : Dev nD → PrngReg)
variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The argument and the result, as the TensorCore names them. -/
abbrev aLoc (d : Dev nD) : Loc nD τ sig := (SparseCore.T d).loc main_arg0
abbrev rLoc (d : Dev nD) : Loc nD τ sig := (SparseCore.T d).loc main_v2

/-- The transposed argument, the kernel's target output, and the result. -/
def xtv (d : Dev nD) : Buf (Elt F) (xtLoc d) := transpose S8x4x1000000 [0, 2, 1] (m (aLoc d)) transposes_S8x1000000x4_S8x4x1000000_0_2_1
def gv (d : Dev nD) : Buf (Elt F) (otLoc d) := tgt (xtv m d)
def resv (d : Dev nD) : Buf (Elt F) (rLoc d) := transpose S8x1000000x3 [1, 2, 0] (gv m d) transposes_S3x8x1000000_S8x1000000x3_1_2_0

omit [FloatOps F] in
instance goTile_storable (d : Dev nD) (L : grid0.Coords) (q) (xt : Buf (Elt F) (xtLoc d)) (f : Buf (Elt F) (otLoc d)) : BI.Storable (upEmb : UEmb _ 𝕄) (goTile d L q xt f) := by unfold goTile; infer_instance

/-- What a SparseCore is handed (at output contents `f`), and what a worker is. -/
def coreP (d : Dev nD) (c : Fin ((K (F := F)).nCore 0)) (f : Buf (Elt F) (otLoc d)) : sProp 𝕄 := coreRes d c (xtv m d) f
def tileP (d : Dev nD) (c : Fin ((K (F := F)).nCore 0)) (i : Fin ((K (F := F)).nSub 0)) (f : Buf (Elt F) (otLoc d)) : sProp 𝕄 :=
  goTile d (coordsV (cOf (F := F) c) (iOf (F := F) i)) (qT (F := F) c i) (xtv m d) f

instance coreP_storable (d c f) : BI.Storable (upEmb : UEmb _ 𝕄) (coreP (F := F) m d c f) := by unfold coreP; infer_instance
instance tileP_storable (d c i f) : BI.Storable (upEmb : UEmb _ 𝕄) (tileP (F := F) m d c i f) := by unfold tileP; infer_instance

def P : (K (F := F)).Pay (nD := nD) (Val := Elt F) (Name := ℕ) (U := UU) where
  st := fun q d c => match q with | 0 => coreP m d c (m (otLoc d))
  dn := fun q d c => match q with | 0 => coreP m d c (gv m d)
  go := fun q d c i => match q with | 0 => tileP m d c i (m (otLoc d))
  td := fun q d c i => match q with | 0 => tileP m d c i (gv m d)
  x := fun _ _ => iprop(emp)

instance P_storable : (P (F := F) m).IsStorable where
  st q d c := match q with | 0 => (inferInstance : BI.Storable (upEmb : UEmb _ 𝕄) (coreP m d c (m (otLoc d))))
  dn q d c := match q with | 0 => (inferInstance : BI.Storable (upEmb : UEmb _ 𝕄) (coreP m d c (gv m d)))
  go q d c i := match q with | 0 => (inferInstance : BI.Storable (upEmb : UEmb _ 𝕄) (tileP m d c i (m (otLoc d))))
  td q d c i := match q with | 0 => (inferInstance : BI.Storable (upEmb : UEmb _ 𝕄) (tileP m d c i (gv m d)))

/-! ## The launch theorem's obligations -/

theorem defs₀_vector (c : Fin τ.nSC) (s : Fin τ.nSub) :
    defs₀ (F := F) (.scVector c s) 0 ()
      = SparseCore.onTile hcore0 hsub0 (fun c s => cc0__sph2vec_sc (coordsV c s)
          xtW (Memref.isWhole_whole _) otW (Memref.isWhole_whole _) s0W (Memref.isWhole_whole _) s1W (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (qT (F := F) c i) (xtv m d) (gv m d) (m (otLoc d))
    (fun k fs => landed2 _ k (xtv m d) fs (m (otLoc d))) (fun k fs => landed3 _ k (xtv m d) fs (m (otLoc d))) (fun k fs => landed4 _ k (xtv m d) fs (m (otLoc d)))
    (fun fs => landedTA0 (xtv m d) fs (m (otLoc d))) (fun fs => landedTA1 (xtv m d) fs (m (otLoc d))) (fun fs => landedTA2 (xtv m d) fs (m (otLoc d)))
    (fun fs1 => landedTB0 (xtv m d) fs1 (m (otLoc d))) (fun fs1 => landedTB1 (xtv m d) fs1 (m (otLoc d))) (fun fs1 => landedTB2 (xtv m d) fs1 (m (otLoc d)))
    O W hO).trans (wp_mono frame _ _ fun _ => obl_post)

omit [FloatOps F] in
theorem vecSplit_gen (d : Dev nD) (c : Fin ((K (F := F)).nCore 0)) (xt : Buf (Elt F) (xtLoc d)) (f g : Buf (Elt F) (otLoc d)) :
    iprop((xtLoc d ↦{qC (F := F) c} xt) ∗ bigSep Finset.univ fun i : Fin ((K (F := F)).nSub 0) => tileOut d (coordsV (cOf (F := F) c) (iOf (F := F) i)) f)
      ⊢ |={Set.univ}=> iprop((bigSep Finset.univ fun i : Fin ((K (F := F)).nSub 0) => goTile d (coordsV (cOf (F := F) c) (iOf (F := F) i)) (qT (F := F) c i) xt f)
        ∗ ((bigSep Finset.univ fun i : Fin ((K (F := F)).nSub 0) => goTile d (coordsV (cOf (F := F) c) (iOf (F := F) i)) (qT (F := F) c i) xt g)
          -∗ iprop((xtLoc d ↦{qC (F := F) c} xt) ∗ bigSep Finset.univ fun i : Fin ((K (F := F)).nSub 0) => tileOut d (coordsV (cOf (F := F) c) (iOf (F := F) i)) g))) := by
  unfold goTile
  rw [bigSep_sep', bigSep_sep']
  iintro ⟨Hx, Ho⟩
  ihave Hsp := (Transfers.pointsTo_toks_split (qC (F := F) c) ((K (F := F)).nSub 0)) $$ Hx
  icases Hsp with ⟨Hrem, Htoks⟩
  imodintro
  isplitl [Htoks Ho]
  · isplitl [Htoks]; · iexact Htoks
    iexact Ho
  iintro ⟨Htoks', Ho'⟩
  isplitl [Hrem Htoks']
  · iapply (Transfers.pointsTo_toks_join (qC (F := F) c) ((K (F := F)).nSub 0))
    isplitl [Hrem]; · iexact Hrem
    iexact Htoks'
  iexact Ho'

theorem vecSplit : (K (F := F)).VecSplit' (P m) 0 := by
  intro d c
  exact vecSplit_gen (F := F) d c (xtv m d) (m (otLoc d)) (gv m d)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev S4 : Finset (DevRef τ sig) := {a', x', o', r'}
/-- The two transposes of @main. -/
abbrev op1 : HloOp τ sig (Elt F) := StableHlo.unary main_arg0 main_v0 ((transpose S8x4x1000000 [0, 2, 1] · transposes_S8x1000000x4_S8x4x1000000_0_2_1) : (⟨S8x1000000x4, .f32⟩ : BufTy).Contents (Elt F) → (⟨S8x4x1000000, .f32⟩ : BufTy).Contents (Elt F))
abbrev op2 : HloOp τ sig (Elt F) := StableHlo.unary main_v1 main_v2 ((transpose S8x1000000x3 [1, 2, 0] · transposes_S3x8x1000000_S8x1000000x3_1_2_0) : (⟨S3x8x1000000, .f32⟩ : BufTy).Contents (Elt F) → (⟨S8x1000000x3, .f32⟩ : BufTy).Contents (Elt F))

omit [FloatOps F] in
theorem held_S4 (d : Dev nD) (W : Valuation τ sig (Elt F)) :
    (held (T d) S4 W : sProp 𝕄) = iprop((aLoc d ↦{fullShare} W a') ∗ (xtLoc d ↦{fullShare} W x') ∗ (otLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xtLoc d ↦{fullShare} W main_v0) ∗ (otLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; then the one after the call: the transposed argument in place, the output at the target. -/
def V0 (d : Dev nD) : Valuation τ sig (Elt F) := fun b => m (d, b)
def V2 (d : Dev nD) : Valuation τ sig (Elt F) := Function.update (Function.update (V0 m d) x' (xtv m d)) o' (gv m d)

theorem unscoped_held (d : Dev nD) : (unscopedBufs d (fun b => m ((SparseCore.T d).loc b)) : sProp 𝕄) = held (T d) S4 (V0 m d) := by
  rw [unscopedBufs_eq, held_S4]; rfl

theorem hop1 : (op1 (F := F)).bufs ⊆ S4 := show ({a', x'} : Finset (DevRef τ sig)) ⊆ S4 by decide
theorem hop2 : (op2 (F := F)).bufs ⊆ S4 := show ({o', r'} : Finset (DevRef τ sig)) ⊆ S4 by decide

theorem held_W1 (d : Dev nD) :
    (held (T d) S4 ((op1 (F := F)).result (V0 m d)) : sProp 𝕄)
      = iprop((aLoc d ↦{fullShare} m (aLoc d)) ∗ (xtLoc d ↦{fullShare} xtv m d) ∗ (otLoc d ↦{fullShare} m (otLoc d)) ∗ rLoc d ↦{fullShare} m (rLoc d)) := by
  rw [held_S4,
    (op1 (F := F)).result_of_not_mem (V0 m d) (b := a') (show a' ∉ ({x'} : Finset (DevRef τ sig)) by decide),
    (op1 (F := F)).result_of_not_mem (V0 m d) (b := o') (show o' ∉ ({x'} : Finset (DevRef τ sig)) by decide),
    (op1 (F := F)).result_of_not_mem (V0 m d) (b := r') (show r' ∉ ({x'} : Finset (DevRef τ sig)) by decide),
    show (op1 (F := F)).result (V0 m d) x' = xtv m d from StableHlo.unary_result main_arg0 main_v0 _ _ _ (V0 m d)]
  rfl

theorem held_V2 (d : Dev nD) :
    (held (T d) S4 (V2 m d) : sProp 𝕄)
      = iprop((aLoc d ↦{fullShare} m (aLoc d)) ∗ (xtLoc d ↦{fullShare} xtv m d) ∗ (otLoc d ↦{fullShare} gv m d) ∗ rLoc d ↦{fullShare} m (rLoc d)) := by
  rw [held_S4]
  unfold V2
  rw [Function.update_of_ne (show a' ≠ o' by decide), Function.update_of_ne (show a' ≠ x' by decide),
    Function.update_of_ne (show x' ≠ o' by decide), Function.update_self, Function.update_self,
    Function.update_of_ne (show r' ≠ o' by decide), Function.update_of_ne (show r' ≠ x' by decide)]
  rfl

theorem held_W3 (d : Dev nD) :
    (held (T d) S4 ((op2 (F := F)).result (V2 m d)) : sProp 𝕄)
      = iprop((aLoc d ↦{fullShare} m (aLoc d)) ∗ (xtLoc d ↦{fullShare} xtv m d) ∗ (otLoc d ↦{fullShare} gv m d) ∗ rLoc d ↦{fullShare} resv m d) := by
  rw [held_S4,
    (op2 (F := F)).result_of_not_mem (V2 m d) (b := a') (show a' ∉ ({r'} : Finset (DevRef τ sig)) by decide),
    (op2 (F := F)).result_of_not_mem (V2 m d) (b := x') (show x' ∉ ({r'} : Finset (DevRef τ sig)) by decide),
    (op2 (F := F)).result_of_not_mem (V2 m d) (b := o') (show o' ∉ ({r'} : Finset (DevRef τ sig)) by decide),
    show (op2 (F := F)).result (V2 m d) r' = resv m d from (StableHlo.unary_result main_v1 main_v2 _ _ _ (V2 m d)).trans (by unfold V2 resv; rw [Function.update_self])]
  unfold V2
  rw [Function.update_of_ne (show a' ≠ o' by decide), Function.update_of_ne (show a' ≠ x' by decide),
    Function.update_of_ne (show x' ≠ o' by decide), Function.update_self, Function.update_self]
  rfl

/-- What @main leaves the claim: the argument unchanged, the result at the second transpose of the target. -/
abbrev FIN (d : Dev nD) : sProp 𝕄 := iprop((aLoc d ↦{fullShare} m (aLoc d)) ∗ rLoc d ↦{fullShare} resv m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose
  iapply (wp_hlo_within 𝒱 (SparseCore.T d) none Set.univ (op := op1) (S := S4) hop1 (V := V0 m d)) $$ [Hb Hheld]
  · isplitl [Hb]; · iexact Hb
    iexact Hheld
  iintro ⟨Hb, Hheld⟩
  rw [wp_ret]; imodintro
  ihave Hh := (Entails.of_eq (held_W1 (F := F) m d)) $$ Hheld
  icases Hh with ⟨Ha, Hx, Ho, Hr⟩
  -- the call: the two arrays dealt to the SparseCores and collected again
  ihave Hsp := (cores_split (F := F) d (xtv m d) (m (otLoc d))) $$ [Hx Ho]
  · isplitl [Hx]; · iexact Hx
    iexact Ho
  icases Hsp with ⟨Hrem, Hcores⟩
  iapply ((K (F := F)).wp_run (D (F := F)) 𝒱 (EH := EH) (P := P m) κ d 0) $$ [Hst Hcores Hb Ha Hr Hrem]
  isplitr; · iexact Hctx
  isplitl [Hst]; · iexact Hst
  isplitl [Hcores]; · iexact Hcores
  iintro ⟨Hst, Hdn⟩
  ihave Hj := (cores_join (F := F) d (xtv m d) (gv m d)) $$ [Hrem Hdn]
  · isplitl [Hrem]; · iexact Hrem
    iexact Hdn
  icases Hj with ⟨Hx, Ho⟩
  -- the second transpose
  iapply (wp_hlo_within 𝒱 (SparseCore.T d) none Set.univ (op := op2) (S := S4) hop2 (V := V2 m d)) $$ [Hb Ha Hx Ho Hr]
  · isplitl [Hb]; · iexact Hb
    rw [held_V2]
    isplitl [Ha]; · iexact Ha
    isplitl [Hx]; · iexact Hx
    isplitl [Ho]; · iexact Ho
    iexact Hr
  iintro ⟨Hb, Hheld⟩
  ihave Hh := (Entails.of_eq (held_W3 (F := F) m d)) $$ Hheld
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop := s'.mem.mem (rLoc d) = resv m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := resv m d)) $$ [HSI Hr]
  · isplitl [HSI] <;> iassumption
  icases H with %h2
  ipureintro; exact ⟨funext fun i => h2 i (Finset.mem_univ i), funext fun i => h1 i (Finset.mem_univ i)⟩

/-! ## The program's run -/

/-- Every weakly fair execution ends with the result array at the second transpose of the target and the argument
    unchanged. -/
def QC : PUnit × MemSt nD τ sig (Elt F) → Prop := fun r => ∀ c : Dev nD, r.2.mem (rLoc c) = resv m c ∧ r.2.mem (aLoc c) = m (aLoc c)

theorem run_main [∀ e, Nonempty (Elt F e)] : θ_run (defs (F := F)) (threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KI.Bridge.lean ====
/-
  The two transposes around the kernel, composed with what the kernel computes, are the specification: the argument
  `x : [8, 1000000, 4]` is read as `xt (b, ch, n) = x (b, n, ch)`, the kernel's output is
  `out_t (c, b, n) = xt (b, src c, n)`, and the result `(b, n, c) ↦ out_t (c, b, n)` is `x (b, n, src c)`.
-/
import proofs.«216280_g62835371540565_cont_9to1_m_1109_19_alg».proof.Proof.KI.Pieces
import proofs.«216280_g62835371540565_cont_9to1_m_1109_19_alg».proof.Proof.Spec
import Idealize.ShloMosaic.Lib.Pipeline.Value
import Idealize.ShloMosaic.Lib.ValueIdx

namespace Cert.Proof.KI

open Cert.KernelIdeal Cert.KernelIdeal.Gen
open Idealize.ShloMosaic Idealize.ShloMosaic.ValueIdx

/-- The statement for any evidence of the two shape relations (they are propositions, so which proof is cited does
    not matter). -/
theorem bridge_of {α : Type} (h₁ : S8x1000000x4.Transposes [0, 2, 1] S8x4x1000000)
    (h₂ : S3x8x1000000.Transposes [1, 2, 0] S8x1000000x3) (x : S8x1000000x4.Idx → α) :
    transpose S8x1000000x3 [1, 2, 0] (fun y : S3x8x1000000.Idx =>
      (transpose S8x4x1000000 [0, 2, 1] x h₁) (ix3 (y 1) (Cert.Spec.src (y 0)) (y 2))) h₂ = Cert.Spec.G x := by
  funext j
  obtain ⟨b, n, c, rfl⟩ : ∃ (b : Fin 8) (n : Fin 1000000) (c : Fin 3), j = ix3 b n c := ⟨j 0, j 1, j 2, eq_ix3 j⟩
  -- the result at `(b, n, c)` is the kernel's output at `(c, b, n)`
  rw [transpose_apply [1, 2, 0] _ h₂ (ix3 b n c) (ix3 c b n)
    (by intro a; match a with | ⟨0, _⟩ => rfl | ⟨1, _⟩ => rfl | ⟨2, _⟩ => rfl)]
  -- which is the transposed argument at `(b, src c, n)`, the argument at `(b, n, src c)`
  show transpose S8x4x1000000 [0, 2, 1] x h₁ (ix3 b (Cert.Spec.src c) n) = x (ix3 b n (Cert.Spec.src c))
  exact transpose_apply [0, 2, 1] x h₁ (ix3 b (Cert.Spec.src c) n) (ix3 b n (Cert.Spec.src c))
    (by intro a; match a with | ⟨0, _⟩ => rfl | ⟨1, _⟩ => rfl | ⟨2, _⟩ => rfl)

/-- The statement at the proved shape relations. -/
theorem bridge {α : Type} (x : S8x1000000x4.Idx → α) :
    transpose S8x1000000x3 [1, 2, 0] (fun y : S3x8x1000000.Idx =>
      (transpose S8x4x1000000 [0, 2, 1] x transposes_S8x1000000x4_S8x4x1000000_0_2_1)
        (ix3 (y 1) (Cert.Spec.src (y 0)) (y 2))) transposes_S3x8x1000000_S8x1000000x3_1_2_0 = Cert.Spec.G x :=
  bridge_of _ _ x

end Cert.Proof.KI
-- ==== Proof.RefRun.lean ====
/-
  The reference program's run, read back, and its value.

  The reference takes, of the four components of every point of the input, the last three (a slice at offset 1 on the
  last axis) and then reorders them by the index table (2, 0, 1) (a gather along the last axis, whose start indices are
  the table after the index normalisation (a negative index has the axis length added), and whose result is masked by
  an in-bounds test of the table).
-/
import proofs.«216280_g62835371540565_cont_9to1_m_1109_19_alg».proof.Defs
import proofs.«216280_g62835371540565_cont_9to1_m_1109_19_alg».proof.Proof.Gen.ReferenceIdeal
import proofs.«216280_g62835371540565_cont_9to1_m_1109_19_alg».proof.Proof.Spec
import Idealize.ShloMosaic.Lib.StableHlo.Run
import Idealize.ShloMosaic.Lib.Pipeline.Value
import Idealize.ShloMosaic.Lib.ValueIdx

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- @main's operations in order, the call of the take function (and, inside it, of the select function) unfolded at
    its place: the index table, the slice, then the take's twenty-three operations over the call's buffers. -/
abbrev ops : List (HloOp τ sig (Elt F)) :=
  [ nullary main_c (fun i => lit0 (S3.rowMajor i)),
    unary main_arg0 main_v0 ((extractStridedSlice S8x1000000x3 ![0, 0, 1] · slices_S8x1000000x4_S8x1000000x3_0_0_1) : (⟨S8x1000000x4, .f32⟩ : BufTy).Contents (Elt F) → (⟨S8x1000000x3, .f32⟩ : BufTy).Contents (Elt F)),
    TRef.nullary main_call0.c (constantI S_ 32 0#32),
    TRef.unary main_call0.c main_call0.v0 (broadcastInDim S3 ![] bcast_S_S3),
    TRef.binary (.of main_c) main_call0.v0 main_call0.v1 (cmpi .slt),
    TRef.nullary main_call0.c_0 (constantI S_ 32 3#32),
    TRef.unary main_call0.c_0 main_call0.v2 (broadcastInDim S3 ![] bcast_S_S3),
    TRef.binary (.of main_c) main_call0.v2 main_call0.v3 addi,
    TRef.ternary main_call0.v1 main_call0.v3 (.of main_c) main_call0.call0.v0 select,
    TRef.unary main_call0.call0.v0 main_call0.v5 (broadcastInDim S3x1 ![0] bcast_S3_S3x1_0),
    TRef.nullary main_call0.c_1 (constantI S1 32 2#32),
    TRef.nullary main_call0.c_2 (constantI S_ 32 0#32),
    TRef.unary main_call0.c_2 main_call0.v6 (broadcastInDim S3x1 ![] bcast_S_S3x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S3x1 ![0, 1] bcast_S1x1_S3x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S3x1_S3_d1 h_S_),
    TRef.binary (.of main_v0) main_call0.v5 main_call0.v13 (fun x i => Host.gather gather_S8x1000000x3_S3x1_S8x1000000x3_01_2_n_n_2_1_810000001 x i),
    TRef.unary main_call0.v12 main_call0.v14 (broadcastInDim S8x1000000x3 ![2] bcast_S3_S8x1000000x3_2),
    TRef.nullary main_call0.cst (constant S_ .f32 0x7FC00000#32),
    TRef.unary main_call0.cst main_call0.v15 (broadcastInDim S8x1000000x3 ![] bcast_S_S8x1000000x3),
    TRef.ternary main_call0.v14 main_call0.v13 main_call0.v15 main_call0.v16 select ]

set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub ..⟩

/-! ## The composed term -/

/-- The index table (2, 0, 1). -/
def tbl : IVec S3 32 := fun i => lit0 (S3.rowMajor i)

/-- The table normalised: an entry below zero has 3 added (none is). -/
def idxN : IVec S3 32 :=
  select (cmpi .slt tbl (broadcastInDim S3 ![] bcast_S_S3 (constantI S_ 32 0#32)))
    (addi tbl (broadcastInDim S3 ![] bcast_S_S3 (constantI S_ 32 3#32))) tbl

/-- The normalised table as a column of one-component start indices. -/
def idxC : IVec S3x1 32 := broadcastInDim S3x1 ![0] bcast_S3_S3x1_0 idxN

/-- The in-bounds mask of the start indices: entry by entry, 0 ≤ index ≤ 2. -/
def mask : IVec S3 1 :=
  Host.reduce IntOp.andi
    (andi (cmpi .sge idxC (broadcastInDim S3x1 ![] bcast_S_S3x1 (constantI S_ 32 0#32)))
      (cmpi .sle idxC (broadcastInDim S3x1 ![0, 1] bcast_S1x1_S3x1_0_1 (broadcastInDim S1x1 ![1] bcast_S1_S1x1_1 (constantI S1 32 2#32)))))
    (constantI S_ 1 1#1) reducesTo_S3x1_S3_d1 h_S_

/-- The result as the operations' composed term of the argument: the slice gathered at the start indices, kept where
    the mask is set, the constant elsewhere. -/
def out (x : (⟨S8x1000000x4, .f32⟩ : BufTy).Contents (Elt F)) : (⟨S8x1000000x3, .f32⟩ : BufTy).Contents (Elt F) :=
  select (broadcastInDim S8x1000000x3 ![2] bcast_S3_S8x1000000x3_2 mask)
    (Host.gather gather_S8x1000000x3_S3x1_S8x1000000x3_01_2_n_n_2_1_810000001
      (extractStridedSlice S8x1000000x3 ![0, 0, 1] x slices_S8x1000000x4_S8x1000000x3_0_0_1) idxC)
    (broadcastInDim S8x1000000x3 ![] bcast_S_S8x1000000x3 (constant S_ .f32 0x7FC00000#32))

attribute [local irreducible] Host.reduce Host.gather in
set_option maxRecDepth 8192 in
set_option maxHeartbeats 1000000 in
/-- The fold of the operations at the result buffer is `out` of the argument's contents: each operation's result at
    its own buffer is its function's value and at any other buffer what was there, and the typed references' casts are
    the identity at these literal references. The reduction and the gather are kept folded meanwhile (the equation
    never looks inside them). -/
theorem out_eq (V : Valuation τ sig (Elt F)) :
    after ops V (main_v1 : DevRef τ sig) = out (V (main_arg0 : DevRef τ sig)) := by
  after_results_simp
  simp only [TRef.ofBuf, TRef.toBuf, cast_eq]
  unfold out mask idxC idxN tbl
  rfl

set_option maxHeartbeats 1000000 in
/-- No operation writes the argument's buffer. -/
theorem arg0_eq (V : Valuation τ sig (Elt F)) :
    after ops V (main_arg0 : DevRef τ sig) = V (main_arg0 : DevRef τ sig) := by
  after_results_simp

/-- On every device, for any float values, from any memory with zero counters: every weakly fair execution of @main
    terminates with the result at the operations' composed term of the argument and the argument unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = out (m ((c.tc : Thread nD τ).loc main_arg0))
      ∧ r.2.mem ((c.tc : Thread nD τ).loc main_arg0) = m ((c.tc : Thread nD τ).loc main_arg0) :=
  (θ_run defs _ _).mono (fun _ h c => ⟨(h c main_v1).trans (out_eq _), (h c main_arg0).trans (arg0_eq _)⟩)
    (run_seq scopedRefs_eq scopedSems_eq defs main (fun _ => ops) main_eq (fun _ => ops_sub) m ρ)

/-! ## The composed term read at an index -/

/-- The gather's dimension numbers. -/
abbrev gd := gather_S8x1000000x3_S3x1_S8x1000000x3_01_2_n_n_2_1_810000001

section Gather
variable {w : Nat} (idx : IVec S3x1 w) (b : Fin 8) (n : Fin 1000000) (ch : Fin 3)

/-- On the two offset axes the operand index is the result's coordinate. -/
theorem operandIdx_0 : (gd.operandIdx (ix3 b n ch) idx (0 : Fin 3)).val = b.val := by
  show gd.start (ix3 b n ch) idx (0 : Fin 3) + gd.batchCoord (ix3 b n ch) (0 : Fin 3) + gd.offCoord (ix3 b n ch) (0 : Fin 3) = _
  rw [GatherDims.batchCoord_eq_zero _ _ _ List.not_mem_nil, Nat.add_zero]
  unfold GatherDims.start GatherDims.offCoord
  rw [dif_neg (by decide), dif_pos (by decide), Nat.zero_add]
  rfl

theorem operandIdx_1 : (gd.operandIdx (ix3 b n ch) idx (1 : Fin 3)).val = n.val := by
  show gd.start (ix3 b n ch) idx (1 : Fin 3) + gd.batchCoord (ix3 b n ch) (1 : Fin 3) + gd.offCoord (ix3 b n ch) (1 : Fin 3) = _
  rw [GatherDims.batchCoord_eq_zero _ _ _ List.not_mem_nil, Nat.add_zero]
  unfold GatherDims.start GatherDims.offCoord
  rw [dif_neg (by decide), dif_pos (by decide), Nat.zero_add]
  rfl

/-- On the collapsed axis it is the start index of the result's last coordinate, read signed and clamped into [0, 2]. -/
theorem operandIdx_2 : (gd.operandIdx (ix3 b n ch) idx (2 : Fin 3)).val = min (idx (ix2 ch 0)).toInt.toNat 2 := by
  show gd.start (ix3 b n ch) idx (2 : Fin 3) + gd.batchCoord (ix3 b n ch) (2 : Fin 3) + gd.offCoord (ix3 b n ch) (2 : Fin 3) = _
  rw [GatherDims.batchCoord_eq_zero _ _ _ List.not_mem_nil, Nat.add_zero]
  unfold GatherDims.start GatherDims.offCoord
  rw [dif_pos (by decide), dif_neg (by decide), Nat.add_zero]
  have hsi : gd.siIdx (ix3 b n ch) ⟨List.idxOf (2 : Fin 3) gd.startIndexMap,
      List.idxOf_lt_length_iff.2 (by decide)⟩ = ix2 ch 0 := by
    funext c; refine Fin.ext ?_
    match c with
    | ⟨0, _⟩ => rfl
    | ⟨1, _⟩ => rfl
  rw [hsi]
  rfl

/-- The gather read at a point: the operand at the same point, its component the start index of the result's
    component, read signed and clamped into [0, 2]. -/
theorem gather_apply {α : Type} (x : S8x1000000x3.Idx → α) :
    Host.gather gd x idx (ix3 b n ch)
      = x (ix3 b n ⟨min (idx (ix2 ch 0)).toInt.toNat 2, by omega⟩) := by
  unfold Host.gather
  congr 1
  funext a
  refine Fin.ext ?_
  match a with
  | ⟨0, _⟩ => exact operandIdx_0 idx b n ch
  | ⟨1, _⟩ => exact operandIdx_1 idx b n ch
  | ⟨2, _⟩ => exact operandIdx_2 idx b n ch

end Gather

/-! ### The small tables, entry by entry -/

/-- Every entry of the table is in bounds: the mask is set at each of the three components. -/
theorem mask_apply (ch : Fin 3) : mask (ix1 ch) = 1#1 := by
  fin_cases ch <;> decide

/-- One more than the start index of component `ch`, read signed and clamped into [0, 2], is the input component the
    specification names: 2 + 1, 0 + 1, 1 + 1. -/
theorem src_eq (ch : Fin 3) : (Cert.Spec.src ch).val = 1 + min (idxC (ix2 ch 0)).toInt.toNat 2 := by
  fin_cases ch <;> decide

/-! ### The result at a point -/

/-- The composed term at point `(b, n)`, component `ch`: the argument at that point, component `src ch`. -/
theorem out_apply (x : (⟨S8x1000000x4, .f32⟩ : BufTy).Contents (Elt F)) (b : Fin 8) (n : Fin 1000000) (ch : Fin 3) :
    out x (ix3 b n ch) = x (ix3 b n (Cert.Spec.src ch)) := by
  unfold out
  rw [select_apply,
    broadcastInDim_apply ![2] bcast_S3_S8x1000000x3_2 mask (ix3 b n ch) (ix1 ch)
      (fun a => match a with | ⟨0, _⟩ => rfl),
    mask_apply, select_one, gather_apply]
  refine extractStridedSlice_apply ![0, 0, 1] x slices_S8x1000000x4_S8x1000000x3_0_0_1 _ (ix3 b n (Cert.Spec.src ch)) ?_
  intro a
  match a with
  | ⟨0, _⟩ => exact (Nat.zero_add _).symm
  | ⟨1, _⟩ => exact (Nat.zero_add _).symm
  | ⟨2, _⟩ => exact src_eq ch

/-- The composed term is the specification's function of the argument. -/
theorem out_eq_G (x : (⟨S8x1000000x4, .f32⟩ : BufTy).Contents (Elt F)) : out x = Cert.Spec.G x := by
  funext j
  rw [eq_ix3 j]
  exact out_apply x (j 0) (j 1) (j 2)

/-! ## The run, at the specification -/

/-- At the ideal instance, from any memory with zero counters: every weakly fair execution of the reference terminates
    with its result the specification's function of the argument, the argument unchanged. -/
theorem run (m : (l : Loc Cert.ReferenceIdeal.nD Cert.ReferenceIdeal.τ Cert.ReferenceIdeal.sig) → Buf (Elt Ideal) l)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v1)
            = Cert.Spec.G (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run _ _ _).mono (fun _ h c => ⟨(h c).1.trans (out_eq_G _), (h c).2⟩) (run_out m g)

end Cert.RefValue

end
-- ==== Proof.lean ====
/-
  The kernel moves data only. Its host program transposes the argument x : [8, 1000000, 4] to xt : [8, 4, 1000000];
  thirty-two workers on the two SparseCores then fill out_t : [3, 8, 1000000] with out_t (c, b, n) = xt (b, src c, n),
  src = (3, 1, 2), each worker copying the column blocks 32 k + w of width 3456 (and worker 31 the last 1216 columns)
  through a scratch buffer of its own, one copy at a time; the host transposes out_t to the result [8, 1000000, 3].
  The reference drops component 0 of every point and takes components (2, 0, 1) of what is left. Both are the
  function G x (b, n, c) = x (b, n, src c) of Proof/Spec.lean: no arithmetic on the numbers is involved, so the claim
  holds for every input and the precondition is not used.

  The three frames are the runs with their values dropped; the ideal pass rewrote nothing, so the preserved-by-
  idealization conjunct is trivial; the equivalence joins the idealized kernel's run, whose result is the second
  transpose of the target function of the first transpose, with the reference's run by the index equation of
  Proof/KI/Bridge.lean.
-/
import proofs.«216280_g62835371540565_cont_9to1_m_1109_19_alg».proof.Defs
import proofs.«216280_g62835371540565_cont_9to1_m_1109_19_alg».proof.Proof.Gen.Kernel
import proofs.«216280_g62835371540565_cont_9to1_m_1109_19_alg».proof.Proof.Gen.Kernel.Skeleton
import proofs.«216280_g62835371540565_cont_9to1_m_1109_19_alg».proof.Proof.Gen.KernelIdeal
import proofs.«216280_g62835371540565_cont_9to1_m_1109_19_alg».proof.Proof.Gen.KernelIdeal.Skeleton
import proofs.«216280_g62835371540565_cont_9to1_m_1109_19_alg».proof.Proof.Gen.ReferenceIdeal
import proofs.«216280_g62835371540565_cont_9to1_m_1109_19_alg».proof.Proof.Gen.Pre_finite_inputs
import proofs.«216280_g62835371540565_cont_9to1_m_1109_19_alg».proof.Proof.KB.Launch
import proofs.«216280_g62835371540565_cont_9to1_m_1109_19_alg».proof.Proof.KI.Launch
import proofs.«216280_g62835371540565_cont_9to1_m_1109_19_alg».proof.Proof.KI.Bridge
import proofs.«216280_g62835371540565_cont_9to1_m_1109_19_alg».proof.Proof.RefRun
import Idealize.ShloMosaic.Adequacy
import Idealize.ShloMosaic.Init

noncomputable section

namespace Cert.Proof

open Idealize.ShloMosaic Idealize.SL.Sem

/-- The word-level kernel runs to the end, nothing faulting, its argument unchanged. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Proof.KB.run_main (F := Bits) m ρ)

/-- So does the idealized kernel. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.Proof.KI.run_main (F := Ideal) m ρ)

/-- And the reference. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefValue.run m ρ)

/-- Both idealized programs end with the result array at `G` of the argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Proof.KI.resv m c, Cert.Proof.KI.run_main (F := Ideal) m ρ, ?_⟩
  refine (θ_run Cert.ReferenceIdeal.defs _ _).mono (fun _ h c => ⟨(h c).1.trans ?_, (h c).2⟩) (Cert.RefValue.run m' ρ')
  rw [hagree c]
  exact (Cert.Proof.KI.bridge _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
